-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x200x320 : Shape := ⟨4, ![4, 256, 200, 320]⟩
abbrev S_ : Shape := ⟨0, ![]⟩

class Facts : Prop where
  bcast_S_S4x256x200x320 : S_.BroadcastsInDim S4x256x200x320 (![] : Fin 0 → Fin S4x256x200x320.rank)
  reducesTo_S4x256x200x320_S_d0_1_2_3 : S4x256x200x320.ReducesTo [0, 1, 2, 3] S_
  h_S_ : 0 < S_.numel

variable [Facts]

def fn {F : FTy → Type} [FloatOps F] (main_arg0 : FVec F S4x256x200x320 .f32) : IVec S_ 1 :=
  let main_v0 : FVec F S4x256x200x320 .f32 := Host.absf main_arg0
  let main_cst : FVec F S_ .f32 := constant S_ .f32 0x7F800000#32
  let main_v1 : FVec F S4x256x200x320 .f32 := broadcastInDim S4x256x200x320 ![] bcast_S_S4x256x200x320 main_cst
  let main_v2 : IVec S4x256x200x320 1 := cmpf .olt main_v0 main_v1
  let main_c : IVec S_ 1 := constantI S_ 1 1#1
  let main_v3 : IVec S_ 1 := (fun x v => Host.reduce IntOp.andi x v reducesTo_S4x256x200x320_S_d0_1_2_3 h_S_) main_v2 main_c
  main_v3
-- ==== Kernel.lean ====
abbrev S4x256x200x320 : Shape := ⟨4, ![4, 256, 200, 320]⟩
abbrev S_ : Shape := ⟨0, ![]⟩
abbrev S4x256x208x328 : Shape := ⟨4, ![4, 256, 208, 328]⟩
abbrev S4x200x320 : Shape := ⟨3, ![4, 200, 320]⟩
abbrev S1x200x320 : Shape := ⟨3, ![1, 200, 320]⟩
abbrev S2x256x48x328 : Shape := ⟨4, ![2, 256, 48, 328]⟩
abbrev S2 : Shape := ⟨1, ![2]⟩
abbrev S1 : Shape := ⟨1, ![1]⟩
abbrev S1x256x48x328 : Shape := ⟨4, ![1, 256, 48, 328]⟩
abbrev S256x48x328 : Shape := ⟨3, ![256, 48, 328]⟩
abbrev S1x40x320 : Shape := ⟨3, ![1, 40, 320]⟩
abbrev S16x40x320 : Shape := ⟨3, ![16, 40, 320]⟩
abbrev S40x320 : Shape := ⟨2, ![40, 320]⟩
abbrev S16x48x328 : Shape := ⟨3, ![16, 48, 328]⟩
abbrev S16x48x320 : Shape := ⟨3, ![16, 48, 320]⟩

abbrev nBuf : Space → Nat
  | .hbm => 5
  | .vmem => 3
  | .smem => 0
  | _ => 0

abbrev bufTy : (tb : Table) → Fin (tcTables nBuf tb) → BufTy
  | .hbm, ⟨0, _⟩ => ⟨S4x256x200x320, .f32⟩
  | .hbm, ⟨1, _⟩ => ⟨S_, .f32⟩
  | .hbm, ⟨2, _⟩ => ⟨S_, .f32⟩
  | .hbm, ⟨3, _⟩ => ⟨S4x256x208x328, .f32⟩
  | .hbm, ⟨4, _⟩ => ⟨S4x200x320, .f32⟩
  | .local _ .vmem, ⟨0, _⟩ => ⟨S1x200x320, .f32⟩
  | .local _ .vmem, ⟨1, _⟩ => ⟨S1x200x320, .f32⟩
  | .local _ .vmem, ⟨2, _⟩ => ⟨S2x256x48x328, .f32⟩
  | _, _ => ⟨S4x256x200x320, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![4], ![false]⟩

def k0_off1 (i : grid0.Coords) : Fin 4 → Nat :=
  let arg0 : BitVec 32 := BitVec.ofNat 32 (i 0).val
  let c0_i32_4 : BitVec 32 := 0#32
  let c0_i32_5 : BitVec 32 := 0#32
  let c0_i32_6 : BitVec 32 := 0#32
  ![arg0.toNat, 0, 0, 0]
def k0_off2 (i : grid0.Coords) : Fin 4 → Nat :=
  let arg0 : BitVec 32 := BitVec.ofNat 32 (i 0).val
  let c0_i32_19 : BitVec 32 := 0#32
  let c40_i32 : BitVec 32 := 40#32
  let c0_i32_20 : BitVec 32 := 0#32
  ![arg0.toNat, 0, 40, 0]
@[reducible] def k0_t1_loop : Scf.Loop 32 :=
  let c0_i32_22 : BitVec 32 := 0#32
  let c16_i32 : BitVec 32 := 16#32
  let v19 : BitVec 32 := Scalar.addi c0_i32_22 c16_i32
  let c1_i32_23 : BitVec 32 := 1#32
  ⟨c0_i32_22, v19, c1_i32_23⟩
def k0_off3 (k0_t1 : Fin k0_t1_loop.trips) : Fin 3 → Nat :=
  let c0_i32_22 : BitVec 32 := 0#32
  let c1_i32_23 : BitVec 32 := 1#32
  let arg5 : BitVec 32 := Scf.iv c0_i32_22 c1_i32_23 k0_t1
  let c16_i32_142 : BitVec 32 := 16#32
  let v105 : BitVec 32 := Scalar.muli arg5 c16_i32_142
  let v108 : Index := Scalar.indexCast v105
  let c4 : Index := 4#32
  let c4_146 : Index := 4#32
  ![v108.toNat, 4, 4]
@[reducible] def k0_t2_loop : Scf.Loop 32 :=
  let c0_i32_27 : BitVec 32 := 0#32
  let c16_i32_28 : BitVec 32 := 16#32
  let v22 : BitVec 32 := Scalar.addi c0_i32_27 c16_i32_28
  let c1_i32_29 : BitVec 32 := 1#32
  ⟨c0_i32_27, v22, c1_i32_29⟩
def k0_off4 (k0_t2 : Fin k0_t2_loop.trips) : Fin 3 → Nat :=
  let c0_i32_27 : BitVec 32 := 0#32
  let c1_i32_29 : BitVec 32 := 1#32
  let arg5 : BitVec 32 := Scf.iv c0_i32_27 c1_i32_29 k0_t2
  let c16_i32_142 : BitVec 32 := 16#32
  let v105 : BitVec 32 := Scalar.muli arg5 c16_i32_142
  let v108 : Index := Scalar.indexCast v105
  let c0_146 : Index := 0#32
  let c0_147 : Index := 0#32
  ![v108.toNat, 0, 0]
def k0_off5 (i : grid0.Coords) : Fin 4 → Nat :=
  let arg0 : BitVec 32 := BitVec.ofNat 32 (i 0).val
  let c0_i32_46 : BitVec 32 := 0#32
  let c80_i32 : BitVec 32 := 80#32
  let c0_i32_47 : BitVec 32 := 0#32
  ![arg0.toNat, 0, 80, 0]
@[reducible] def k0_t3_loop : Scf.Loop 32 :=
  let c0_i32_50 : BitVec 32 := 0#32
  let c16_i32_51 : BitVec 32 := 16#32
  let v40 : BitVec 32 := Scalar.addi c0_i32_50 c16_i32_51
  let c1_i32_52 : BitVec 32 := 1#32
  ⟨c0_i32_50, v40, c1_i32_52⟩
def k0_off6 (k0_t3 : Fin k0_t3_loop.trips) : Fin 3 → Nat :=
  let c0_i32_50 : BitVec 32 := 0#32
  let c1_i32_52 : BitVec 32 := 1#32
  let arg5 : BitVec 32 := Scf.iv c0_i32_50 c1_i32_52 k0_t3
  let c16_i32_142 : BitVec 32 := 16#32
  let v105 : BitVec 32 := Scalar.muli arg5 c16_i32_142
  let v108 : Index := Scalar.indexCast v105
  let c4 : Index := 4#32
  let c4_146 : Index := 4#32
  ![v108.toNat, 4, 4]
@[reducible] def k0_t4_loop : Scf.Loop 32 :=
  let c0_i32_56 : BitVec 32 := 0#32
  let c16_i32_57 : BitVec 32 := 16#32
  let v43 : BitVec 32 := Scalar.addi c0_i32_56 c16_i32_57
  let c1_i32_58 : BitVec 32 := 1#32
  ⟨c0_i32_56, v43, c1_i32_58⟩
def k0_off7 (k0_t4 : Fin k0_t4_loop.trips) : Fin 3 → Nat :=
  let c0_i32_56 : BitVec 32 := 0#32
  let c1_i32_58 : BitVec 32 := 1#32
  let arg5 : BitVec 32 := Scf.iv c0_i32_56 c1_i32_58 k0_t4
  let c16_i32_142 : BitVec 32 := 16#32
  let v105 : BitVec 32 := Scalar.muli arg5 c16_i32_142
  let v108 : Index := Scalar.indexCast v105
  let c0_146 : Index := 0#32
  let c0_147 : Index := 0#32
  ![v108.toNat, 0, 0]
def k0_off8 (i : grid0.Coords) : Fin 4 → Nat :=
  let arg0 : BitVec 32 := BitVec.ofNat 32 (i 0).val
  let c0_i32_75 : BitVec 32 := 0#32
  let c120_i32 : BitVec 32 := 120#32
  let c0_i32_76 : BitVec 32 := 0#32
  ![arg0.toNat, 0, 120, 0]
@[reducible] def k0_t5_loop : Scf.Loop 32 :=
  let c0_i32_79 : BitVec 32 := 0#32
  let c16_i32_80 : BitVec 32 := 16#32
  let v61 : BitVec 32 := Scalar.addi c0_i32_79 c16_i32_80
  let c1_i32_81 : BitVec 32 := 1#32
  ⟨c0_i32_79, v61, c1_i32_81⟩
def k0_off9 (k0_t5 : Fin k0_t5_loop.trips) : Fin 3 → Nat :=
  let c0_i32_79 : BitVec 32 := 0#32
  let c1_i32_81 : BitVec 32 := 1#32
  let arg5 : BitVec 32 := Scf.iv c0_i32_79 c1_i32_81 k0_t5
  let c16_i32_142 : BitVec 32 := 16#32
  let v105 : BitVec 32 := Scalar.muli arg5 c16_i32_142
  let v108 : Index := Scalar.indexCast v105
  let c4 : Index := 4#32
  let c4_146 : Index := 4#32
  ![v108.toNat, 4, 4]
@[reducible] def k0_t6_loop : Scf.Loop 32 :=
  let c0_i32_85 : BitVec 32 := 0#32
  let c16_i32_86 : BitVec 32 := 16#32
  let v64 : BitVec 32 := Scalar.addi c0_i32_85 c16_i32_86
  let c1_i32_87 : BitVec 32 := 1#32
  ⟨c0_i32_85, v64, c1_i32_87⟩
def k0_off10 (k0_t6 : Fin k0_t6_loop.trips) : Fin 3 → Nat :=
  let c0_i32_85 : BitVec 32 := 0#32
  let c1_i32_87 : BitVec 32 := 1#32
  let arg5 : BitVec 32 := Scf.iv c0_i32_85 c1_i32_87 k0_t6
  let c16_i32_142 : BitVec 32 := 16#32
  let v105 : BitVec 32 := Scalar.muli arg5 c16_i32_142
  let v108 : Index := Scalar.indexCast v105
  let c0_146 : Index := 0#32
  let c0_147 : Index := 0#32
  ![v108.toNat, 0, 0]
def k0_off11 (i : grid0.Coords) : Fin 4 → Nat :=
  let arg0 : BitVec 32 := BitVec.ofNat 32 (i 0).val
  let c0_i32_104 : BitVec 32 := 0#32
  let c160_i32 : BitVec 32 := 160#32
  let c0_i32_105 : BitVec 32 := 0#32
  ![arg0.toNat, 0, 160, 0]
@[reducible] def k0_t7_loop : Scf.Loop 32 :=
  let c0_i32_108 : BitVec 32 := 0#32
  let c16_i32_109 : BitVec 32 := 16#32
  let v82 : BitVec 32 := Scalar.addi c0_i32_108 c16_i32_109
  let c1_i32_110 : BitVec 32 := 1#32
  ⟨c0_i32_108, v82, c1_i32_110⟩
def k0_off12 (k0_t7 : Fin k0_t7_loop.trips) : Fin 3 → Nat :=
  let c0_i32_108 : BitVec 32 := 0#32
  let c1_i32_110 : BitVec 32 := 1#32
  let arg5 : BitVec 32 := Scf.iv c0_i32_108 c1_i32_110 k0_t7
  let c16_i32_142 : BitVec 32 := 16#32
  let v105 : BitVec 32 := Scalar.muli arg5 c16_i32_142
  let v108 : Index := Scalar.indexCast v105
  let c4 : Index := 4#32
  let c4_146 : Index := 4#32
  ![v108.toNat, 4, 4]
@[reducible] def k0_t8_loop : Scf.Loop 32 :=
  let c0_i32_114 : BitVec 32 := 0#32
  let c16_i32_115 : BitVec 32 := 16#32
  let v85 : BitVec 32 := Scalar.addi c0_i32_114 c16_i32_115
  let c1_i32_116 : BitVec 32 := 1#32
  ⟨c0_i32_114, v85, c1_i32_116⟩
def k0_off13 (k0_t8 : Fin k0_t8_loop.trips) : Fin 3 → Nat :=
  let c0_i32_114 : BitVec 32 := 0#32
  let c1_i32_116 : BitVec 32 := 1#32
  let arg5 : BitVec 32 := Scf.iv c0_i32_114 c1_i32_116 k0_t8
  let c16_i32_142 : BitVec 32 := 16#32
  let v105 : BitVec 32 := Scalar.muli arg5 c16_i32_142
  let v108 : Index := Scalar.indexCast v105
  let c0_146 : Index := 0#32
  let c0_147 : Index := 0#32
  ![v108.toNat, 0, 0]
@[reducible] def k0_t9_loop : Scf.Loop 32 :=
  let c0_i32_130 : BitVec 32 := 0#32
  let c16_i32_131 : BitVec 32 := 16#32
  let v97 : BitVec 32 := Scalar.addi c0_i32_130 c16_i32_131
  let c1_i32_132 : BitVec 32 := 1#32
  ⟨c0_i32_130, v97, c1_i32_132⟩
def k0_off14 (k0_t9 : Fin k0_t9_loop.trips) : Fin 3 → Nat :=
  let c0_i32_130 : BitVec 32 := 0#32
  let c1_i32_132 : BitVec 32 := 1#32
  let arg5 : BitVec 32 := Scf.iv c0_i32_130 c1_i32_132 k0_t9
  let c16_i32_142 : BitVec 32 := 16#32
  let v105 : BitVec 32 := Scalar.muli arg5 c16_i32_142
  let v108 : Index := Scalar.indexCast v105
  let c4 : Index := 4#32
  let c4_146 : Index := 4#32
  ![v108.toNat, 4, 4]
@[reducible] def k0_t10_loop : Scf.Loop 32 :=
  let c0_i32_136 : BitVec 32 := 0#32
  let c16_i32_137 : BitVec 32 := 16#32
  let v100 : BitVec 32 := Scalar.addi c0_i32_136 c16_i32_137
  let c1_i32_138 : BitVec 32 := 1#32
  ⟨c0_i32_136, v100, c1_i32_138⟩
def k0_off15 (k0_t10 : Fin k0_t10_loop.trips) : Fin 3 → Nat :=
  let c0_i32_136 : BitVec 32 := 0#32
  let c1_i32_138 : BitVec 32 := 1#32
  let arg5 : BitVec 32 := Scf.iv c0_i32_136 c1_i32_138 k0_t10
  let c16_i32_142 : BitVec 32 := 16#32
  let v105 : BitVec 32 := Scalar.muli arg5 c16_i32_142
  let v108 : Index := Scalar.indexCast v105
  let c0_146 : Index := 0#32
  let c0_147 : Index := 0#32
  ![v108.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  pads_S4x256x200x320_S4x256x208x328_000_000_440_440 : S4x256x200x320.Pads (![0, 0, 4, 4] : Fin 4 → Nat) ![0, 0, 4, 4] ![0, 0, 0, 0] S4x256x208x328
  h_S_ : 0 < S_.numel
  inb_S2_S1_0 : ∀ a, (![0] : Fin 1 → Nat) a + S1.size a ≤ S2.size a
  squeezes_S1_S_ : S1.Squeezes S_
  inb_S2x256x48x328_S1x256x48x328_0_0_0_0 : ∀ a, (![0, 0, 0, 0] : Fin 4 → Nat) a + S1x256x48x328.size a ≤ S2x256x48x328.size a
  squeezes_S1x256x48x328_S256x48x328 : S1x256x48x328.Squeezes S256x48x328
  inb_S2_S1_1 : ∀ a, (![1] : Fin 1 → Nat) a + S1.size a ≤ S2.size a
  inb_S2x256x48x328_S1x256x48x328_1_0_0_0 : ∀ a, (![1, 0, 0, 0] : Fin 4 → Nat) a + S1x256x48x328.size a ≤ S2x256x48x328.size a
  h_S16x40x320 : 0 < S16x40x320.numel
  reduces_S16x40x320_S40x320 : S16x40x320.Reduces [0] S40x320
  shapeCasts_S40x320_S1x40x320 : S40x320.ShapeCasts S1x40x320
  h_S16x48x328 : 0 < S16x48x328.numel
  slices_S16x48x328_o0_0_0_S16x48x320 : S16x48x328.Slices ![0, 0, 0] S16x48x320
  slices_S16x48x328_o0_0_1_S16x48x320 : S16x48x328.Slices ![0, 0, 1] S16x48x320
  slices_S16x48x328_o0_0_2_S16x48x320 : S16x48x328.Slices ![0, 0, 2] S16x48x320
  slices_S16x48x328_o0_0_3_S16x48x320 : S16x48x328.Slices ![0, 0, 3] S16x48x320
  slices_S16x48x328_o0_0_4_S16x48x320 : S16x48x328.Slices ![0, 0, 4] S16x48x320
  slices_S16x48x328_o0_0_5_S16x48x320 : S16x48x328.Slices ![0, 0, 5] S16x48x320
  slices_S16x48x328_o0_0_6_S16x48x320 : S16x48x328.Slices ![0, 0, 6] S16x48x320
  slices_S16x48x328_o0_0_7_S16x48x320 : S16x48x328.Slices ![0, 0, 7] S16x48x320
  slices_S16x48x328_o0_0_8_S16x48x320 : S16x48x328.Slices ![0, 0, 8] S16x48x320
  slices_S16x48x320_o0_0_0_S16x40x320 : S16x48x320.Slices ![0, 0, 0] S16x40x320
  slices_S16x48x320_o0_1_0_S16x40x320 : S16x48x320.Slices ![0, 1, 0] S16x40x320
  slices_S16x48x320_o0_2_0_S16x40x320 : S16x48x320.Slices ![0, 2, 0] S16x40x320
  slices_S16x48x320_o0_3_0_S16x40x320 : S16x48x320.Slices ![0, 3, 0] S16x40x320
  slices_S16x48x320_o0_4_0_S16x40x320 : S16x48x320.Slices ![0, 4, 0] S16x40x320
  slices_S16x48x320_o0_5_0_S16x40x320 : S16x48x320.Slices ![0, 5, 0] S16x40x320
  slices_S16x48x320_o0_6_0_S16x40x320 : S16x48x320.Slices ![0, 6, 0] S16x40x320
  slices_S16x48x320_o0_7_0_S16x40x320 : S16x48x320.Slices ![0, 7, 0] S16x40x320
  slices_S16x48x320_o0_8_0_S16x40x320 : S16x48x320.Slices ![0, 8, 0] S16x40x320
  slices_S16x48x328_o0_4_4_S16x40x320 : S16x48x328.Slices ![0, 4, 4] S16x40x320
  broadcasts_S1x40x320_S16x40x320 : S1x40x320.Broadcasts S16x40x320
  inb_S1x200x320_S1x40x320_0_0_0 : ∀ a, (![0, 0, 0] : Fin 3 → Nat) a + S1x40x320.size a ≤ S1x200x320.size a
  h_S1x40x320 : 0 < S1x40x320.numel
  shapeCasts_S1x40x320_S40x320 : S1x40x320.ShapeCasts S40x320
  inb_S1x200x320_S1x40x320_0_40_0 : ∀ a, (![0, 40, 0] : Fin 3 → Nat) a + S1x40x320.size a ≤ S1x200x320.size a
  inb_S1x200x320_S1x40x320_0_80_0 : ∀ a, (![0, 80, 0] : Fin 3 → Nat) a + S1x40x320.size a ≤ S1x200x320.size a
  inb_S1x200x320_S1x40x320_0_120_0 : ∀ a, (![0, 120, 0] : Fin 3 → Nat) a + S1x40x320.size a ≤ S1x200x320.size a
  inb_S1x200x320_S1x40x320_0_160_0 : ∀ a, (![0, 160, 0] : Fin 3 → Nat) a + S1x40x320.size a ≤ S1x200x320.size a
  hcc0_scratch1 : 2 + S2.numel ≤ 4
  hrank0 : 0 < grid0.rank
  k0_off1_inb : ∀ i : grid0.Coords, ∀ a, (k0_off1 i) a + S1x256x48x328.size a ≤ S4x256x208x328.size a
  k0_off2_inb : ∀ i : grid0.Coords, ∀ a, (k0_off2 i) a + S1x256x48x328.size a ≤ S4x256x208x328.size a
  k0_t1_ok : k0_t1_loop.OK
  k0_off3_inb : ∀ k0_t1 : Fin k0_t1_loop.trips, ∀ a, (k0_off3 k0_t1) a + S16x40x320.size a ≤ S256x48x328.size a
  k0_t2_ok : k0_t2_loop.OK
  k0_off4_inb : ∀ k0_t2 : Fin k0_t2_loop.trips, ∀ a, (k0_off4 k0_t2) a + S16x48x328.size a ≤ S256x48x328.size a
  k0_off5_inb : ∀ i : grid0.Coords, ∀ a, (k0_off5 i) a + S1x256x48x328.size a ≤ S4x256x208x328.size a
  k0_t3_ok : k0_t3_loop.OK
  k0_off6_inb : ∀ k0_t3 : Fin k0_t3_loop.trips, ∀ a, (k0_off6 k0_t3) a + S16x40x320.size a ≤ S256x48x328.size a
  k0_t4_ok : k0_t4_loop.OK
  k0_off7_inb : ∀ k0_t4 : Fin k0_t4_loop.trips, ∀ a, (k0_off7 k0_t4) a + S16x48x328.size a ≤ S256x48x328.size a
  k0_off8_inb : ∀ i : grid0.Coords, ∀ a, (k0_off8 i) a + S1x256x48x328.size a ≤ S4x256x208x328.size a
  k0_t5_ok : k0_t5_loop.OK
  k0_off9_inb : ∀ k0_t5 : Fin k0_t5_loop.trips, ∀ a, (k0_off9 k0_t5) a + S16x40x320.size a ≤ S256x48x328.size a
  k0_t6_ok : k0_t6_loop.OK
  k0_off10_inb : ∀ k0_t6 : Fin k0_t6_loop.trips, ∀ a, (k0_off10 k0_t6) a + S16x48x328.size a ≤ S256x48x328.size a
  k0_off11_inb : ∀ i : grid0.Coords, ∀ a, (k0_off11 i) a + S1x256x48x328.size a ≤ S4x256x208x328.size a
  k0_t7_ok : k0_t7_loop.OK
  k0_off12_inb : ∀ k0_t7 : Fin k0_t7_loop.trips, ∀ a, (k0_off12 k0_t7) a + S16x40x320.size a ≤ S256x48x328.size a
  k0_t8_ok : k0_t8_loop.OK
  k0_off13_inb : ∀ k0_t8 : Fin k0_t8_loop.trips, ∀ a, (k0_off13 k0_t8) a + S16x48x328.size a ≤ S256x48x328.size a
  k0_t9_ok : k0_t9_loop.OK
  k0_off14_inb : ∀ k0_t9 : Fin k0_t9_loop.trips, ∀ a, (k0_off14 k0_t9) a + S16x40x320.size a ≤ S256x48x328.size a
  k0_t10_ok : k0_t10_loop.OK
  k0_off15_inb : ∀ k0_t10 : Fin k0_t10_loop.trips, ∀ a, (k0_off15 k0_t10) a + S16x48x328.size a ≤ S256x48x328.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x200x320.size a ≤ S4x200x320.size a
  hwx0_0 : ∀ i : grid0.Coords, EltTy.bits .f32 = 32 ∨ (Rect.block (s := S4x200x320) S1x200x320.size (cc0_transform_1 i) (hinb0_0 i)).WholeWords (EltTy.packing .f32)

variable [Facts₀]

abbrev cc0_scratch1 : DmaSems sig S2 := SemArray.consecutive 2 S2 hcc0_scratch1

abbrev win0_0 : Pipeline.Window sig grid0 :=
  Pipeline.Window.ofSpec (Memref.whole main_v1) S1x200x320.size cc0_transform_1 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4x256x200x320 : Shape := ⟨4, ![4, 256, 200, 320]⟩
abbrev S_ : Shape := ⟨0, ![]⟩
abbrev S4x200x320 : Shape := ⟨3, ![4, 200, 320]⟩
abbrev S4x1x200x320 : Shape := ⟨4, ![4, 1, 200, 320]⟩

abbrev nBuf : Space → Nat
  | .hbm => 16
  | .vmem => 0
  | .smem => 0
  | _ => 0

abbrev bufTy : (tb : Table) → Fin (tcTables nBuf tb) → BufTy
  | .hbm, ⟨0, _⟩ => ⟨S4x256x200x320, .f32⟩
  | .hbm, ⟨1, _⟩ => ⟨S_, .f32⟩
  | .hbm, ⟨2, _⟩ => ⟨S4x200x320, .f32⟩
  | .hbm, ⟨3, _⟩ => ⟨S4x1x200x320, .f32⟩
  | .hbm, ⟨4, _⟩ => ⟨S4x256x200x320, .f32⟩
  | .hbm, ⟨5, _⟩ => ⟨S4x256x200x320, .i1⟩
  | .hbm, ⟨6, _⟩ => ⟨S_, .f32⟩
  | .hbm, ⟨7, _⟩ => ⟨S_, .f32⟩
  | .hbm, ⟨8, _⟩ => ⟨S4x256x200x320, .f32⟩
  | .hbm, ⟨9, _⟩ => ⟨S4x256x200x320, .i1⟩
  | .hbm, ⟨10, _⟩ => ⟨S4x256x200x320, .i1⟩
  | .hbm, ⟨11, _⟩ => ⟨S_, .f32⟩
  | .hbm, ⟨12, _⟩ => ⟨S4x256x200x320, .f32⟩
  | .hbm, ⟨13, _⟩ => ⟨S4x256x200x320, .f32⟩
  | .hbm, ⟨14, _⟩ => ⟨S_, .f32⟩
  | .hbm, ⟨15, _⟩ => ⟨S4x200x320, .f32⟩
  | _, _ => ⟨S4x256x200x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_call0_v0 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  reducesTo_S4x256x200x320_S4x200x320_d1 : S4x256x200x320.ReducesTo [1] S4x200x320
  h_S_ : 0 < S_.numel
  bcast_S4x200x320_S4x1x200x320_0_2_3 : S4x200x320.BroadcastsInDim S4x1x200x320 (![0, 2, 3] : Fin 3 → Fin S4x1x200x320.rank)
  bcast_S4x1x200x320_S4x256x200x320_0_1_2_3 : S4x1x200x320.BroadcastsInDim S4x256x200x320 (![0, 1, 2, 3] : Fin 4 → Fin S4x256x200x320.rank)
  bcast_S_S_ : S_.BroadcastsInDim S_ (![] : Fin 0 → Fin S_.rank)
  reduceWindows_S4x256x200x320_S4x256x200x320_w1s1p0_0_w1s1p0_0_w9s1p4_4_w9s1p4_4 : S4x256x200x320.ReduceWindows (![1, 1, 9, 9] : Fin 4 → Nat) ![1, 1, 1, 1] ![0, 0, 4, 4] ![0, 0, 4, 4] S4x256x200x320
  bcast_S_S4x256x200x320 : S_.BroadcastsInDim S4x256x200x320 (![] : Fin 0 → Fin S4x256x200x320.rank)

variable [Facts₀]

class Facts : Prop extends Facts₀ where

variable [Facts]
-- ==== Proof.KernelKitD.lean ====
/-
  The region of `Kernel` at the resource algebra that carries the transfers' counters: @main up to its one region,
  the frame claim's post from a run's, the kernel's two own DMA cells, the padded array it copies from by itself,
  and the region's invariant conjunct by conjunct — the scratch buffer at some contents, the generator register,
  both cells at zero, the padded array whole at the contents the region finds.
-/
import proofs.«177967_j11708080849517_2_alg».proof.Proof.Gen.Kernel.Frame
import Idealize.ShloMosaic.Lib.Transfers
import Idealize.ShloMosaic.Lib.Writes
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region: the two stretches of host operations (the constant -∞; its conversion and the padding),
    then the region. -/
theorem hmainD (𝒱₀ : Variants) : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The frame claim's post from a run to the region's post: the argument array is staged by no window, so the run
    leaves it as the region found it, and no host operation before the region writes it. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Gen.V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-- The staging memref of the output window at point `t`, as the pipeline passes it, and its wholeness. -/
abbrev ms0_0 (t : Fin cfg0.N) : Memref sig .tc .vmem S1x200x320 .f32 := win0_0.stage (cfg0.slots t 0)
abbrev hs0_0 (t : Fin cfg0.N) : (ms0_0 t).IsWhole := hstage0_0 ((cfg0.slots t 0).cast nbuf0_0)
/-- The scratch operand (two slots of 256 × 48 × 328) and the padded array left in HBM, whole. -/
abbrev scM : Memref sig .tc .vmem S2x256x48x328 .f32 := Memref.whole cc0_scratch0
abbrev hbM : Memref sig .tc .hbm S4x256x208x328 .f32 := Memref.whole main_v0
/-- A memref's buffer on core `c`: its contents type, and the buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two DMA cells (one per slot of the scratch): none is a window's. -/
abbrev osem0 : Fin 2 → SemLoc sig := fun j => (![SemLoc.dma 2, SemLoc.dma 3] : Fin 2 → SemLoc sig) j
theorem ownSemFacts0 : Pipeline.OwnSemFacts spec0 osem0 := by decide
/-- Both cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
/-- The array the body copies from by itself: the padded image, unscoped and no window's array. -/
def H0 : Finset (Ref sig .tc) := {main_v0}
theorem H0_sub : H0 ⊆ Pipeline.restRefs sig spec0 := by decide
/-- Its points-to at the contents the region finds, listed. -/
theorem hbmPts0_eq (c : Dev nD) :
    (bigSep H0 (fun b => ((c : Thread nD τ).loc b) ↦{fullShare} Gen.V m c b) : sProp 𝕄) = iprop(hbPt c hbM (Gen.V m c main_v0)) := by
  rw [BI.bigSep_eq_bigSepL_of_eq [main_v0] (by decide) (by decide)]; rfl

/-- The region's invariant, conjunct by conjunct. -/
theorem PhiD0_eq (c : Dev nD) :
    (Pipeline.ΦD osem0 spec0 H0 (Gen.V m) c : sProp 𝕄)
      = iprop(iprop((∃ d, owns (c : Thread nD τ) scM fullShare d)) ∗ (∃ r, prngReg c r)
          ∗ iprop(semVal ((c : Thread nD τ), SemLoc.dma 2) 0 ∗ semVal ((c : Thread nD τ), SemLoc.dma 3) 0) ∗ iprop(hbPt c hbM (Gen.V m c main_v0))) := by
  rw [Pipeline.ΦD_eq, scopedRest0_eq, ownSems00_eq, hbmPts0_eq]; simp only [scM, owns_whole]; try rfl

end Cert.Kernel.Hand

end
-- ==== Proof.KernelSlots.lean ====
import proofs.«177967_j11708080849517_2_alg».proof.Proof.KernelKitD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two slots of the scratch buffer

The scratch `[2, 256, 48, 328]` is two slots `[256, 48, 328]`; the kernel copies a tile of the padded image into one
slot while it reads the other, so the buffer is held slot by slot: the slots' index sets are disjoint and cover the buffer. -/

theorem inb_slot (s : Fin 2) : ∀ a, (![s.val, 0, 0, 0] : Fin 4 → Nat) a + S1x256x48x328.size a ≤ S2x256x48x328.size a := by
  have := s.isLt; intro a; fin_cases a <;> simp <;> omega

/-- Slot 0 and slot 1, spelt as the body spells a transfer's destination and a load's memref. -/
abbrev slot0M : Memref sig .tc .vmem S256x48x328 .f32 :=
  (scM.slice (Rect.unit (s := S2x256x48x328) ![0, 0, 0, 0] S1x256x48x328.size inb_S2x256x48x328_S1x256x48x328_0_0_0_0) (fun _ => rfl)).squeeze S256x48x328 squeezes_S1x256x48x328_S256x48x328
abbrev slot1M : Memref sig .tc .vmem S256x48x328 .f32 :=
  (scM.slice (Rect.unit (s := S2x256x48x328) ![1, 0, 0, 0] S1x256x48x328.size inb_S2x256x48x328_S1x256x48x328_1_0_0_0) (fun _ => rfl)).squeeze S256x48x328 squeezes_S1x256x48x328_S256x48x328

abbrev slotSet (s : Fin 2) : Finset S2x256x48x328.Idx := (Rect.unit (s := S2x256x48x328) ![s.val, 0, 0, 0] S1x256x48x328.size (inb_slot s)).set
theorem slot0_set : slot0M.view.set = slotSet 0 := by
  simp only [slot0M, Memref.view_squeeze, View.set_reshape]; exact View.set_slice_whole _ _
theorem slot1_set : slot1M.view.set = slotSet 1 := by
  simp only [slot1M, Memref.view_squeeze, View.set_reshape]; exact View.set_slice_whole _ _
theorem slots_disjoint (s s' : Fin 2) (h : s ≠ s') : Disjoint (slotSet s) (slotSet s') :=
  Ring.lead_disjoint (s := S2x256x48x328) (0 : Fin 4) 1 (fun s : Fin 2 => (![s.val, 0, 0, 0] : Fin 4 → Nat)) S1x256x48x328.size inb_slot (fun s => by simp) rfl s s' h
theorem slots_cover : Finset.univ.biUnion slotSet = Finset.univ :=
  Ring.lead_cover (s := S2x256x48x328) (0 : Fin 4) 1 (fun s : Fin 2 => (![s.val, 0, 0, 0] : Fin 4 → Nat)) S1x256x48x328.size inb_slot (fun s => by simp)
    (fun s a ha => by fin_cases a <;> first | exact absurd rfl ha | rfl) rfl (fun a ha => by fin_cases a <;> first | exact absurd rfl ha | rfl) rfl

section InOut
variable (c : Dev nD)
/-- A slot held at contents `f` (a contents of the whole scratch buffer, read on the slot's elements). -/
abbrev slot0P (f : HbBuf (F := F) c slot0M) : sProp 𝕄 := slot0M.view.loc (c : Thread nD τ) ↦[slot0M.view.set]{fullShare} f
abbrev slot1P (f : HbBuf (F := F) c slot1M) : sProp 𝕄 := slot1M.view.loc (c : Thread nD τ) ↦[slot1M.view.set]{fullShare} f
theorem slot0P_eq (f) : slot0P (F := F) c f = (((c : Thread nD τ).loc cc0_scratch0) ↦[slotSet 0]{fullShare} f : sProp 𝕄) := by
  unfold slot0P; rw [slot0_set]
theorem slot1P_eq (f) : slot1P (F := F) c f = (((c : Thread nD τ).loc cc0_scratch0) ↦[slotSet 1]{fullShare} f : sProp 𝕄) := by
  unfold slot1P; rw [slot1_set]
set_option maxHeartbeats 1000000 in
/-- The scratch whole at anything is its two slots at something each, and back. -/
theorem slots_in : iprop(∃ d, owns (c : Thread nD τ) scM fullShare d) ⊢ (iprop((∃ f, slot0P (F := F) c f) ∗ ∃ f, slot1P (F := F) c f) : sProp 𝕄) := by
  simp only [scM, owns_whole]
  exact Ring.slots2_split (U := Pipeline.UD sig nD τ) (ℓ := (c : Thread nD τ).loc cc0_scratch0) (q := fullShare) slotSet slots_disjoint slots_cover
    (slot0P c) (slot1P c) (slot0P_eq c) (slot1P_eq c)
set_option maxHeartbeats 1000000 in
theorem slots_out : (iprop((∃ f, slot0P (F := F) c f) ∗ ∃ f, slot1P (F := F) c f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slot0P c) (slot1P c) (slot0P_eq c) (slot1P_eq c)
end InOut

end Cert.Kernel.Hand

end
-- ==== Proof.KernelPay.lean ====
import proofs.«177967_j11708080849517_2_alg».proof.Proof.KernelSlots

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One trip's arithmetic, in the two loop regions

`dmPay`: the running channel maximum of a tile — the carried `[1, 40, 320]` maximum against the maximum over the
16 channels of the chunk `[16, 40, 320]` just loaded. `probPay`: the running sum — the chunk `[16, 48, 328]` with its
halo; its maximum over nine shifts along the columns, then over nine shifts along the rows (the 9 × 9 window maximum of
every pixel of the chunk's `[16, 40, 320]` core); the core kept where it equals both the tile's channel maximum `dm`
and that window maximum, zero elsewhere; summed over the 16 channels and added to the carried sum. -/

def dmPay (arg6 : FVec F S1x40x320 .f32) (v109 : Vec F S16x40x320 .f32) : FVec F S1x40x320 .f32 :=
  have cst_147 : FVec F S40x320 .f32 := constant S40x320 .f32 0xFF800000#32
  have v110 : FVec F S40x320 .f32 := multiReduction .maximumf [0] S40x320 v109 0xFF800000#32 reduces_S16x40x320_S40x320 (.inl rfl) rfl
  have v111 : FVec F S1x40x320 .f32 := shapeCast S1x40x320 v110 shapeCasts_S40x320_S1x40x320
  have v112 : FVec F S1x40x320 .f32 := maximumf arg6 v111
  v112

def probPay (dm : FVec F S1x40x320 .f32) (arg6 : FVec F S40x320 .f32) (v109 : Vec F S16x48x328 .f32) : FVec F S40x320 .f32 :=
  have v110 : FVec F S16x48x320 .f32 := extractStridedSlice S16x48x320 ![0, 0, 0] v109 slices_S16x48x328_o0_0_0_S16x48x320
  have v111 : FVec F S16x48x320 .f32 := extractStridedSlice S16x48x320 ![0, 0, 1] v109 slices_S16x48x328_o0_0_1_S16x48x320
  have v112 : FVec F S16x48x320 .f32 := maximumf v110 v111
  have v113 : FVec F S16x48x320 .f32 := extractStridedSlice S16x48x320 ![0, 0, 2] v109 slices_S16x48x328_o0_0_2_S16x48x320
  have v114 : FVec F S16x48x320 .f32 := maximumf v112 v113
  have v115 : FVec F S16x48x320 .f32 := extractStridedSlice S16x48x320 ![0, 0, 3] v109 slices_S16x48x328_o0_0_3_S16x48x320
  have v116 : FVec F S16x48x320 .f32 := maximumf v114 v115
  have v117 : FVec F S16x48x320 .f32 := extractStridedSlice S16x48x320 ![0, 0, 4] v109 slices_S16x48x328_o0_0_4_S16x48x320
  have v118 : FVec F S16x48x320 .f32 := maximumf v116 v117
  have v119 : FVec F S16x48x320 .f32 := extractStridedSlice S16x48x320 ![0, 0, 5] v109 slices_S16x48x328_o0_0_5_S16x48x320
  have v120 : FVec F S16x48x320 .f32 := maximumf v118 v119
  have v121 : FVec F S16x48x320 .f32 := extractStridedSlice S16x48x320 ![0, 0, 6] v109 slices_S16x48x328_o0_0_6_S16x48x320
  have v122 : FVec F S16x48x320 .f32 := maximumf v120 v121
  have v123 : FVec F S16x48x320 .f32 := extractStridedSlice S16x48x320 ![0, 0, 7] v109 slices_S16x48x328_o0_0_7_S16x48x320
  have v124 : FVec F S16x48x320 .f32 := maximumf v122 v123
  have v125 : FVec F S16x48x320 .f32 := extractStridedSlice S16x48x320 ![0, 0, 8] v109 slices_S16x48x328_o0_0_8_S16x48x320
  have v126 : FVec F S16x48x320 .f32 := maximumf v124 v125
  have v127 : FVec F S16x40x320 .f32 := extractStridedSlice S16x40x320 ![0, 0, 0] v126 slices_S16x48x320_o0_0_0_S16x40x320
  have v128 : FVec F S16x40x320 .f32 := extractStridedSlice S16x40x320 ![0, 1, 0] v126 slices_S16x48x320_o0_1_0_S16x40x320
  have v129 : FVec F S16x40x320 .f32 := maximumf v127 v128
  have v130 : FVec F S16x40x320 .f32 := extractStridedSlice S16x40x320 ![0, 2, 0] v126 slices_S16x48x320_o0_2_0_S16x40x320
  have v131 : FVec F S16x40x320 .f32 := maximumf v129 v130
  have v132 : FVec F S16x40x320 .f32 := extractStridedSlice S16x40x320 ![0, 3, 0] v126 slices_S16x48x320_o0_3_0_S16x40x320
  have v133 : FVec F S16x40x320 .f32 := maximumf v131 v132
  have v134 : FVec F S16x40x320 .f32 := extractStridedSlice S16x40x320 ![0, 4, 0] v126 slices_S16x48x320_o0_4_0_S16x40x320
  have v135 : FVec F S16x40x320 .f32 := maximumf v133 v134
  have v136 : FVec F S16x40x320 .f32 := extractStridedSlice S16x40x320 ![0, 5, 0] v126 slices_S16x48x320_o0_5_0_S16x40x320
  have v137 : FVec F S16x40x320 .f32 := maximumf v135 v136
  have v138 : FVec F S16x40x320 .f32 := extractStridedSlice S16x40x320 ![0, 6, 0] v126 slices_S16x48x320_o0_6_0_S16x40x320
  have v139 : FVec F S16x40x320 .f32 := maximumf v137 v138
  have v140 : FVec F S16x40x320 .f32 := extractStridedSlice S16x40x320 ![0, 7, 0] v126 slices_S16x48x320_o0_7_0_S16x40x320
  have v141 : FVec F S16x40x320 .f32 := maximumf v139 v140
  have v142 : FVec F S16x40x320 .f32 := extractStridedSlice S16x40x320 ![0, 8, 0] v126 slices_S16x48x320_o0_8_0_S16x40x320
  have v143 : FVec F S16x40x320 .f32 := maximumf v141 v142
  have v144 : FVec F S16x40x320 .f32 := extractStridedSlice S16x40x320 ![0, 4, 4] v109 slices_S16x48x328_o0_4_4_S16x40x320
  have v145 : FVec F S16x40x320 .f32 := broadcastTo S16x40x320 dm broadcasts_S1x40x320_S16x40x320
  have v146 : IVec S16x40x320 1 := cmpf .oeq v144 v145
  have v147 : IVec S16x40x320 1 := cmpf .oeq v144 v143
  have v148 : IVec S16x40x320 1 := andi v146 v147
  have cst_148 : F .f32 := Scalar.ofBits .f32 0x00000000#32
  have v149 : FVec F S16x40x320 .f32 := broadcast S16x40x320 cst_148
  have v150 : FVec F S16x40x320 .f32 := select v148 v144 v149
  have cst_149 : FVec F S40x320 .f32 := constant S40x320 .f32 0x00000000#32
  have v151 : FVec F S40x320 .f32 := multiReduction .add [0] S40x320 v150 0x00000000#32 reduces_S16x40x320_S40x320 (.inl rfl) rfl
  have v152 : FVec F S40x320 .f32 := addf arg6 v151
  v152

/-- The tile loops' initial values: -∞ everywhere for the maximum, zero everywhere for the sum. -/
def dmInit : FVec F S1x40x320 .f32 := broadcast S1x40x320 (Scalar.ofBits .f32 0xFF800000#32 : F .f32)
def probInit : FVec F S40x320 .f32 := broadcast S40x320 (Scalar.ofBits .f32 0x00000000#32 : F .f32)

/-! ## The loop regions, lifted: one load through a slot, then the trip's arithmetic

The five tiles' loops are the same four regions: the channel-maximum loop and the kept-sum loop, each reading slot 0 or slot 1. -/

def body_t1 : Fin k0_t1_loop.trips → FVec F S1x40x320 .f32 → Prog (TpuEff nD τ sig (Elt F) Λ₀ .tc) (FVec F S1x40x320 .f32) :=
  fun k arg6 => do
    let v109 : Vec F S16x40x320 .f32 ← Prog.lift (.load (slot0M) (Rect.unit (s := S256x48x328) (k0_off3 k) S16x40x320.size (k0_off3_inb k)).toLoadRect (View.loadsAt_vmem h_S16x40x320))
    pure (dmPay arg6 v109)

def body_t2 (dm : FVec F S1x40x320 .f32) : Fin k0_t2_loop.trips → FVec F S40x320 .f32 → Prog (TpuEff nD τ sig (Elt F) Λ₀ .tc) (FVec F S40x320 .f32) :=
  fun k arg6 => do
    let v109 : Vec F S16x48x328 .f32 ← Prog.lift (.load (slot0M) (Rect.unit (s := S256x48x328) (k0_off4 k) S16x48x328.size (k0_off4_inb k)).toLoadRect (View.loadsAt_vmem h_S16x48x328))
    pure (probPay dm arg6 v109)

def body_t3 : Fin k0_t3_loop.trips → FVec F S1x40x320 .f32 → Prog (TpuEff nD τ sig (Elt F) Λ₀ .tc) (FVec F S1x40x320 .f32) :=
  fun k arg6 => do
    let v109 : Vec F S16x40x320 .f32 ← Prog.lift (.load (slot1M) (Rect.unit (s := S256x48x328) (k0_off6 k) S16x40x320.size (k0_off6_inb k)).toLoadRect (View.loadsAt_vmem h_S16x40x320))
    pure (dmPay arg6 v109)

def body_t4 (dm : FVec F S1x40x320 .f32) : Fin k0_t4_loop.trips → FVec F S40x320 .f32 → Prog (TpuEff nD τ sig (Elt F) Λ₀ .tc) (FVec F S40x320 .f32) :=
  fun k arg6 => do
    let v109 : Vec F S16x48x328 .f32 ← Prog.lift (.load (slot1M) (Rect.unit (s := S256x48x328) (k0_off7 k) S16x48x328.size (k0_off7_inb k)).toLoadRect (View.loadsAt_vmem h_S16x48x328))
    pure (probPay dm arg6 v109)

end Cert.Kernel.Hand

end
-- ==== Proof.KernelLoops.lean ====
import proofs.«177967_j11708080849517_2_alg».proof.Proof.KernelPay
import Idealize.ShloMosaic.Lib.Exec

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000

/-! ## The counted loops by their invariants

Each loop reads one slot of the scratch and carries one vector. Before trip `k` the slot is held at its contents `X`
and the carried vector is the `k`-fold iterate of the trip's arithmetic over the chunks the trips load: chunk `k` is the
slot read through the rectangle of 16 channels starting at channel `16 k`. -/

/-- Loop 1: the chunk trip `k` loads from slot 0. -/
abbrev ld_t1 (c : Dev nD) (X : HbBuf (F := F) c slot0M) (k : Fin k0_t1_loop.trips) : Vec F S16x40x320 .f32 :=
  View.readAt (Elt F) slot0M.view (Rect.unit (s := S256x48x328) (k0_off3 k) S16x40x320.size (k0_off3_inb k)).toLoadRect X

/-- Loop 1: the carried vector before trip `k`. -/
def st_t1 (c : Dev nD) (X : HbBuf (F := F) c slot0M) (init : FVec F S1x40x320 .f32) : ℕ → FVec F S1x40x320 .f32
  | 0 => init
  | k + 1 => if h : k < k0_t1_loop.trips then dmPay (st_t1 c X init k) (ld_t1 c X ⟨k, h⟩) else st_t1 c X init k

theorem st_t1_succ (c : Dev nD) (X : HbBuf (F := F) c slot0M) (init : FVec F S1x40x320 .f32) (k : Fin k0_t1_loop.trips) :
    st_t1 c X init (k.val + 1) = dmPay (st_t1 c X init k.val) (ld_t1 c X k) := by
  rw [st_t1.eq_2]; exact dif_pos k.isLt

theorem st_t1_zero (c : Dev nD) (X : HbBuf (F := F) c slot0M) (init : FVec F S1x40x320 .f32) : st_t1 c X init 0 = init := rfl

macro_rules | `(tactic| sl_pure) => `(tactic| with_reducible exact (Cert.Kernel.Hand.st_t1_zero ..).symm)

/-- Loop 1: one trip at a symbolic `k` — the slot is read, not written, and the trip yields its arithmetic on the chunk. -/
theorem trip_t1 (𝒱 : Variants) (c : Dev nD) (bd : Option 𝒱.V) (X : HbBuf (F := F) c slot0M) (k : Fin k0_t1_loop.trips) (acc : FVec F S1x40x320 .f32) :
    slot0P (F := F) c X ⊢ wp frame (wpE (defs₀ (F := F)) 𝒱 (c : Thread nD τ) bd) Set.univ (body_t1 (F := F) k acc)
      (fun yld => iprop(⌜yld = dmPay acc (ld_t1 c X k)⌝ ∗ slot0P (F := F) c X)) := by
  have hk : k.val < 16 := Nat.lt_of_lt_of_le k.isLt k0_t1_abs.2.1
  unfold body_t1
  iintro HR
  sl_exec
  sl_step
  isplitr
  · ipureintro; rfl
  · iexact HR

set_option warn.classDefReducibility false in
/-- Loop 1 by its invariant. -/
@[sl_loop] def loopInv_t1 (𝒱 : Variants) (c : Dev nD) (bd : Option 𝒱.V) (X : HbBuf (F := F) c slot0M) (init : FVec F S1x40x320 .f32) :
    Idealize.ShloMosaic.LoopInv (M := 𝕄) Idealize.ShloMosaic.frame (wpE (defs₀ (F := F)) 𝒱 (c : Thread nD τ) bd) Set.univ
      k0_t1_loop.lb k0_t1_loop.ub k0_t1_loop.st k0_t1_ok init (body_t1 (F := F) ) where
  inv k acc := iprop(slot0P (F := F) c X ∗ ⌜acc = st_t1 c X init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t1 (F := F) 𝒱 c bd X k (st_t1 c X init k))
      iexact HR
    · iintro %yld ⟨%h_res, HR⟩
      isplitl [HR]; · iexact HR
      simp only [st_t1_succ]
      ipureintro; rw [h_res]

/-- Loop 2: the chunk trip `k` loads from slot 0. -/
abbrev ld_t2 (c : Dev nD) (X : HbBuf (F := F) c slot0M) (k : Fin k0_t2_loop.trips) : Vec F S16x48x328 .f32 :=
  View.readAt (Elt F) slot0M.view (Rect.unit (s := S256x48x328) (k0_off4 k) S16x48x328.size (k0_off4_inb k)).toLoadRect X

/-- Loop 2: the carried vector before trip `k`. -/
def st_t2 (c : Dev nD) (X : HbBuf (F := F) c slot0M) (dm : FVec F S1x40x320 .f32) (init : FVec F S40x320 .f32) : ℕ → FVec F S40x320 .f32
  | 0 => init
  | k + 1 => if h : k < k0_t2_loop.trips then probPay dm (st_t2 c X dm init k) (ld_t2 c X ⟨k, h⟩) else st_t2 c X dm init k

theorem st_t2_succ (c : Dev nD) (X : HbBuf (F := F) c slot0M) (dm : FVec F S1x40x320 .f32) (init : FVec F S40x320 .f32) (k : Fin k0_t2_loop.trips) :
    st_t2 c X dm init (k.val + 1) = probPay dm (st_t2 c X dm init k.val) (ld_t2 c X k) := by
  rw [st_t2.eq_2]; exact dif_pos k.isLt

theorem st_t2_zero (c : Dev nD) (X : HbBuf (F := F) c slot0M) (dm : FVec F S1x40x320 .f32) (init : FVec F S40x320 .f32) : st_t2 c X dm init 0 = init := rfl

macro_rules | `(tactic| sl_pure) => `(tactic| with_reducible exact (Cert.Kernel.Hand.st_t2_zero ..).symm)

/-- Loop 2: one trip at a symbolic `k` — the slot is read, not written, and the trip yields its arithmetic on the chunk. -/
theorem trip_t2 (𝒱 : Variants) (c : Dev nD) (bd : Option 𝒱.V) (X : HbBuf (F := F) c slot0M) (dm : FVec F S1x40x320 .f32) (k : Fin k0_t2_loop.trips) (acc : FVec F S40x320 .f32) :
    slot0P (F := F) c X ⊢ wp frame (wpE (defs₀ (F := F)) 𝒱 (c : Thread nD τ) bd) Set.univ (body_t2 (F := F) dm k acc)
      (fun yld => iprop(⌜yld = probPay dm acc (ld_t2 c X k)⌝ ∗ slot0P (F := F) c X)) := by
  have hk : k.val < 16 := Nat.lt_of_lt_of_le k.isLt k0_t2_abs.2.1
  unfold body_t2
  iintro HR
  sl_exec
  sl_step
  isplitr
  · ipureintro; rfl
  · iexact HR

set_option warn.classDefReducibility false in
/-- Loop 2 by its invariant. -/
@[sl_loop] def loopInv_t2 (𝒱 : Variants) (c : Dev nD) (bd : Option 𝒱.V) (X : HbBuf (F := F) c slot0M) (dm : FVec F S1x40x320 .f32) (init : FVec F S40x320 .f32) :
    Idealize.ShloMosaic.LoopInv (M := 𝕄) Idealize.ShloMosaic.frame (wpE (defs₀ (F := F)) 𝒱 (c : Thread nD τ) bd) Set.univ
      k0_t2_loop.lb k0_t2_loop.ub k0_t2_loop.st k0_t2_ok init (body_t2 (F := F) dm) where
  inv k acc := iprop(slot0P (F := F) c X ∗ ⌜acc = st_t2 c X dm init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t2 (F := F) 𝒱 c bd X dm k (st_t2 c X dm init k))
      iexact HR
    · iintro %yld ⟨%h_res, HR⟩
      isplitl [HR]; · iexact HR
      simp only [st_t2_succ]
      ipureintro; rw [h_res]

/-- Loop 3: the chunk trip `k` loads from slot 1. -/
abbrev ld_t3 (c : Dev nD) (X : HbBuf (F := F) c slot1M) (k : Fin k0_t3_loop.trips) : Vec F S16x40x320 .f32 :=
  View.readAt (Elt F) slot1M.view (Rect.unit (s := S256x48x328) (k0_off6 k) S16x40x320.size (k0_off6_inb k)).toLoadRect X

/-- Loop 3: the carried vector before trip `k`. -/
def st_t3 (c : Dev nD) (X : HbBuf (F := F) c slot1M) (init : FVec F S1x40x320 .f32) : ℕ → FVec F S1x40x320 .f32
  | 0 => init
  | k + 1 => if h : k < k0_t3_loop.trips then dmPay (st_t3 c X init k) (ld_t3 c X ⟨k, h⟩) else st_t3 c X init k

theorem st_t3_succ (c : Dev nD) (X : HbBuf (F := F) c slot1M) (init : FVec F S1x40x320 .f32) (k : Fin k0_t3_loop.trips) :
    st_t3 c X init (k.val + 1) = dmPay (st_t3 c X init k.val) (ld_t3 c X k) := by
  rw [st_t3.eq_2]; exact dif_pos k.isLt

theorem st_t3_zero (c : Dev nD) (X : HbBuf (F := F) c slot1M) (init : FVec F S1x40x320 .f32) : st_t3 c X init 0 = init := rfl

macro_rules | `(tactic| sl_pure) => `(tactic| with_reducible exact (Cert.Kernel.Hand.st_t3_zero ..).symm)

/-- Loop 3: one trip at a symbolic `k` — the slot is read, not written, and the trip yields its arithmetic on the chunk. -/
theorem trip_t3 (𝒱 : Variants) (c : Dev nD) (bd : Option 𝒱.V) (X : HbBuf (F := F) c slot1M) (k : Fin k0_t3_loop.trips) (acc : FVec F S1x40x320 .f32) :
    slot1P (F := F) c X ⊢ wp frame (wpE (defs₀ (F := F)) 𝒱 (c : Thread nD τ) bd) Set.univ (body_t3 (F := F) k acc)
      (fun yld => iprop(⌜yld = dmPay acc (ld_t3 c X k)⌝ ∗ slot1P (F := F) c X)) := by
  have hk : k.val < 16 := Nat.lt_of_lt_of_le k.isLt k0_t3_abs.2.1
  unfold body_t3
  iintro HR
  sl_exec
  sl_step
  isplitr
  · ipureintro; rfl
  · iexact HR

set_option warn.classDefReducibility false in
/-- Loop 3 by its invariant. -/
@[sl_loop] def loopInv_t3 (𝒱 : Variants) (c : Dev nD) (bd : Option 𝒱.V) (X : HbBuf (F := F) c slot1M) (init : FVec F S1x40x320 .f32) :
    Idealize.ShloMosaic.LoopInv (M := 𝕄) Idealize.ShloMosaic.frame (wpE (defs₀ (F := F)) 𝒱 (c : Thread nD τ) bd) Set.univ
      k0_t3_loop.lb k0_t3_loop.ub k0_t3_loop.st k0_t3_ok init (body_t3 (F := F) ) where
  inv k acc := iprop(slot1P (F := F) c X ∗ ⌜acc = st_t3 c X init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t3 (F := F) 𝒱 c bd X k (st_t3 c X init k))
      iexact HR
    · iintro %yld ⟨%h_res, HR⟩
      isplitl [HR]; · iexact HR
      simp only [st_t3_succ]
      ipureintro; rw [h_res]

/-- Loop 4: the chunk trip `k` loads from slot 1. -/
abbrev ld_t4 (c : Dev nD) (X : HbBuf (F := F) c slot1M) (k : Fin k0_t4_loop.trips) : Vec F S16x48x328 .f32 :=
  View.readAt (Elt F) slot1M.view (Rect.unit (s := S256x48x328) (k0_off7 k) S16x48x328.size (k0_off7_inb k)).toLoadRect X

/-- Loop 4: the carried vector before trip `k`. -/
def st_t4 (c : Dev nD) (X : HbBuf (F := F) c slot1M) (dm : FVec F S1x40x320 .f32) (init : FVec F S40x320 .f32) : ℕ → FVec F S40x320 .f32
  | 0 => init
  | k + 1 => if h : k < k0_t4_loop.trips then probPay dm (st_t4 c X dm init k) (ld_t4 c X ⟨k, h⟩) else st_t4 c X dm init k

theorem st_t4_succ (c : Dev nD) (X : HbBuf (F := F) c slot1M) (dm : FVec F S1x40x320 .f32) (init : FVec F S40x320 .f32) (k : Fin k0_t4_loop.trips) :
    st_t4 c X dm init (k.val + 1) = probPay dm (st_t4 c X dm init k.val) (ld_t4 c X k) := by
  rw [st_t4.eq_2]; exact dif_pos k.isLt

theorem st_t4_zero (c : Dev nD) (X : HbBuf (F := F) c slot1M) (dm : FVec F S1x40x320 .f32) (init : FVec F S40x320 .f32) : st_t4 c X dm init 0 = init := rfl

macro_rules | `(tactic| sl_pure) => `(tactic| with_reducible exact (Cert.Kernel.Hand.st_t4_zero ..).symm)

/-- Loop 4: one trip at a symbolic `k` — the slot is read, not written, and the trip yields its arithmetic on the chunk. -/
theorem trip_t4 (𝒱 : Variants) (c : Dev nD) (bd : Option 𝒱.V) (X : HbBuf (F := F) c slot1M) (dm : FVec F S1x40x320 .f32) (k : Fin k0_t4_loop.trips) (acc : FVec F S40x320 .f32) :
    slot1P (F := F) c X ⊢ wp frame (wpE (defs₀ (F := F)) 𝒱 (c : Thread nD τ) bd) Set.univ (body_t4 (F := F) dm k acc)
      (fun yld => iprop(⌜yld = probPay dm acc (ld_t4 c X k)⌝ ∗ slot1P (F := F) c X)) := by
  have hk : k.val < 16 := Nat.lt_of_lt_of_le k.isLt k0_t4_abs.2.1
  unfold body_t4
  iintro HR
  sl_exec
  sl_step
  isplitr
  · ipureintro; rfl
  · iexact HR

set_option warn.classDefReducibility false in
/-- Loop 4 by its invariant. -/
@[sl_loop] def loopInv_t4 (𝒱 : Variants) (c : Dev nD) (bd : Option 𝒱.V) (X : HbBuf (F := F) c slot1M) (dm : FVec F S1x40x320 .f32) (init : FVec F S40x320 .f32) :
    Idealize.ShloMosaic.LoopInv (M := 𝕄) Idealize.ShloMosaic.frame (wpE (defs₀ (F := F)) 𝒱 (c : Thread nD τ) bd) Set.univ
      k0_t4_loop.lb k0_t4_loop.ub k0_t4_loop.st k0_t4_ok init (body_t4 (F := F) dm) where
  inv k acc := iprop(slot1P (F := F) c X ∗ ⌜acc = st_t4 c X dm init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t4 (F := F) 𝒱 c bd X dm k (st_t4 c X dm init k))
      iexact HR
    · iintro %yld ⟨%h_res, HR⟩
      isplitl [HR]; · iexact HR
      simp only [st_t4_succ]
      ipureintro; rw [h_res]

end Cert.Kernel.Hand

end
-- ==== Proof.KernelBody.lean ====
import proofs.«177967_j11708080849517_2_alg».proof.Proof.KernelLoops

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel body, run once at symbolic operands

At a grid point (a batch) the body starts the copy of the first row tile of the padded image into slot 0, and then
for each of the five row tiles: waits for the tile's copy, starts the next tile's copy into the other slot, runs the
two loops over the slot just landed (the channel maximum, then the kept sum) and stores the tile's 40 rows into the
output block. Every copy it starts it waits for before the point ends: both cells come back at zero, the padded image
whole, the two slots at some contents; the output's buffer comes back with the five tiles' stores listed. -/

set_option maxHeartbeats 16000000 in
noncomputable def kernelRun (c : Dev nD) (i : grid0.Coords) (arg2 : Memref sig .tc .vmem S1x200x320 .f32) (harg2 : arg2.IsWhole)
    (fh : HbBuf (F := F) c hbM) :
    { L1 : List (View.Piece (Elt F) S1x200x320 .f32) //
      ∀ (W : Waits sig Unit) (K : PUnit → sProp 𝕄),
        iprop((∃ d, owns (c : Thread nD τ) arg2 fullShare d) ∗ (∃ d, owns (c : Thread nD τ) scM fullShare d)
            ∗ semVal ((c : Thread nD τ), SemLoc.dma 2) 0 ∗ semVal ((c : Thread nD τ), SemLoc.dma 3) 0 ∗ hbPt c hbM fh ∗ owes (c : Thread nD τ) 0 W
            ∗ (iprop((∃ f, arg2.view.loc (c : Thread nD τ) ↦[arg2.view.set]{fullShare} arg2.view.writes (Elt F) f L1) ∗ (∃ d, owns (c : Thread nD τ) scM fullShare d)
                ∗ semVal ((c : Thread nD τ), SemLoc.dma 2) 0 ∗ semVal ((c : Thread nD τ), SemLoc.dma 3) 0 ∗ hbPt c hbM fh ∗ (∃ W', owes (c : Thread nD τ) 0 W')) -∗ K ⟨⟩))
          ⊢ wp frame (wpE (defs₀ (F := F)) Variants.none c none) Set.univ (cc0_nms_kernel i hbM (Memref.isWhole_whole _) arg2 harg2 scM (Memref.isWhole_whole _) cc0_scratch1) K } := by
  refine ⟨?_, fun W K => ?run⟩
  case run =>
    sl_unfold [cc0_nms_kernel]
    iintro ⟨H1x, Hsc, Hq0, Hq1, Hh0, HW, Hk⟩
    ihave Hs := (slots_in (F := F) c) $$ Hsc
    icases Hs with ⟨⟨%g0, HS0⟩, ⟨%g1, HS1⟩⟩
    unfold owns
    icases H1x with ⟨%d1, %f1, -, H1⟩
    sl_exec
    sl_step
    iapply Hk
    isplitl [H1]; · iexists _; iexact H1
    isplitl [HS0 HS1]
    · iapply (slots_out (F := F) c)
      isplitl [HS0]
      · iexists _; iexact HS0
      · iexists _; iexact HS1
    isplitl [Hq0]; · iexact Hq0
    isplitl [Hq1]; · iexact Hq1
    isplitl [Hh0]; · iexact Hh0
    iexists _; iexact HW

end Cert.Kernel.Hand

end
-- ==== Proof.KernelFrame.lean ====
import proofs.«177967_j11708080849517_2_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the output block holds after each point, the proof data, the body obligation, the run -/

/-- One staging buffer of the output window, through which its contents are stated. -/
abbrev VO : View sig .tc .vmem S1x200x320 .f32 := (Memref.whole cc0_stg0_0 : Memref sig .tc .vmem S1x200x320 .f32).view

/-- The five row tiles the body stores tile the [1, 200, 320] block, so they cover it. -/
theorem cover_run (c : Dev nD) (i : grid0.Coords) (arg2 : Memref sig .tc .vmem S1x200x320 .f32) (harg2 : arg2.IsWhole)
    (fh : HbBuf (F := F) c hbM) (y : S1x200x320.Idx) :
    ∃ pc ∈ (kernelRun c i arg2 harg2 fh).1, y ∈ pc.1.set :=
  View.cover_of_tiledL (kernelRun c i arg2 harg2 fh).1 S1x40x320.size (by sl_kernel_rfl) y

/-- What the run leaves in the output's staging buffer: its pieces read back over junk. -/
def out_run (c : Dev nD) (i : grid0.Coords) (arg2 : Memref sig .tc .vmem S1x200x320 .f32) (harg2 : arg2.IsWhole)
    (fh : HbBuf (F := F) c hbM) : Vec F S1x200x320 .f32 :=
  VO.read (Elt F) (VO.writes (Elt F) VO.junk (kernelRun c i arg2 harg2 fh).1)

/-- The output block after the body at point `t`: the run at the point's staging memref and the padded image. -/
def outsAt (c : Dev nD) (t : Fin cfg0.N) : Vec F S1x200x320 .f32 :=
  out_run c (grid0.coords t) (ms0_0 t) (hs0_0 t) (Gen.V m c main_v0)

/-- The proof data of the one pipeline on core `c`. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => (outsAt m c t)
  Φ _ := Pipeline.ΦD osem0 spec0 H0 (Gen.V m) c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = (outsAt m c t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- The body at any point: the invariant hands the run the scratch, the register, both cells at zero and the padded
    image, and takes them back as they were; the output's buffer comes back with the run's pieces written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (Gen.V m) c from rfl, PhiD0_eq]
  unfold Dat.owesAt Pipeline.owesWithin
  rw [show (dats m 0 c).owed t.castSucc = 0 from rfl, show (dats m 0 c).owed t.succ = 0 from rfl]
  unfold outsAt
  unfold out_run
  iintro ⟨⟨HS0, Hg, ⟨Hq0, Hq1⟩, Hh0⟩, ⟨%W, -, HW⟩, ⟨%d0, H0⟩⟩
  iapply ((kernelRun c (grid0.coords t) _ _ (Gen.V m c main_v0)).2 W _)
  isplitl [H0]; · iexists _; iexact H0
  isplitl [HS0]; · iexact HS0
  isplitl [Hq0]; · iexact Hq0
  isplitl [Hq1]; · iexact Hq1
  isplitl [Hh0]; · iexact Hh0
  isplitl [HW]; · iexact HW
  iintro ⟨⟨%e1, H1⟩, HS0, Hq0, Hq1, Hh0, ⟨%W', HW'⟩⟩
  isplitl [HS0 Hg Hq0 Hq1 Hh0]
  · isplitl [HS0]
    · iexact HS0
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  unfold owns; iexists _; isplitr
  swap; · iexact H1
  ipureintro; exact View.read_writes_of_cover _ _ _ _ _ (cover_run c _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, the output array at what the library computes from the proof
    data and every other unscoped buffer as the region found it. -/
theorem run_main : θ_run defs (onTc (τ := τ) (main (F := F))) (s₀ m ρ) (Pipeline.FramePost cfgs (dats m) 0 (Gen.V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := Gen.V m) (hmain := hmainD m Variants.none) (hA := A_eq m)
    (hin := fun _ => .rfl) (hout := fun _ => .rfl)

/-- The frame: the program runs to its end, nothing faults, the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_ofD m ρ (dats m) (run_main m ρ)

end Cert.Kernel.Hand

end
-- ==== Proof.KernelIdealKitD.lean ====
/-
  The region of `KernelIdeal` at the resource algebra that carries the transfers' counters: @main up to its one region,
  the frame claim's post from a run's, the kernel's two own DMA cells, the padded array it copies from by itself,
  and the region's invariant conjunct by conjunct — the scratch buffer at some contents, the generator register,
  both cells at zero, the padded array whole at the contents the region finds.
-/
import proofs.«177967_j11708080849517_2_alg».proof.Proof.Gen.KernelIdeal.Frame
import Idealize.ShloMosaic.Lib.Transfers
import Idealize.ShloMosaic.Lib.Writes
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region: the two stretches of host operations (the constant -∞; its conversion and the padding),
    then the region. -/
theorem hmainD (𝒱₀ : Variants) : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The frame claim's post from a run to the region's post: the argument array is staged by no window, so the run
    leaves it as the region found it, and no host operation before the region writes it. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Gen.V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-- The staging memref of the output window at point `t`, as the pipeline passes it, and its wholeness. -/
abbrev ms0_0 (t : Fin cfg0.N) : Memref sig .tc .vmem S1x200x320 .f32 := win0_0.stage (cfg0.slots t 0)
abbrev hs0_0 (t : Fin cfg0.N) : (ms0_0 t).IsWhole := hstage0_0 ((cfg0.slots t 0).cast nbuf0_0)
/-- The scratch operand (two slots of 256 × 48 × 328) and the padded array left in HBM, whole. -/
abbrev scM : Memref sig .tc .vmem S2x256x48x328 .f32 := Memref.whole cc0_scratch0
abbrev hbM : Memref sig .tc .hbm S4x256x208x328 .f32 := Memref.whole main_v0
/-- A memref's buffer on core `c`: its contents type, and the buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two DMA cells (one per slot of the scratch): none is a window's. -/
abbrev osem0 : Fin 2 → SemLoc sig := fun j => (![SemLoc.dma 2, SemLoc.dma 3] : Fin 2 → SemLoc sig) j
theorem ownSemFacts0 : Pipeline.OwnSemFacts spec0 osem0 := by decide
/-- Both cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
/-- The array the body copies from by itself: the padded image, unscoped and no window's array. -/
def H0 : Finset (Ref sig .tc) := {main_v0}
theorem H0_sub : H0 ⊆ Pipeline.restRefs sig spec0 := by decide
/-- Its points-to at the contents the region finds, listed. -/
theorem hbmPts0_eq (c : Dev nD) :
    (bigSep H0 (fun b => ((c : Thread nD τ).loc b) ↦{fullShare} Gen.V m c b) : sProp 𝕄) = iprop(hbPt c hbM (Gen.V m c main_v0)) := by
  rw [BI.bigSep_eq_bigSepL_of_eq [main_v0] (by decide) (by decide)]; rfl

/-- The region's invariant, conjunct by conjunct. -/
theorem PhiD0_eq (c : Dev nD) :
    (Pipeline.ΦD osem0 spec0 H0 (Gen.V m) c : sProp 𝕄)
      = iprop(iprop((∃ d, owns (c : Thread nD τ) scM fullShare d)) ∗ (∃ r, prngReg c r)
          ∗ iprop(semVal ((c : Thread nD τ), SemLoc.dma 2) 0 ∗ semVal ((c : Thread nD τ), SemLoc.dma 3) 0) ∗ iprop(hbPt c hbM (Gen.V m c main_v0))) := by
  rw [Pipeline.ΦD_eq, scopedRest0_eq, ownSems00_eq, hbmPts0_eq]; simp only [scM, owns_whole]; try rfl

end Cert.KernelIdeal.Hand

end
-- ==== Proof.KernelIdealSlots.lean ====
import proofs.«177967_j11708080849517_2_alg».proof.Proof.KernelIdealKitD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two slots of the scratch buffer

The scratch `[2, 256, 48, 328]` is two slots `[256, 48, 328]`; the kernel copies a tile of the padded image into one
slot while it reads the other, so the buffer is held slot by slot: the slots' index sets are disjoint and cover the buffer. -/

theorem inb_slot (s : Fin 2) : ∀ a, (![s.val, 0, 0, 0] : Fin 4 → Nat) a + S1x256x48x328.size a ≤ S2x256x48x328.size a := by
  have := s.isLt; intro a; fin_cases a <;> simp <;> omega

/-- Slot 0 and slot 1, spelt as the body spells a transfer's destination and a load's memref. -/
abbrev slot0M : Memref sig .tc .vmem S256x48x328 .f32 :=
  (scM.slice (Rect.unit (s := S2x256x48x328) ![0, 0, 0, 0] S1x256x48x328.size inb_S2x256x48x328_S1x256x48x328_0_0_0_0) (fun _ => rfl)).squeeze S256x48x328 squeezes_S1x256x48x328_S256x48x328
abbrev slot1M : Memref sig .tc .vmem S256x48x328 .f32 :=
  (scM.slice (Rect.unit (s := S2x256x48x328) ![1, 0, 0, 0] S1x256x48x328.size inb_S2x256x48x328_S1x256x48x328_1_0_0_0) (fun _ => rfl)).squeeze S256x48x328 squeezes_S1x256x48x328_S256x48x328

abbrev slotSet (s : Fin 2) : Finset S2x256x48x328.Idx := (Rect.unit (s := S2x256x48x328) ![s.val, 0, 0, 0] S1x256x48x328.size (inb_slot s)).set
theorem slot0_set : slot0M.view.set = slotSet 0 := by
  simp only [slot0M, Memref.view_squeeze, View.set_reshape]; exact View.set_slice_whole _ _
theorem slot1_set : slot1M.view.set = slotSet 1 := by
  simp only [slot1M, Memref.view_squeeze, View.set_reshape]; exact View.set_slice_whole _ _
theorem slots_disjoint (s s' : Fin 2) (h : s ≠ s') : Disjoint (slotSet s) (slotSet s') :=
  Ring.lead_disjoint (s := S2x256x48x328) (0 : Fin 4) 1 (fun s : Fin 2 => (![s.val, 0, 0, 0] : Fin 4 → Nat)) S1x256x48x328.size inb_slot (fun s => by simp) rfl s s' h
theorem slots_cover : Finset.univ.biUnion slotSet = Finset.univ :=
  Ring.lead_cover (s := S2x256x48x328) (0 : Fin 4) 1 (fun s : Fin 2 => (![s.val, 0, 0, 0] : Fin 4 → Nat)) S1x256x48x328.size inb_slot (fun s => by simp)
    (fun s a ha => by fin_cases a <;> first | exact absurd rfl ha | rfl) rfl (fun a ha => by fin_cases a <;> first | exact absurd rfl ha | rfl) rfl

section InOut
variable (c : Dev nD)
/-- A slot held at contents `f` (a contents of the whole scratch buffer, read on the slot's elements). -/
abbrev slot0P (f : HbBuf (F := F) c slot0M) : sProp 𝕄 := slot0M.view.loc (c : Thread nD τ) ↦[slot0M.view.set]{fullShare} f
abbrev slot1P (f : HbBuf (F := F) c slot1M) : sProp 𝕄 := slot1M.view.loc (c : Thread nD τ) ↦[slot1M.view.set]{fullShare} f
theorem slot0P_eq (f) : slot0P (F := F) c f = (((c : Thread nD τ).loc cc0_scratch0) ↦[slotSet 0]{fullShare} f : sProp 𝕄) := by
  unfold slot0P; rw [slot0_set]
theorem slot1P_eq (f) : slot1P (F := F) c f = (((c : Thread nD τ).loc cc0_scratch0) ↦[slotSet 1]{fullShare} f : sProp 𝕄) := by
  unfold slot1P; rw [slot1_set]
set_option maxHeartbeats 1000000 in
/-- The scratch whole at anything is its two slots at something each, and back. -/
theorem slots_in : iprop(∃ d, owns (c : Thread nD τ) scM fullShare d) ⊢ (iprop((∃ f, slot0P (F := F) c f) ∗ ∃ f, slot1P (F := F) c f) : sProp 𝕄) := by
  simp only [scM, owns_whole]
  exact Ring.slots2_split (U := Pipeline.UD sig nD τ) (ℓ := (c : Thread nD τ).loc cc0_scratch0) (q := fullShare) slotSet slots_disjoint slots_cover
    (slot0P c) (slot1P c) (slot0P_eq c) (slot1P_eq c)
set_option maxHeartbeats 1000000 in
theorem slots_out : (iprop((∃ f, slot0P (F := F) c f) ∗ ∃ f, slot1P (F := F) c f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slot0P c) (slot1P c) (slot0P_eq c) (slot1P_eq c)
end InOut

end Cert.KernelIdeal.Hand

end
-- ==== Proof.KernelIdealPay.lean ====
import proofs.«177967_j11708080849517_2_alg».proof.Proof.KernelIdealSlots

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One trip's arithmetic, in the two loop regions

`dmPay`: the running channel maximum of a tile — the carried `[1, 40, 320]` maximum against the maximum over the
16 channels of the chunk `[16, 40, 320]` just loaded. `probPay`: the running sum — the chunk `[16, 48, 328]` with its
halo; its maximum over nine shifts along the columns, then over nine shifts along the rows (the 9 × 9 window maximum of
every pixel of the chunk's `[16, 40, 320]` core); the core kept where it equals both the tile's channel maximum `dm`
and that window maximum, zero elsewhere; summed over the 16 channels and added to the carried sum. -/

def dmPay (arg6 : FVec F S1x40x320 .f32) (v109 : Vec F S16x40x320 .f32) : FVec F S1x40x320 .f32 :=
  have cst_147 : FVec F S40x320 .f32 := constant S40x320 .f32 0xFF800000#32
  have v110 : FVec F S40x320 .f32 := multiReduction .maximumf [0] S40x320 v109 0xFF800000#32 reduces_S16x40x320_S40x320 (.inl rfl) rfl
  have v111 : FVec F S1x40x320 .f32 := shapeCast S1x40x320 v110 shapeCasts_S40x320_S1x40x320
  have v112 : FVec F S1x40x320 .f32 := maximumf arg6 v111
  v112

def probPay (dm : FVec F S1x40x320 .f32) (arg6 : FVec F S40x320 .f32) (v109 : Vec F S16x48x328 .f32) : FVec F S40x320 .f32 :=
  have v110 : FVec F S16x48x320 .f32 := extractStridedSlice S16x48x320 ![0, 0, 0] v109 slices_S16x48x328_o0_0_0_S16x48x320
  have v111 : FVec F S16x48x320 .f32 := extractStridedSlice S16x48x320 ![0, 0, 1] v109 slices_S16x48x328_o0_0_1_S16x48x320
  have v112 : FVec F S16x48x320 .f32 := maximumf v110 v111
  have v113 : FVec F S16x48x320 .f32 := extractStridedSlice S16x48x320 ![0, 0, 2] v109 slices_S16x48x328_o0_0_2_S16x48x320
  have v114 : FVec F S16x48x320 .f32 := maximumf v112 v113
  have v115 : FVec F S16x48x320 .f32 := extractStridedSlice S16x48x320 ![0, 0, 3] v109 slices_S16x48x328_o0_0_3_S16x48x320
  have v116 : FVec F S16x48x320 .f32 := maximumf v114 v115
  have v117 : FVec F S16x48x320 .f32 := extractStridedSlice S16x48x320 ![0, 0, 4] v109 slices_S16x48x328_o0_0_4_S16x48x320
  have v118 : FVec F S16x48x320 .f32 := maximumf v116 v117
  have v119 : FVec F S16x48x320 .f32 := extractStridedSlice S16x48x320 ![0, 0, 5] v109 slices_S16x48x328_o0_0_5_S16x48x320
  have v120 : FVec F S16x48x320 .f32 := maximumf v118 v119
  have v121 : FVec F S16x48x320 .f32 := extractStridedSlice S16x48x320 ![0, 0, 6] v109 slices_S16x48x328_o0_0_6_S16x48x320
  have v122 : FVec F S16x48x320 .f32 := maximumf v120 v121
  have v123 : FVec F S16x48x320 .f32 := extractStridedSlice S16x48x320 ![0, 0, 7] v109 slices_S16x48x328_o0_0_7_S16x48x320
  have v124 : FVec F S16x48x320 .f32 := maximumf v122 v123
  have v125 : FVec F S16x48x320 .f32 := extractStridedSlice S16x48x320 ![0, 0, 8] v109 slices_S16x48x328_o0_0_8_S16x48x320
  have v126 : FVec F S16x48x320 .f32 := maximumf v124 v125
  have v127 : FVec F S16x40x320 .f32 := extractStridedSlice S16x40x320 ![0, 0, 0] v126 slices_S16x48x320_o0_0_0_S16x40x320
  have v128 : FVec F S16x40x320 .f32 := extractStridedSlice S16x40x320 ![0, 1, 0] v126 slices_S16x48x320_o0_1_0_S16x40x320
  have v129 : FVec F S16x40x320 .f32 := maximumf v127 v128
  have v130 : FVec F S16x40x320 .f32 := extractStridedSlice S16x40x320 ![0, 2, 0] v126 slices_S16x48x320_o0_2_0_S16x40x320
  have v131 : FVec F S16x40x320 .f32 := maximumf v129 v130
  have v132 : FVec F S16x40x320 .f32 := extractStridedSlice S16x40x320 ![0, 3, 0] v126 slices_S16x48x320_o0_3_0_S16x40x320
  have v133 : FVec F S16x40x320 .f32 := maximumf v131 v132
  have v134 : FVec F S16x40x320 .f32 := extractStridedSlice S16x40x320 ![0, 4, 0] v126 slices_S16x48x320_o0_4_0_S16x40x320
  have v135 : FVec F S16x40x320 .f32 := maximumf v133 v134
  have v136 : FVec F S16x40x320 .f32 := extractStridedSlice S16x40x320 ![0, 5, 0] v126 slices_S16x48x320_o0_5_0_S16x40x320
  have v137 : FVec F S16x40x320 .f32 := maximumf v135 v136
  have v138 : FVec F S16x40x320 .f32 := extractStridedSlice S16x40x320 ![0, 6, 0] v126 slices_S16x48x320_o0_6_0_S16x40x320
  have v139 : FVec F S16x40x320 .f32 := maximumf v137 v138
  have v140 : FVec F S16x40x320 .f32 := extractStridedSlice S16x40x320 ![0, 7, 0] v126 slices_S16x48x320_o0_7_0_S16x40x320
  have v141 : FVec F S16x40x320 .f32 := maximumf v139 v140
  have v142 : FVec F S16x40x320 .f32 := extractStridedSlice S16x40x320 ![0, 8, 0] v126 slices_S16x48x320_o0_8_0_S16x40x320
  have v143 : FVec F S16x40x320 .f32 := maximumf v141 v142
  have v144 : FVec F S16x40x320 .f32 := extractStridedSlice S16x40x320 ![0, 4, 4] v109 slices_S16x48x328_o0_4_4_S16x40x320
  have v145 : FVec F S16x40x320 .f32 := broadcastTo S16x40x320 dm broadcasts_S1x40x320_S16x40x320
  have v146 : IVec S16x40x320 1 := cmpf .oeq v144 v145
  have v147 : IVec S16x40x320 1 := cmpf .oeq v144 v143
  have v148 : IVec S16x40x320 1 := andi v146 v147
  have cst_148 : F .f32 := Scalar.ofBits .f32 0x00000000#32
  have v149 : FVec F S16x40x320 .f32 := broadcast S16x40x320 cst_148
  have v150 : FVec F S16x40x320 .f32 := select v148 v144 v149
  have cst_149 : FVec F S40x320 .f32 := constant S40x320 .f32 0x00000000#32
  have v151 : FVec F S40x320 .f32 := multiReduction .add [0] S40x320 v150 0x00000000#32 reduces_S16x40x320_S40x320 (.inl rfl) rfl
  have v152 : FVec F S40x320 .f32 := addf arg6 v151
  v152

/-- The tile loops' initial values: -∞ everywhere for the maximum, zero everywhere for the sum. -/
def dmInit : FVec F S1x40x320 .f32 := broadcast S1x40x320 (Scalar.ofBits .f32 0xFF800000#32 : F .f32)
def probInit : FVec F S40x320 .f32 := broadcast S40x320 (Scalar.ofBits .f32 0x00000000#32 : F .f32)

/-! ## The loop regions, lifted: one load through a slot, then the trip's arithmetic

The five tiles' loops are the same four regions: the channel-maximum loop and the kept-sum loop, each reading slot 0 or slot 1. -/

def body_t1 : Fin k0_t1_loop.trips → FVec F S1x40x320 .f32 → Prog (TpuEff nD τ sig (Elt F) Λ₀ .tc) (FVec F S1x40x320 .f32) :=
  fun k arg6 => do
    let v109 : Vec F S16x40x320 .f32 ← Prog.lift (.load (slot0M) (Rect.unit (s := S256x48x328) (k0_off3 k) S16x40x320.size (k0_off3_inb k)).toLoadRect (View.loadsAt_vmem h_S16x40x320))
    pure (dmPay arg6 v109)

def body_t2 (dm : FVec F S1x40x320 .f32) : Fin k0_t2_loop.trips → FVec F S40x320 .f32 → Prog (TpuEff nD τ sig (Elt F) Λ₀ .tc) (FVec F S40x320 .f32) :=
  fun k arg6 => do
    let v109 : Vec F S16x48x328 .f32 ← Prog.lift (.load (slot0M) (Rect.unit (s := S256x48x328) (k0_off4 k) S16x48x328.size (k0_off4_inb k)).toLoadRect (View.loadsAt_vmem h_S16x48x328))
    pure (probPay dm arg6 v109)

def body_t3 : Fin k0_t3_loop.trips → FVec F S1x40x320 .f32 → Prog (TpuEff nD τ sig (Elt F) Λ₀ .tc) (FVec F S1x40x320 .f32) :=
  fun k arg6 => do
    let v109 : Vec F S16x40x320 .f32 ← Prog.lift (.load (slot1M) (Rect.unit (s := S256x48x328) (k0_off6 k) S16x40x320.size (k0_off6_inb k)).toLoadRect (View.loadsAt_vmem h_S16x40x320))
    pure (dmPay arg6 v109)

def body_t4 (dm : FVec F S1x40x320 .f32) : Fin k0_t4_loop.trips → FVec F S40x320 .f32 → Prog (TpuEff nD τ sig (Elt F) Λ₀ .tc) (FVec F S40x320 .f32) :=
  fun k arg6 => do
    let v109 : Vec F S16x48x328 .f32 ← Prog.lift (.load (slot1M) (Rect.unit (s := S256x48x328) (k0_off7 k) S16x48x328.size (k0_off7_inb k)).toLoadRect (View.loadsAt_vmem h_S16x48x328))
    pure (probPay dm arg6 v109)

end Cert.KernelIdeal.Hand

end
-- ==== Proof.KernelIdealLoops.lean ====
import proofs.«177967_j11708080849517_2_alg».proof.Proof.KernelIdealPay
import Idealize.ShloMosaic.Lib.Exec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000

/-! ## The counted loops by their invariants

Each loop reads one slot of the scratch and carries one vector. Before trip `k` the slot is held at its contents `X`
and the carried vector is the `k`-fold iterate of the trip's arithmetic over the chunks the trips load: chunk `k` is the
slot read through the rectangle of 16 channels starting at channel `16 k`. -/

/-- Loop 1: the chunk trip `k` loads from slot 0. -/
abbrev ld_t1 (c : Dev nD) (X : HbBuf (F := F) c slot0M) (k : Fin k0_t1_loop.trips) : Vec F S16x40x320 .f32 :=
  View.readAt (Elt F) slot0M.view (Rect.unit (s := S256x48x328) (k0_off3 k) S16x40x320.size (k0_off3_inb k)).toLoadRect X

/-- Loop 1: the carried vector before trip `k`. -/
def st_t1 (c : Dev nD) (X : HbBuf (F := F) c slot0M) (init : FVec F S1x40x320 .f32) : ℕ → FVec F S1x40x320 .f32
  | 0 => init
  | k + 1 => if h : k < k0_t1_loop.trips then dmPay (st_t1 c X init k) (ld_t1 c X ⟨k, h⟩) else st_t1 c X init k

theorem st_t1_succ (c : Dev nD) (X : HbBuf (F := F) c slot0M) (init : FVec F S1x40x320 .f32) (k : Fin k0_t1_loop.trips) :
    st_t1 c X init (k.val + 1) = dmPay (st_t1 c X init k.val) (ld_t1 c X k) := by
  rw [st_t1.eq_2]; exact dif_pos k.isLt

theorem st_t1_zero (c : Dev nD) (X : HbBuf (F := F) c slot0M) (init : FVec F S1x40x320 .f32) : st_t1 c X init 0 = init := rfl

macro_rules | `(tactic| sl_pure) => `(tactic| with_reducible exact (Cert.KernelIdeal.Hand.st_t1_zero ..).symm)

/-- Loop 1: one trip at a symbolic `k` — the slot is read, not written, and the trip yields its arithmetic on the chunk. -/
theorem trip_t1 (𝒱 : Variants) (c : Dev nD) (bd : Option 𝒱.V) (X : HbBuf (F := F) c slot0M) (k : Fin k0_t1_loop.trips) (acc : FVec F S1x40x320 .f32) :
    slot0P (F := F) c X ⊢ wp frame (wpE (defs₀ (F := F)) 𝒱 (c : Thread nD τ) bd) Set.univ (body_t1 (F := F) k acc)
      (fun yld => iprop(⌜yld = dmPay acc (ld_t1 c X k)⌝ ∗ slot0P (F := F) c X)) := by
  have hk : k.val < 16 := Nat.lt_of_lt_of_le k.isLt k0_t1_abs.2.1
  unfold body_t1
  iintro HR
  sl_exec
  sl_step
  isplitr
  · ipureintro; rfl
  · iexact HR

set_option warn.classDefReducibility false in
/-- Loop 1 by its invariant. -/
@[sl_loop] def loopInv_t1 (𝒱 : Variants) (c : Dev nD) (bd : Option 𝒱.V) (X : HbBuf (F := F) c slot0M) (init : FVec F S1x40x320 .f32) :
    Idealize.ShloMosaic.LoopInv (M := 𝕄) Idealize.ShloMosaic.frame (wpE (defs₀ (F := F)) 𝒱 (c : Thread nD τ) bd) Set.univ
      k0_t1_loop.lb k0_t1_loop.ub k0_t1_loop.st k0_t1_ok init (body_t1 (F := F) ) where
  inv k acc := iprop(slot0P (F := F) c X ∗ ⌜acc = st_t1 c X init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t1 (F := F) 𝒱 c bd X k (st_t1 c X init k))
      iexact HR
    · iintro %yld ⟨%h_res, HR⟩
      isplitl [HR]; · iexact HR
      simp only [st_t1_succ]
      ipureintro; rw [h_res]

/-- Loop 2: the chunk trip `k` loads from slot 0. -/
abbrev ld_t2 (c : Dev nD) (X : HbBuf (F := F) c slot0M) (k : Fin k0_t2_loop.trips) : Vec F S16x48x328 .f32 :=
  View.readAt (Elt F) slot0M.view (Rect.unit (s := S256x48x328) (k0_off4 k) S16x48x328.size (k0_off4_inb k)).toLoadRect X

/-- Loop 2: the carried vector before trip `k`. -/
def st_t2 (c : Dev nD) (X : HbBuf (F := F) c slot0M) (dm : FVec F S1x40x320 .f32) (init : FVec F S40x320 .f32) : ℕ → FVec F S40x320 .f32
  | 0 => init
  | k + 1 => if h : k < k0_t2_loop.trips then probPay dm (st_t2 c X dm init k) (ld_t2 c X ⟨k, h⟩) else st_t2 c X dm init k

theorem st_t2_succ (c : Dev nD) (X : HbBuf (F := F) c slot0M) (dm : FVec F S1x40x320 .f32) (init : FVec F S40x320 .f32) (k : Fin k0_t2_loop.trips) :
    st_t2 c X dm init (k.val + 1) = probPay dm (st_t2 c X dm init k.val) (ld_t2 c X k) := by
  rw [st_t2.eq_2]; exact dif_pos k.isLt

theorem st_t2_zero (c : Dev nD) (X : HbBuf (F := F) c slot0M) (dm : FVec F S1x40x320 .f32) (init : FVec F S40x320 .f32) : st_t2 c X dm init 0 = init := rfl

macro_rules | `(tactic| sl_pure) => `(tactic| with_reducible exact (Cert.KernelIdeal.Hand.st_t2_zero ..).symm)

/-- Loop 2: one trip at a symbolic `k` — the slot is read, not written, and the trip yields its arithmetic on the chunk. -/
theorem trip_t2 (𝒱 : Variants) (c : Dev nD) (bd : Option 𝒱.V) (X : HbBuf (F := F) c slot0M) (dm : FVec F S1x40x320 .f32) (k : Fin k0_t2_loop.trips) (acc : FVec F S40x320 .f32) :
    slot0P (F := F) c X ⊢ wp frame (wpE (defs₀ (F := F)) 𝒱 (c : Thread nD τ) bd) Set.univ (body_t2 (F := F) dm k acc)
      (fun yld => iprop(⌜yld = probPay dm acc (ld_t2 c X k)⌝ ∗ slot0P (F := F) c X)) := by
  have hk : k.val < 16 := Nat.lt_of_lt_of_le k.isLt k0_t2_abs.2.1
  unfold body_t2
  iintro HR
  sl_exec
  sl_step
  isplitr
  · ipureintro; rfl
  · iexact HR

set_option warn.classDefReducibility false in
/-- Loop 2 by its invariant. -/
@[sl_loop] def loopInv_t2 (𝒱 : Variants) (c : Dev nD) (bd : Option 𝒱.V) (X : HbBuf (F := F) c slot0M) (dm : FVec F S1x40x320 .f32) (init : FVec F S40x320 .f32) :
    Idealize.ShloMosaic.LoopInv (M := 𝕄) Idealize.ShloMosaic.frame (wpE (defs₀ (F := F)) 𝒱 (c : Thread nD τ) bd) Set.univ
      k0_t2_loop.lb k0_t2_loop.ub k0_t2_loop.st k0_t2_ok init (body_t2 (F := F) dm) where
  inv k acc := iprop(slot0P (F := F) c X ∗ ⌜acc = st_t2 c X dm init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t2 (F := F) 𝒱 c bd X dm k (st_t2 c X dm init k))
      iexact HR
    · iintro %yld ⟨%h_res, HR⟩
      isplitl [HR]; · iexact HR
      simp only [st_t2_succ]
      ipureintro; rw [h_res]

/-- Loop 3: the chunk trip `k` loads from slot 1. -/
abbrev ld_t3 (c : Dev nD) (X : HbBuf (F := F) c slot1M) (k : Fin k0_t3_loop.trips) : Vec F S16x40x320 .f32 :=
  View.readAt (Elt F) slot1M.view (Rect.unit (s := S256x48x328) (k0_off6 k) S16x40x320.size (k0_off6_inb k)).toLoadRect X

/-- Loop 3: the carried vector before trip `k`. -/
def st_t3 (c : Dev nD) (X : HbBuf (F := F) c slot1M) (init : FVec F S1x40x320 .f32) : ℕ → FVec F S1x40x320 .f32
  | 0 => init
  | k + 1 => if h : k < k0_t3_loop.trips then dmPay (st_t3 c X init k) (ld_t3 c X ⟨k, h⟩) else st_t3 c X init k

theorem st_t3_succ (c : Dev nD) (X : HbBuf (F := F) c slot1M) (init : FVec F S1x40x320 .f32) (k : Fin k0_t3_loop.trips) :
    st_t3 c X init (k.val + 1) = dmPay (st_t3 c X init k.val) (ld_t3 c X k) := by
  rw [st_t3.eq_2]; exact dif_pos k.isLt

theorem st_t3_zero (c : Dev nD) (X : HbBuf (F := F) c slot1M) (init : FVec F S1x40x320 .f32) : st_t3 c X init 0 = init := rfl

macro_rules | `(tactic| sl_pure) => `(tactic| with_reducible exact (Cert.KernelIdeal.Hand.st_t3_zero ..).symm)

/-- Loop 3: one trip at a symbolic `k` — the slot is read, not written, and the trip yields its arithmetic on the chunk. -/
theorem trip_t3 (𝒱 : Variants) (c : Dev nD) (bd : Option 𝒱.V) (X : HbBuf (F := F) c slot1M) (k : Fin k0_t3_loop.trips) (acc : FVec F S1x40x320 .f32) :
    slot1P (F := F) c X ⊢ wp frame (wpE (defs₀ (F := F)) 𝒱 (c : Thread nD τ) bd) Set.univ (body_t3 (F := F) k acc)
      (fun yld => iprop(⌜yld = dmPay acc (ld_t3 c X k)⌝ ∗ slot1P (F := F) c X)) := by
  have hk : k.val < 16 := Nat.lt_of_lt_of_le k.isLt k0_t3_abs.2.1
  unfold body_t3
  iintro HR
  sl_exec
  sl_step
  isplitr
  · ipureintro; rfl
  · iexact HR

set_option warn.classDefReducibility false in
/-- Loop 3 by its invariant. -/
@[sl_loop] def loopInv_t3 (𝒱 : Variants) (c : Dev nD) (bd : Option 𝒱.V) (X : HbBuf (F := F) c slot1M) (init : FVec F S1x40x320 .f32) :
    Idealize.ShloMosaic.LoopInv (M := 𝕄) Idealize.ShloMosaic.frame (wpE (defs₀ (F := F)) 𝒱 (c : Thread nD τ) bd) Set.univ
      k0_t3_loop.lb k0_t3_loop.ub k0_t3_loop.st k0_t3_ok init (body_t3 (F := F) ) where
  inv k acc := iprop(slot1P (F := F) c X ∗ ⌜acc = st_t3 c X init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t3 (F := F) 𝒱 c bd X k (st_t3 c X init k))
      iexact HR
    · iintro %yld ⟨%h_res, HR⟩
      isplitl [HR]; · iexact HR
      simp only [st_t3_succ]
      ipureintro; rw [h_res]

/-- Loop 4: the chunk trip `k` loads from slot 1. -/
abbrev ld_t4 (c : Dev nD) (X : HbBuf (F := F) c slot1M) (k : Fin k0_t4_loop.trips) : Vec F S16x48x328 .f32 :=
  View.readAt (Elt F) slot1M.view (Rect.unit (s := S256x48x328) (k0_off7 k) S16x48x328.size (k0_off7_inb k)).toLoadRect X

/-- Loop 4: the carried vector before trip `k`. -/
def st_t4 (c : Dev nD) (X : HbBuf (F := F) c slot1M) (dm : FVec F S1x40x320 .f32) (init : FVec F S40x320 .f32) : ℕ → FVec F S40x320 .f32
  | 0 => init
  | k + 1 => if h : k < k0_t4_loop.trips then probPay dm (st_t4 c X dm init k) (ld_t4 c X ⟨k, h⟩) else st_t4 c X dm init k

theorem st_t4_succ (c : Dev nD) (X : HbBuf (F := F) c slot1M) (dm : FVec F S1x40x320 .f32) (init : FVec F S40x320 .f32) (k : Fin k0_t4_loop.trips) :
    st_t4 c X dm init (k.val + 1) = probPay dm (st_t4 c X dm init k.val) (ld_t4 c X k) := by
  rw [st_t4.eq_2]; exact dif_pos k.isLt

theorem st_t4_zero (c : Dev nD) (X : HbBuf (F := F) c slot1M) (dm : FVec F S1x40x320 .f32) (init : FVec F S40x320 .f32) : st_t4 c X dm init 0 = init := rfl

macro_rules | `(tactic| sl_pure) => `(tactic| with_reducible exact (Cert.KernelIdeal.Hand.st_t4_zero ..).symm)

/-- Loop 4: one trip at a symbolic `k` — the slot is read, not written, and the trip yields its arithmetic on the chunk. -/
theorem trip_t4 (𝒱 : Variants) (c : Dev nD) (bd : Option 𝒱.V) (X : HbBuf (F := F) c slot1M) (dm : FVec F S1x40x320 .f32) (k : Fin k0_t4_loop.trips) (acc : FVec F S40x320 .f32) :
    slot1P (F := F) c X ⊢ wp frame (wpE (defs₀ (F := F)) 𝒱 (c : Thread nD τ) bd) Set.univ (body_t4 (F := F) dm k acc)
      (fun yld => iprop(⌜yld = probPay dm acc (ld_t4 c X k)⌝ ∗ slot1P (F := F) c X)) := by
  have hk : k.val < 16 := Nat.lt_of_lt_of_le k.isLt k0_t4_abs.2.1
  unfold body_t4
  iintro HR
  sl_exec
  sl_step
  isplitr
  · ipureintro; rfl
  · iexact HR

set_option warn.classDefReducibility false in
/-- Loop 4 by its invariant. -/
@[sl_loop] def loopInv_t4 (𝒱 : Variants) (c : Dev nD) (bd : Option 𝒱.V) (X : HbBuf (F := F) c slot1M) (dm : FVec F S1x40x320 .f32) (init : FVec F S40x320 .f32) :
    Idealize.ShloMosaic.LoopInv (M := 𝕄) Idealize.ShloMosaic.frame (wpE (defs₀ (F := F)) 𝒱 (c : Thread nD τ) bd) Set.univ
      k0_t4_loop.lb k0_t4_loop.ub k0_t4_loop.st k0_t4_ok init (body_t4 (F := F) dm) where
  inv k acc := iprop(slot1P (F := F) c X ∗ ⌜acc = st_t4 c X dm init k⌝)
  step k acc := by
    iintro ⟨HR, %h_acc⟩
    subst h_acc
    iapply (wp_wand_r Idealize.ShloMosaic.frame (wpE (defs₀ (F := F)) 𝒱 (c : Thread nD τ) bd) Set.univ)
    isplitl [HR]
    · iapply (trip_t4 (F := F) 𝒱 c bd X dm k (st_t4 c X dm init k))
      iexact HR
    · iintro %yld ⟨%h_res, HR⟩
      isplitl [HR]; · iexact HR
      simp only [st_t4_succ]
      ipureintro; rw [h_res]

end Cert.KernelIdeal.Hand

end
-- ==== Proof.KernelIdealBody.lean ====
import proofs.«177967_j11708080849517_2_alg».proof.Proof.KernelIdealLoops

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel body, run once at symbolic operands

At a grid point (a batch) the body starts the copy of the first row tile of the padded image into slot 0, and then
for each of the five row tiles: waits for the tile's copy, starts the next tile's copy into the other slot, runs the
two loops over the slot just landed (the channel maximum, then the kept sum) and stores the tile's 40 rows into the
output block. Every copy it starts it waits for before the point ends: both cells come back at zero, the padded image
whole, the two slots at some contents; the output's buffer comes back with the five tiles' stores listed. -/

set_option maxHeartbeats 16000000 in
noncomputable def kernelRun (c : Dev nD) (i : grid0.Coords) (arg2 : Memref sig .tc .vmem S1x200x320 .f32) (harg2 : arg2.IsWhole)
    (fh : HbBuf (F := F) c hbM) :
    { L1 : List (View.Piece (Elt F) S1x200x320 .f32) //
      ∀ (W : Waits sig Unit) (K : PUnit → sProp 𝕄),
        iprop((∃ d, owns (c : Thread nD τ) arg2 fullShare d) ∗ (∃ d, owns (c : Thread nD τ) scM fullShare d)
            ∗ semVal ((c : Thread nD τ), SemLoc.dma 2) 0 ∗ semVal ((c : Thread nD τ), SemLoc.dma 3) 0 ∗ hbPt c hbM fh ∗ owes (c : Thread nD τ) 0 W
            ∗ (iprop((∃ f, arg2.view.loc (c : Thread nD τ) ↦[arg2.view.set]{fullShare} arg2.view.writes (Elt F) f L1) ∗ (∃ d, owns (c : Thread nD τ) scM fullShare d)
                ∗ semVal ((c : Thread nD τ), SemLoc.dma 2) 0 ∗ semVal ((c : Thread nD τ), SemLoc.dma 3) 0 ∗ hbPt c hbM fh ∗ (∃ W', owes (c : Thread nD τ) 0 W')) -∗ K ⟨⟩))
          ⊢ wp frame (wpE (defs₀ (F := F)) Variants.none c none) Set.univ (cc0_nms_kernel i hbM (Memref.isWhole_whole _) arg2 harg2 scM (Memref.isWhole_whole _) cc0_scratch1) K } := by
  refine ⟨?_, fun W K => ?run⟩
  case run =>
    sl_unfold [cc0_nms_kernel]
    iintro ⟨H1x, Hsc, Hq0, Hq1, Hh0, HW, Hk⟩
    ihave Hs := (slots_in (F := F) c) $$ Hsc
    icases Hs with ⟨⟨%g0, HS0⟩, ⟨%g1, HS1⟩⟩
    unfold owns
    icases H1x with ⟨%d1, %f1, -, H1⟩
    sl_exec
    sl_step
    iapply Hk
    isplitl [H1]; · iexists _; iexact H1
    isplitl [HS0 HS1]
    · iapply (slots_out (F := F) c)
      isplitl [HS0]
      · iexists _; iexact HS0
      · iexists _; iexact HS1
    isplitl [Hq0]; · iexact Hq0
    isplitl [Hq1]; · iexact Hq1
    isplitl [Hh0]; · iexact Hh0
    iexists _; iexact HW

end Cert.KernelIdeal.Hand

end
-- ==== Proof.KernelIdealFrame.lean ====
import proofs.«177967_j11708080849517_2_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the output block holds after each point, the proof data, the body obligation, the run -/

/-- One staging buffer of the output window, through which its contents are stated. -/
abbrev VO : View sig .tc .vmem S1x200x320 .f32 := (Memref.whole cc0_stg0_0 : Memref sig .tc .vmem S1x200x320 .f32).view

/-- The five row tiles the body stores tile the [1, 200, 320] block, so they cover it. -/
theorem cover_run (c : Dev nD) (i : grid0.Coords) (arg2 : Memref sig .tc .vmem S1x200x320 .f32) (harg2 : arg2.IsWhole)
    (fh : HbBuf (F := F) c hbM) (y : S1x200x320.Idx) :
    ∃ pc ∈ (kernelRun c i arg2 harg2 fh).1, y ∈ pc.1.set :=
  View.cover_of_tiledL (kernelRun c i arg2 harg2 fh).1 S1x40x320.size (by sl_kernel_rfl) y

/-- What the run leaves in the output's staging buffer: its pieces read back over junk. -/
def out_run (c : Dev nD) (i : grid0.Coords) (arg2 : Memref sig .tc .vmem S1x200x320 .f32) (harg2 : arg2.IsWhole)
    (fh : HbBuf (F := F) c hbM) : Vec F S1x200x320 .f32 :=
  VO.read (Elt F) (VO.writes (Elt F) VO.junk (kernelRun c i arg2 harg2 fh).1)

/-- The output block after the body at point `t`: the run at the point's staging memref and the padded image. -/
def outsAt (c : Dev nD) (t : Fin cfg0.N) : Vec F S1x200x320 .f32 :=
  out_run c (grid0.coords t) (ms0_0 t) (hs0_0 t) (Gen.V m c main_v0)

/-- The proof data of the one pipeline on core `c`. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => (outsAt m c t)
  Φ _ := Pipeline.ΦD osem0 spec0 H0 (Gen.V m) c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = (outsAt m c t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- The body at any point: the invariant hands the run the scratch, the register, both cells at zero and the padded
    image, and takes them back as they were; the output's buffer comes back with the run's pieces written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (Gen.V m) c from rfl, PhiD0_eq]
  unfold Dat.owesAt Pipeline.owesWithin
  rw [show (dats m 0 c).owed t.castSucc = 0 from rfl, show (dats m 0 c).owed t.succ = 0 from rfl]
  unfold outsAt
  unfold out_run
  iintro ⟨⟨HS0, Hg, ⟨Hq0, Hq1⟩, Hh0⟩, ⟨%W, -, HW⟩, ⟨%d0, H0⟩⟩
  iapply ((kernelRun c (grid0.coords t) _ _ (Gen.V m c main_v0)).2 W _)
  isplitl [H0]; · iexists _; iexact H0
  isplitl [HS0]; · iexact HS0
  isplitl [Hq0]; · iexact Hq0
  isplitl [Hq1]; · iexact Hq1
  isplitl [Hh0]; · iexact Hh0
  isplitl [HW]; · iexact HW
  iintro ⟨⟨%e1, H1⟩, HS0, Hq0, Hq1, Hh0, ⟨%W', HW'⟩⟩
  isplitl [HS0 Hg Hq0 Hq1 Hh0]
  · isplitl [HS0]
    · iexact HS0
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  unfold owns; iexists _; isplitr
  swap; · iexact H1
  ipureintro; exact View.read_writes_of_cover _ _ _ _ _ (cover_run c _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, the output array at what the library computes from the proof
    data and every other unscoped buffer as the region found it. -/
theorem run_main : θ_run defs (onTc (τ := τ) (main (F := F))) (s₀ m ρ) (Pipeline.FramePost cfgs (dats m) 0 (Gen.V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := Gen.V m) (hmain := hmainD m Variants.none) (hA := A_eq m)
    (hin := fun _ => .rfl) (hout := fun _ => .rfl)

/-- The frame: the program runs to its end, nothing faults, the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_ofD m ρ (dats m) (run_main m ρ)

end Cert.KernelIdeal.Hand

end
-- ==== Proof.Spec.lean ====
/-
  The function both programs compute, over the extended reals.

  For an image x[b, c, h, w] (4 batches, 256 channels, 200 × 320 pixels) the result at (b, h, w) is the sum over the
  channels c of the pixel's value where that value is at once the largest over the channels at the pixel and the
  largest in the 9 × 9 window centred at the pixel within its channel (the image continued by -∞ outside), and of
  zero elsewhere.
-/
import Idealize.ShloMosaic.PureOps.Ideal
import Idealize.ShloMosaic.Lib.ValueIdx

noncomputable section

namespace Cert.Nms

open Idealize.ShloMosaic Idealize.ShloMosaic.ValueIdx

/-- The image's shape and the result's. -/
abbrev SX : Shape := ⟨4, ![4, 256, 200, 320]⟩
abbrev SO : Shape := ⟨3, ![4, 200, 320]⟩

/-- The largest value over the 256 channels at one pixel (the supremum of the empty family being -∞). -/
def chanMax (x : SX.Idx → EReal) (b : Fin 4) (h : Fin 200) (w : Fin 320) : EReal :=
  Finset.univ.sup fun c : Fin 256 => x (ix4 b c h w)

/-- The image continued by -∞ four pixels beyond each side of both spatial axes, read at the coordinates (i, j) of
    the continued image: pixel (i - 4, j - 4) where that is a pixel, -∞ elsewhere. -/
def padded (x : SX.Idx → EReal) (b : Fin 4) (c : Fin 256) (i j : ℕ) : EReal :=
  if hh : (4 ≤ i ∧ i - 4 < 200) ∧ (4 ≤ j ∧ j - 4 < 320) then x (ix4 b c ⟨i - 4, hh.1.2⟩ ⟨j - 4, hh.2.2⟩) else ⊥

/-- The largest value in the 9 × 9 window centred at pixel (h, w) of channel c: the continued image's rows
    h … h + 8 and columns w … w + 8. -/
def windowMax (x : SX.Idx → EReal) (b : Fin 4) (c : Fin 256) (h : Fin 200) (w : Fin 320) : EReal :=
  Finset.univ.sup fun d : Fin 9 × Fin 9 => padded x b c (h.val + d.1.val) (w.val + d.2.val)

/-- A pixel's value where it is both its pixel's channel maximum and its window's maximum, zero elsewhere. -/
def kept (x : SX.Idx → EReal) (b : Fin 4) (c : Fin 256) (h : Fin 200) (w : Fin 320) : EReal :=
  if x (ix4 b c h w) = chanMax x b h w ∧ x (ix4 b c h w) = windowMax x b c h w then x (ix4 b c h w) else 0

/-- The result: the kept values summed over the channels. -/
def G (x : SX.Idx → EReal) : SO.Idx → EReal := fun j =>
  ∑ c : Fin 256, kept x (j 0) c (j 1) (j 2)

end Cert.Nms

end
-- ==== Proof.KernelIdealPad.lean ====
/-
  The padded image the kernel's region reads. Before its region the kernel's program continues the argument image by -∞
  four pixels beyond each side of both spatial axes; read index by index over the extended reals, the padded array at
  (b, ch, i, j) is the specification's continued image `Cert.Nms.padded` of the argument, as launched, at (i, j).
-/
import proofs.«177967_j11708080849517_2_alg».proof.Proof.Gen.KernelIdeal.Frame
import proofs.«177967_j11708080849517_2_alg».proof.Proof.Spec
import Idealize.ShloMosaic.Lib.StableHlo.Run
import Idealize.ShloMosaic.Lib.KernelVsHost

noncomputable section

namespace Cert.KernelIdeal.Hand

open Cert.KernelIdeal Cert.KernelIdeal.Gen Idealize.ShloMosaic Idealize.ShloMosaic.TcCoe Idealize.SL.Sem
  Idealize.ShloMosaic.ValueIdx

/-- The padding value: the f32 word with sign bit set, exponent all ones and zero significand denotes -∞. -/
theorem padValue_eq_bot (i : S_.Idx) : constant (F := Ideal) S_ .f32 0xFF800000#32 i = ⊥ := by
  show Ideal.ofBits .f32 0xFF800000#32 = ⊥
  simp [Ideal.ofBits, Ideal.ieee]

/-- The image padded by -∞ four pixels on each side of both spatial axes, read at (b, ch, i, j), is the continued image
    of the specification at the coordinates (i, j). -/
theorem pad_apply (x : S4x256x200x320.Idx → EReal) (b : Fin 4) (ch : Fin 256) (i : Fin 208) (j : Fin 328) :
    pad S4x256x208x328 ![0, 0, 4, 4] ![0, 0, 4, 4] ![0, 0, 0, 0] x (constant (F := Ideal) S_ .f32 0xFF800000#32)
      pads_S4x256x200x320_S4x256x208x328_000_000_440_440 h_S_ (ix4 b ch i j) = Cert.Nms.padded x b ch i.val j.val := by
  unfold Cert.Nms.padded
  by_cases hh : (4 ≤ i.val ∧ i.val - 4 < 200) ∧ (4 ≤ j.val ∧ j.val - 4 < 320)
  · rw [dif_pos hh]
    exact pad_apply_of_inside _ _ _ x _ _ _ _ (ix4 b ch ⟨i.val - 4, hh.1.2⟩ ⟨j.val - 4, hh.2.2⟩) (fun a => by
      match a with
      | ⟨0, _⟩ => show b.val = 0 + b.val * (0 + 1); omega
      | ⟨1, _⟩ => show ch.val = 0 + ch.val * (0 + 1); omega
      | ⟨2, _⟩ => show i.val = 4 + (i.val - 4) * (0 + 1); omega
      | ⟨3, _⟩ => show j.val = 4 + (j.val - 4) * (0 + 1); omega)
  · rw [dif_neg hh]
    have hor : ¬(4 ≤ i.val ∧ i.val - 4 < 200) ∨ ¬(4 ≤ j.val ∧ j.val - 4 < 320) := by
      by_cases h2 : 4 ≤ i.val ∧ i.val - 4 < 200
      · exact Or.inr fun h3 => hh ⟨h2, h3⟩
      · exact Or.inl h2
    rcases hor with h2 | h3
    · refine (pad_apply_of_not_inside _ _ _ x _ _ _ _ ⟨2, by decide⟩ ?_).trans (padValue_eq_bot _)
      intro hin
      have hin' : 4 ≤ i.val ∧ (i.val - 4) % (0 + 1) = 0 ∧ (i.val - 4) / (0 + 1) < 200 := hin
      omega
    · refine (pad_apply_of_not_inside _ _ _ x _ _ _ _ ⟨3, by decide⟩ ?_).trans (padValue_eq_bot _)
      intro hin
      have hin' : 4 ≤ j.val ∧ (j.val - 4) % (0 + 1) = 0 ∧ (j.val - 4) / (0 + 1) < 320 := hin
      omega

/-- The padded array as the region finds it: at (b, ch, i, j) it is the continued image of the argument as launched. -/
theorem V_pad_apply (m : (ℓ : Loc nD τ sig) → Buf (Elt Ideal) ℓ) (c : Dev nD) (b : Fin 4) (ch : Fin 256) (i : Fin 208)
    (j : Fin 328) :
    (Gen.V (F := Ideal) m c main_v0 : S4x256x208x328.Idx → EReal) (ix4 b ch i j)
      = Cert.Nms.padded (m ((c : Thread nD τ).loc main_arg0)) b ch i.val j.val := by
  have e : (Gen.V (F := Ideal) m c main_v0 : S4x256x208x328.Idx → EReal)
      = pad S4x256x208x328 ![0, 0, 4, 4] ![0, 0, 4, 4] ![0, 0, 0, 0] (m ((c : Thread nD τ).loc main_arg0))
          (constant (F := Ideal) S_ .f32 0xFF800000#32) pads_S4x256x200x320_S4x256x208x328_000_000_440_440 h_S_ := by
    dsimp only [Gen.V]
    simp only [Gen.hostOps0, Gen.hostOps0_1, List.flatten_cons, List.flatten_nil, List.append_nil, List.cons_append,
      List.nil_append]
    after_results
    rfl
  rw [e]
  exact pad_apply _ b ch i j

end Cert.KernelIdeal.Hand

end
-- ==== Proof.KernelIdealReads.lean ====
/-
  Reads through views, index by index over the extended reals.

  A slot of the scratch whose newest write is a piece covering the whole slot reads that piece's payload. The chunk a
  loop's trip `k` loads from a slot is the slot read at channel `16 k + a` and, for the core chunks, at row `r + 4` and
  column `q + 4`; for the chunks with their halo, at row `r` and column `q`. The tile of the padded image a transfer
  copies — batch `i 0`, all channels, the 48 rows from row `40 T`, all columns — read through its squeezed slice at
  (ch, r, q) is the padded image at (i 0, ch, 40 T + r, q).
-/
import proofs.«177967_j11708080849517_2_alg».proof.Proof.KernelIdealLoops
import Idealize.ShloMosaic.Lib.Pipeline.Value
import Idealize.ShloMosaic.Lib.ValueLayout
import Idealize.ShloMosaic.Lib.ValueIdx
import Idealize.ShloMosaic.Lib.Writes

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-- What a whole-view piece reads back when it is the newest of a list of writes: its payload. -/
theorem read_writes_whole_cons {sig : RefSig} {κ : Kind} {sp : Space} {s : Shape} {e : EltTy} {Val : EltTy → Type}
    (v : View sig κ sp s e) (f : v.ty.Contents Val) (x : s.Idx → Val e) (L : List (View.Piece Val s e)) :
    v.read Val (v.writes Val f (⟨Rect.whole s, x⟩ :: L)) = x := by
  funext y
  have h := View.read_writes_cons_emb v f (Rect.whole s) x L y
  rwa [Rect.emb_whole_apply] at h

variable (c : Dev nD)

/-! ## A slot after a write of the whole slot -/

/-- Slot 0 whose newest write is a piece covering it reads that piece's payload. -/
theorem slot0_read_writes (f : HbBuf (F := Ideal) c slot0M) (P : S256x48x328.Idx → EReal)
    (L : List (View.Piece (Elt Ideal) S256x48x328 .f32)) :
    slot0M.view.read (Elt Ideal) (slot0M.view.writes (Elt Ideal) f (⟨Rect.whole S256x48x328, P⟩ :: L)) = P :=
  read_writes_whole_cons slot0M.view f P L

/-- Slot 1 whose newest write is a piece covering it reads that piece's payload. -/
theorem slot1_read_writes (f : HbBuf (F := Ideal) c slot1M) (P : S256x48x328.Idx → EReal)
    (L : List (View.Piece (Elt Ideal) S256x48x328 .f32)) :
    slot1M.view.read (Elt Ideal) (slot1M.view.writes (Elt Ideal) f (⟨Rect.whole S256x48x328, P⟩ :: L)) = P :=
  read_writes_whole_cons slot1M.view f P L

/-! ## The chunks the loops load -/

/-- Each loop makes at most 16 trips. -/
theorem trips1_lt (k : Fin k0_t1_loop.trips) : k.val < 16 := Nat.lt_of_lt_of_le k.isLt k0_t1_abs.2.1
theorem trips2_lt (k : Fin k0_t2_loop.trips) : k.val < 16 := Nat.lt_of_lt_of_le k.isLt k0_t2_abs.2.1
theorem trips3_lt (k : Fin k0_t3_loop.trips) : k.val < 16 := Nat.lt_of_lt_of_le k.isLt k0_t3_abs.2.1
theorem trips4_lt (k : Fin k0_t4_loop.trips) : k.val < 16 := Nat.lt_of_lt_of_le k.isLt k0_t4_abs.2.1

/-- Loop 1: the core chunk of trip `k` at (a, r, q) is slot 0 at channel `16 k + a`, row `r + 4`, column `q + 4`. -/
theorem ld_t1_apply (X : HbBuf (F := Ideal) c slot0M) (k : Fin k0_t1_loop.trips) (a : Fin 16) (r : Fin 40)
    (q : Fin 320) :
    ld_t1 c X k (ix3 a r q) = slot0M.view.read (Elt Ideal) X
      (ix3 (⟨16 * k.val + a.val, by have := trips1_lt k; omega⟩ : Fin 256) (⟨r.val + 4, by omega⟩ : Fin 48)
        (⟨q.val + 4, by omega⟩ : Fin 328)) := by
  refine congrArg (slot0M.view.read (Elt Ideal) X) (funext fun d => Fin.ext ?_)
  show (k0_off3 k) d + 1 * (ix3 a r q d).val = _
  rw [k0_off3_eq]
  match d with
  | ⟨0, _⟩ => show 16 * k.val + 1 * a.val = 16 * k.val + a.val; omega
  | ⟨1, _⟩ => show 4 + 1 * r.val = r.val + 4; omega
  | ⟨2, _⟩ => show 4 + 1 * q.val = q.val + 4; omega

/-- Loop 2: the chunk with its halo of trip `k` at (a, r, q) is slot 0 at channel `16 k + a`, row `r`, column `q`. -/
theorem ld_t2_apply (X : HbBuf (F := Ideal) c slot0M) (k : Fin k0_t2_loop.trips) (a : Fin 16) (r : Fin 48)
    (q : Fin 328) :
    ld_t2 c X k (ix3 a r q) = slot0M.view.read (Elt Ideal) X
      (ix3 (⟨16 * k.val + a.val, by have := trips2_lt k; omega⟩ : Fin 256) r q) := by
  refine congrArg (slot0M.view.read (Elt Ideal) X) (funext fun d => Fin.ext ?_)
  show (k0_off4 k) d + 1 * (ix3 a r q d).val = _
  rw [k0_off4_eq]
  match d with
  | ⟨0, _⟩ => show 16 * k.val + 1 * a.val = 16 * k.val + a.val; omega
  | ⟨1, _⟩ => show 0 + 1 * r.val = r.val; omega
  | ⟨2, _⟩ => show 0 + 1 * q.val = q.val; omega

/-- Loop 3: the core chunk of trip `k` at (a, r, q) is slot 1 at channel `16 k + a`, row `r + 4`, column `q + 4`. -/
theorem ld_t3_apply (X : HbBuf (F := Ideal) c slot1M) (k : Fin k0_t3_loop.trips) (a : Fin 16) (r : Fin 40)
    (q : Fin 320) :
    ld_t3 c X k (ix3 a r q) = slot1M.view.read (Elt Ideal) X
      (ix3 (⟨16 * k.val + a.val, by have := trips3_lt k; omega⟩ : Fin 256) (⟨r.val + 4, by omega⟩ : Fin 48)
        (⟨q.val + 4, by omega⟩ : Fin 328)) := by
  refine congrArg (slot1M.view.read (Elt Ideal) X) (funext fun d => Fin.ext ?_)
  show (k0_off6 k) d + 1 * (ix3 a r q d).val = _
  rw [k0_off6_eq]
  match d with
  | ⟨0, _⟩ => show 16 * k.val + 1 * a.val = 16 * k.val + a.val; omega
  | ⟨1, _⟩ => show 4 + 1 * r.val = r.val + 4; omega
  | ⟨2, _⟩ => show 4 + 1 * q.val = q.val + 4; omega

/-- Loop 4: the chunk with its halo of trip `k` at (a, r, q) is slot 1 at channel `16 k + a`, row `r`, column `q`. -/
theorem ld_t4_apply (X : HbBuf (F := Ideal) c slot1M) (k : Fin k0_t4_loop.trips) (a : Fin 16) (r : Fin 48)
    (q : Fin 328) :
    ld_t4 c X k (ix3 a r q) = slot1M.view.read (Elt Ideal) X
      (ix3 (⟨16 * k.val + a.val, by have := trips4_lt k; omega⟩ : Fin 256) r q) := by
  refine congrArg (slot1M.view.read (Elt Ideal) X) (funext fun d => Fin.ext ?_)
  show (k0_off7 k) d + 1 * (ix3 a r q d).val = _
  rw [k0_off7_eq]
  match d with
  | ⟨0, _⟩ => show 16 * k.val + 1 * a.val = 16 * k.val + a.val; omega
  | ⟨1, _⟩ => show 0 + 1 * r.val = r.val; omega
  | ⟨2, _⟩ => show 0 + 1 * q.val = q.val; omega

/-! ## The tiles of the padded image -/

/-- A tile of the padded image — batch `bI`, all channels, 48 rows from row `o`, all columns — read through its squeezed
    slice at (ch, r, q) is the padded image at (bI, ch, o + r, q). -/
theorem blk_apply_of_off (off : Fin 4 → Nat) (inb : ∀ a, off a + S1x256x48x328.size a ≤ S4x256x208x328.size a)
    (bI : Fin 4) (o : Nat) (ho : o + 48 ≤ 208) (hoff : off = ![bI.val, 0, o, 0]) (fh : HbBuf (F := Ideal) c hbM)
    (ch : Fin 256) (r : Fin 48) (q : Fin 328) :
    ReadAs.same.apply (View.read (Elt Ideal) ((hbM.slice (Rect.unit (s := S4x256x208x328) off S1x256x48x328.size inb)
        (fun _ => rfl)).squeeze S256x48x328 squeezes_S1x256x48x328_S256x48x328).view fh) (ix3 ch r q)
      = (fh : S4x256x208x328.Idx → EReal) (ix4 bI ch (⟨o + r.val, by omega⟩ : Fin 208) q) := by
  subst hoff
  rw [ReadAs.apply_same,
    Memref.read_squeeze_slice hbM _ (fun _ => rfl) squeezes_S1x256x48x328_S256x48x328
      (show S1x256x48x328.ShapeCasts S256x48x328 by decide) fh,
    shapeCast_apply _ _ _ (ix4 (⟨0, Nat.one_pos⟩ : Fin 1) ch r q) (by
      rw [Shape.rowMajor_val_four, Shape.rowMajor_val_three]
      show (((0 * 256 + ch.val) * 48 + r.val) * 328 + q.val) = (ch.val * 48 + r.val) * 328 + q.val
      simp only [Nat.zero_mul, Nat.zero_add]),
    View.readAt_apply]
  show (fh : S4x256x208x328.Idx → EReal) _ = _
  refine congrArg (fh : S4x256x208x328.Idx → EReal) (funext fun d => Fin.ext ?_)
  match d with
  | ⟨0, _⟩ => show bI.val + 1 * 0 = bI.val; omega
  | ⟨1, _⟩ => show 0 + 1 * ch.val = ch.val; omega
  | ⟨2, _⟩ => show o + 1 * r.val = o + r.val; omega
  | ⟨3, _⟩ => show 0 + 1 * q.val = q.val; omega

/-- Tile 0: the tile from row `40 · 0` read at (ch, r, q) is the padded image at (i 0, ch, 40 · 0 + r, q). -/
theorem blk0_apply (i : grid0.Coords) (fh : HbBuf (F := Ideal) c hbM) (ch : Fin 256) (r : Fin 48) (q : Fin 328) :
    ReadAs.same.apply (View.read (Elt Ideal) ((hbM.slice (Rect.unit (s := S4x256x208x328) (k0_off1 i) S1x256x48x328.size
        (k0_off1_inb i)) (fun _ => rfl)).squeeze S256x48x328 squeezes_S1x256x48x328_S256x48x328).view fh) (ix3 ch r q)
      = (fh : S4x256x208x328.Idx → EReal) (ix4 (i 0) ch (⟨40 * 0 + r.val, by omega⟩ : Fin 208) q) :=
  blk_apply_of_off c (k0_off1 i) (k0_off1_inb i) (i 0) (40 * 0) (by omega) (k0_off1_eq i) fh ch r q

/-- Tile 1: the tile from row `40 · 1` read at (ch, r, q) is the padded image at (i 0, ch, 40 · 1 + r, q). -/
theorem blk1_apply (i : grid0.Coords) (fh : HbBuf (F := Ideal) c hbM) (ch : Fin 256) (r : Fin 48) (q : Fin 328) :
    ReadAs.same.apply (View.read (Elt Ideal) ((hbM.slice (Rect.unit (s := S4x256x208x328) (k0_off2 i) S1x256x48x328.size
        (k0_off2_inb i)) (fun _ => rfl)).squeeze S256x48x328 squeezes_S1x256x48x328_S256x48x328).view fh) (ix3 ch r q)
      = (fh : S4x256x208x328.Idx → EReal) (ix4 (i 0) ch (⟨40 * 1 + r.val, by omega⟩ : Fin 208) q) :=
  blk_apply_of_off c (k0_off2 i) (k0_off2_inb i) (i 0) (40 * 1) (by omega) (k0_off2_eq i) fh ch r q

/-- Tile 2: the tile from row `40 · 2` read at (ch, r, q) is the padded image at (i 0, ch, 40 · 2 + r, q). -/
theorem blk2_apply (i : grid0.Coords) (fh : HbBuf (F := Ideal) c hbM) (ch : Fin 256) (r : Fin 48) (q : Fin 328) :
    ReadAs.same.apply (View.read (Elt Ideal) ((hbM.slice (Rect.unit (s := S4x256x208x328) (k0_off5 i) S1x256x48x328.size
        (k0_off5_inb i)) (fun _ => rfl)).squeeze S256x48x328 squeezes_S1x256x48x328_S256x48x328).view fh) (ix3 ch r q)
      = (fh : S4x256x208x328.Idx → EReal) (ix4 (i 0) ch (⟨40 * 2 + r.val, by omega⟩ : Fin 208) q) :=
  blk_apply_of_off c (k0_off5 i) (k0_off5_inb i) (i 0) (40 * 2) (by omega) (k0_off5_eq i) fh ch r q

/-- Tile 3: the tile from row `40 · 3` read at (ch, r, q) is the padded image at (i 0, ch, 40 · 3 + r, q). -/
theorem blk3_apply (i : grid0.Coords) (fh : HbBuf (F := Ideal) c hbM) (ch : Fin 256) (r : Fin 48) (q : Fin 328) :
    ReadAs.same.apply (View.read (Elt Ideal) ((hbM.slice (Rect.unit (s := S4x256x208x328) (k0_off8 i) S1x256x48x328.size
        (k0_off8_inb i)) (fun _ => rfl)).squeeze S256x48x328 squeezes_S1x256x48x328_S256x48x328).view fh) (ix3 ch r q)
      = (fh : S4x256x208x328.Idx → EReal) (ix4 (i 0) ch (⟨40 * 3 + r.val, by omega⟩ : Fin 208) q) :=
  blk_apply_of_off c (k0_off8 i) (k0_off8_inb i) (i 0) (40 * 3) (by omega) (k0_off8_eq i) fh ch r q

/-- Tile 4: the tile from row `40 · 4` read at (ch, r, q) is the padded image at (i 0, ch, 40 · 4 + r, q). -/
theorem blk4_apply (i : grid0.Coords) (fh : HbBuf (F := Ideal) c hbM) (ch : Fin 256) (r : Fin 48) (q : Fin 328) :
    ReadAs.same.apply (View.read (Elt Ideal) ((hbM.slice (Rect.unit (s := S4x256x208x328) (k0_off11 i) S1x256x48x328.size
        (k0_off11_inb i)) (fun _ => rfl)).squeeze S256x48x328 squeezes_S1x256x48x328_S256x48x328).view fh) (ix3 ch r q)
      = (fh : S4x256x208x328.Idx → EReal) (ix4 (i 0) ch (⟨40 * 4 + r.val, by omega⟩ : Fin 208) q) :=
  blk_apply_of_off c (k0_off11 i) (k0_off11_inb i) (i 0) (40 * 4) (by omega) (k0_off11_eq i) fh ch r q

end Cert.KernelIdeal.Hand

end
-- ==== Proof.LibSup.lean ====
/-
  Suprema and sums over finite index ranges: a nested binary maximum of nine terms as a supremum over nine indices,
  and a supremum or a sum over m · n indices taken tile by tile.
-/
import Idealize.ShloMosaic.PureOps.Ideal

open scoped BigOperators

namespace Cert.Nms.Lib

/-- Nine terms' left-nested binary maximum is their supremum. -/
theorem max9_eq_sup {α : Type*} [LinearOrder α] [OrderBot α] (f : Fin 9 → α) :
    max (max (max (max (max (max (max (max (f 0) (f 1)) (f 2)) (f 3)) (f 4)) (f 5)) (f 6)) (f 7)) (f 8)
      = Finset.univ.sup f := by
  simp [Fin.univ_succ, Finset.sup_cons, Finset.sup_map, max_assoc]

/-- A supremum over m · n indices is the supremum over the m tiles of each tile's supremum over its n indices. -/
theorem sup_fin_tile {α : Type*} [SemilatticeSup α] [OrderBot α] (m n : ℕ) (f : Fin (m * n) → α) :
    Finset.univ.sup f = Finset.univ.sup fun i : Fin m => Finset.univ.sup fun j : Fin n => f (finProdFinEquiv (i, j)) := by
  have h := Finset.sup_product_left (Finset.univ : Finset (Fin m)) (Finset.univ : Finset (Fin n))
    (fun p => f (finProdFinEquiv p))
  rw [Finset.univ_product_univ] at h
  rw [← h, ← Finset.map_univ_equiv finProdFinEquiv, Finset.sup_map]
  rfl

/-- A sum over m · n indices is the sum over the m tiles of each tile's sum over its n indices. -/
theorem sum_fin_tile {M : Type*} [AddCommMonoid M] (m n : ℕ) (f : Fin (m * n) → M) :
    ∑ c, f c = ∑ i : Fin m, ∑ j : Fin n, f (finProdFinEquiv (i, j)) := by
  rw [← Fintype.sum_prod_type', ← Equiv.sum_comp finProdFinEquiv]

/-- Index j of tile i is below m · n. -/
theorem tile_lt {m n : ℕ} (i : Fin m) (j : Fin n) : n * i.val + j.val < m * n :=
  calc n * i.val + j.val < n * i.val + n := Nat.add_lt_add_left j.isLt _
    _ = n * (i.val + 1) := (Nat.mul_succ _ _).symm
    _ ≤ n * m := Nat.mul_le_mul_left _ i.isLt
    _ = m * n := Nat.mul_comm _ _

/-- The tile-by-tile supremum with the index written n · i + j. -/
theorem sup_fin_tile' {α : Type*} [SemilatticeSup α] [OrderBot α] (m n : ℕ) (f : Fin (m * n) → α) :
    Finset.univ.sup f
      = Finset.univ.sup fun i : Fin m => Finset.univ.sup fun j : Fin n => f ⟨n * i.val + j.val, tile_lt i j⟩ := by
  rw [sup_fin_tile m n f]
  refine congrArg _ (funext fun i => congrArg _ (funext fun j => congrArg f (Fin.ext ?_)))
  show j.val + n * i.val = n * i.val + j.val
  exact Nat.add_comm _ _

/-- The tile-by-tile sum with the index written n · i + j. -/
theorem sum_fin_tile' {M : Type*} [AddCommMonoid M] (m n : ℕ) (f : Fin (m * n) → M) :
    ∑ c, f c = ∑ i : Fin m, ∑ j : Fin n, f ⟨n * i.val + j.val, tile_lt i j⟩ := by
  rw [sum_fin_tile m n f]
  refine Finset.sum_congr rfl fun i _ => Finset.sum_congr rfl fun j _ => congrArg f (Fin.ext ?_)
  show j.val + n * i.val = n * i.val + j.val
  exact Nat.add_comm _ _

/-- No index is below zero. -/
theorem filter_lt_zero (n : ℕ) : (Finset.univ.filter fun i : Fin n => i.val < 0) = ∅ :=
  Finset.filter_eq_empty_iff.2 fun i _ => Nat.not_lt_zero _

/-- Every index is below the extent. -/
theorem filter_lt_all (n : ℕ) : (Finset.univ.filter fun i : Fin n => i.val < n) = Finset.univ :=
  Finset.filter_true_of_mem fun i _ => i.isLt

/-- The indices below k + 1 are k and the indices below k. -/
theorem filter_lt_succ (n k : ℕ) (h : k < n) :
    (Finset.univ.filter fun i : Fin n => i.val < k + 1) = insert ⟨k, h⟩ (Finset.univ.filter fun i : Fin n => i.val < k) := by
  ext i
  simp only [Finset.mem_filter, Finset.mem_univ, true_and, Finset.mem_insert, Fin.ext_iff]
  omega

/-- k is not among the indices below k. -/
theorem not_mem_filter_lt (n k : ℕ) (h : k < n) : (⟨k, h⟩ : Fin n) ∉ Finset.univ.filter fun i : Fin n => i.val < k := by
  simp

end Cert.Nms.Lib
-- ==== Proof.TileMath.lean ====
/-
  The arithmetic of one row-tile of the kernel, over the extended reals.

  A tile holds a block X of 256 channels × 48 rows × 328 columns of the image continued by -∞. Its first loop takes,
  sixteen channels at a time, the largest value over the channels at each of the 40 × 320 interior pixels; its second
  loop takes, sixteen channels at a time, each channel's largest value in the 9 × 9 window around the pixel (nine
  shifts along the columns, then nine along the rows) and adds up the pixel's values over the channels where the
  value is both the channel maximum and the window maximum. This file states the two loop bodies as functions of the
  carried value and the sixteen-channel chunk, reads them at an index, iterates them over the sixteen chunks, and
  identifies the tile's result with the specification's function G.
-/
import proofs.«177967_j11708080849517_2_alg».proof.KernelIdeal
import proofs.«177967_j11708080849517_2_alg».proof.Proof.Spec
import proofs.«177967_j11708080849517_2_alg».proof.Proof.LibSup
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Nms.Tile

open Idealize.ShloMosaic Idealize.ShloMosaic.ValueIdx
open Cert.KernelIdeal Cert.KernelIdeal.Facts₀ Cert.KernelIdeal.Facts

variable [Cert.KernelIdeal.Facts]

/-- The first loop's body on values: the carried channel maximum `acc` and the sixteen-channel chunk `v` of interior
    pixels give the new carried maximum. -/
def dmPay (acc : S1x40x320.Idx → EReal) (v : S16x40x320.Idx → EReal) : S1x40x320.Idx → EReal :=
  have arg6 : FVec Ideal S1x40x320 .f32 := acc
  have v109 : FVec Ideal S16x40x320 .f32 := v
  have cst_147 : FVec Ideal S40x320 .f32 := constant S40x320 .f32 0xFF800000#32
  have v110 : FVec Ideal S40x320 .f32 := multiReduction .maximumf [0] S40x320 v109 0xFF800000#32 reduces_S16x40x320_S40x320 (.inl rfl) rfl
  have v111 : FVec Ideal S1x40x320 .f32 := shapeCast S1x40x320 v110 shapeCasts_S40x320_S1x40x320
  have v112 : FVec Ideal S1x40x320 .f32 := maximumf arg6 v111
  v112

/-- The second loop's body on values: the channel maximum `dm`, the carried sum `acc` and the sixteen-channel chunk `v`
    of the padded block give the new carried sum. -/
def probPay (dm : S1x40x320.Idx → EReal) (acc : S40x320.Idx → EReal) (v : S16x48x328.Idx → EReal) : S40x320.Idx → EReal :=
  have v98 : FVec Ideal S1x40x320 .f32 := dm
  have arg6 : FVec Ideal S40x320 .f32 := acc
  have v109 : FVec Ideal S16x48x328 .f32 := v
  have v110 : FVec Ideal S16x48x320 .f32 := extractStridedSlice S16x48x320 ![0, 0, 0] v109 slices_S16x48x328_o0_0_0_S16x48x320
  have v111 : FVec Ideal S16x48x320 .f32 := extractStridedSlice S16x48x320 ![0, 0, 1] v109 slices_S16x48x328_o0_0_1_S16x48x320
  have v112 : FVec Ideal S16x48x320 .f32 := maximumf v110 v111
  have v113 : FVec Ideal S16x48x320 .f32 := extractStridedSlice S16x48x320 ![0, 0, 2] v109 slices_S16x48x328_o0_0_2_S16x48x320
  have v114 : FVec Ideal S16x48x320 .f32 := maximumf v112 v113
  have v115 : FVec Ideal S16x48x320 .f32 := extractStridedSlice S16x48x320 ![0, 0, 3] v109 slices_S16x48x328_o0_0_3_S16x48x320
  have v116 : FVec Ideal S16x48x320 .f32 := maximumf v114 v115
  have v117 : FVec Ideal S16x48x320 .f32 := extractStridedSlice S16x48x320 ![0, 0, 4] v109 slices_S16x48x328_o0_0_4_S16x48x320
  have v118 : FVec Ideal S16x48x320 .f32 := maximumf v116 v117
  have v119 : FVec Ideal S16x48x320 .f32 := extractStridedSlice S16x48x320 ![0, 0, 5] v109 slices_S16x48x328_o0_0_5_S16x48x320
  have v120 : FVec Ideal S16x48x320 .f32 := maximumf v118 v119
  have v121 : FVec Ideal S16x48x320 .f32 := extractStridedSlice S16x48x320 ![0, 0, 6] v109 slices_S16x48x328_o0_0_6_S16x48x320
  have v122 : FVec Ideal S16x48x320 .f32 := maximumf v120 v121
  have v123 : FVec Ideal S16x48x320 .f32 := extractStridedSlice S16x48x320 ![0, 0, 7] v109 slices_S16x48x328_o0_0_7_S16x48x320
  have v124 : FVec Ideal S16x48x320 .f32 := maximumf v122 v123
  have v125 : FVec Ideal S16x48x320 .f32 := extractStridedSlice S16x48x320 ![0, 0, 8] v109 slices_S16x48x328_o0_0_8_S16x48x320
  have v126 : FVec Ideal S16x48x320 .f32 := maximumf v124 v125
  have v127 : FVec Ideal S16x40x320 .f32 := extractStridedSlice S16x40x320 ![0, 0, 0] v126 slices_S16x48x320_o0_0_0_S16x40x320
  have v128 : FVec Ideal S16x40x320 .f32 := extractStridedSlice S16x40x320 ![0, 1, 0] v126 slices_S16x48x320_o0_1_0_S16x40x320
  have v129 : FVec Ideal S16x40x320 .f32 := maximumf v127 v128
  have v130 : FVec Ideal S16x40x320 .f32 := extractStridedSlice S16x40x320 ![0, 2, 0] v126 slices_S16x48x320_o0_2_0_S16x40x320
  have v131 : FVec Ideal S16x40x320 .f32 := maximumf v129 v130
  have v132 : FVec Ideal S16x40x320 .f32 := extractStridedSlice S16x40x320 ![0, 3, 0] v126 slices_S16x48x320_o0_3_0_S16x40x320
  have v133 : FVec Ideal S16x40x320 .f32 := maximumf v131 v132
  have v134 : FVec Ideal S16x40x320 .f32 := extractStridedSlice S16x40x320 ![0, 4, 0] v126 slices_S16x48x320_o0_4_0_S16x40x320
  have v135 : FVec Ideal S16x40x320 .f32 := maximumf v133 v134
  have v136 : FVec Ideal S16x40x320 .f32 := extractStridedSlice S16x40x320 ![0, 5, 0] v126 slices_S16x48x320_o0_5_0_S16x40x320
  have v137 : FVec Ideal S16x40x320 .f32 := maximumf v135 v136
  have v138 : FVec Ideal S16x40x320 .f32 := extractStridedSlice S16x40x320 ![0, 6, 0] v126 slices_S16x48x320_o0_6_0_S16x40x320
  have v139 : FVec Ideal S16x40x320 .f32 := maximumf v137 v138
  have v140 : FVec Ideal S16x40x320 .f32 := extractStridedSlice S16x40x320 ![0, 7, 0] v126 slices_S16x48x320_o0_7_0_S16x40x320
  have v141 : FVec Ideal S16x40x320 .f32 := maximumf v139 v140
  have v142 : FVec Ideal S16x40x320 .f32 := extractStridedSlice S16x40x320 ![0, 8, 0] v126 slices_S16x48x320_o0_8_0_S16x40x320
  have v143 : FVec Ideal S16x40x320 .f32 := maximumf v141 v142
  have v144 : FVec Ideal S16x40x320 .f32 := extractStridedSlice S16x40x320 ![0, 4, 4] v109 slices_S16x48x328_o0_4_4_S16x40x320
  have v145 : FVec Ideal S16x40x320 .f32 := broadcastTo S16x40x320 v98 broadcasts_S1x40x320_S16x40x320
  have v146 : IVec S16x40x320 1 := cmpf .oeq v144 v145
  have v147 : IVec S16x40x320 1 := cmpf .oeq v144 v143
  have v148 : IVec S16x40x320 1 := andi v146 v147
  have cst_148 : Ideal .f32 := Scalar.ofBits .f32 0x00000000#32
  have v149 : FVec Ideal S16x40x320 .f32 := broadcast S16x40x320 cst_148
  have v150 : FVec Ideal S16x40x320 .f32 := select v148 v144 v149
  have cst_149 : FVec Ideal S40x320 .f32 := constant S40x320 .f32 0x00000000#32
  have v151 : FVec Ideal S40x320 .f32 := multiReduction .add [0] S40x320 v150 0x00000000#32 reduces_S16x40x320_S40x320 (.inl rfl) rfl
  have v152 : FVec Ideal S40x320 .f32 := addf arg6 v151
  v152

/-! ## The chunks and the two iterations -/

/-- The first loop's chunk `k`: channels 16k … 16k + 15 of the block at its interior pixels (rows 4 … 43, columns
    4 … 323). -/
def chunkA (X : S256x48x328.Idx → EReal) (k : Fin 16) : S16x40x320.Idx → EReal := fun j =>
  X (ix3 ⟨16 * k.val + (j 0).val, by have h : (j 0).val < 16 := (j 0).isLt; omega⟩
    ⟨(j 1).val + 4, by have h : (j 1).val < 40 := (j 1).isLt; omega⟩
    ⟨(j 2).val + 4, by have h : (j 2).val < 320 := (j 2).isLt; omega⟩)

/-- The second loop's chunk `k`: channels 16k … 16k + 15 of the whole block. -/
def chunkB (X : S256x48x328.Idx → EReal) (k : Fin 16) : S16x48x328.Idx → EReal := fun j =>
  X (ix3 ⟨16 * k.val + (j 0).val, by have h : (j 0).val < 16 := (j 0).isLt; omega⟩ (j 1) (j 2))

/-- The first loop's carried value after `k` trips, from -∞ everywhere. -/
def dmIter (X : S256x48x328.Idx → EReal) : ℕ → S1x40x320.Idx → EReal
  | 0 => fun _ => ⊥
  | k + 1 => if h : k < 16 then dmPay (dmIter X k) (chunkA X ⟨k, h⟩) else dmIter X k

/-- The second loop's carried value after `k` trips, from zero everywhere, against the channel maximum `dm`. -/
def probIter (X : S256x48x328.Idx → EReal) (dm : S1x40x320.Idx → EReal) : ℕ → S40x320.Idx → EReal
  | 0 => fun _ => 0
  | k + 1 => if h : k < 16 then probPay dm (probIter X dm k) (chunkB X ⟨k, h⟩) else probIter X dm k

/-! ## The first loop's body read at a pixel -/

/-- The word of -∞ denotes the least extended real. -/
theorem ofBits_negInf : Ideal.ofBits .f32 0xFF800000#32 = ⊥ := by simp [Ideal.ofBits, Ideal.ieee]

/-- The index the reduction over the channel axis inserts channel `a` into, at pixel (r, q), is (a, r, q). -/
theorem lift_chan (h : S16x40x320.Reduces [0] S40x320) (r : Fin 40) (q : Fin 320) (a : Fin 16) :
    h.lift (ix2 r q) a = ix3 a r q := by
  funext d
  match d with
  | ⟨0, _⟩ => exact Fin.ext rfl
  | ⟨1, _⟩ => exact Fin.ext rfl
  | ⟨2, _⟩ => exact Fin.ext rfl

/-- The first loop's body at pixel (r, q): the larger of the carried value and the chunk's sixteen channels' maximum. -/
theorem dmPay_apply (acc : S1x40x320.Idx → EReal) (v : S16x40x320.Idx → EReal) (r : Fin 40) (q : Fin 320) :
    dmPay acc v (ix3 0 r q) = max (acc (ix3 0 r q)) (Finset.univ.sup fun a : Fin 16 => v (ix3 a r q)) := by
  show max (acc (ix3 0 r q)) (shapeCast S1x40x320 (multiReduction (F := Ideal) .maximumf [0] S40x320 v 0xFF800000#32
    reduces_S16x40x320_S40x320 (.inl rfl) rfl) shapeCasts_S40x320_S1x40x320 (ix3 0 r q)) = _
  rw [shapeCast_ab_1ab_apply]
  refine congrArg (max _) ?_
  refine (Ideal.multiReduction_maximumf_single (φ := .f32) (v : FVec Ideal S16x40x320 .f32) 0xFF800000#32
    reduces_S16x40x320_S40x320 (.inl rfl) rfl (ix2 r q)).trans ?_
  rw [show FloatOps.ofBits (F := Ideal) .f32 0xFF800000#32 = ⊥ from ofBits_negInf]
  exact congrArg (fun f : Fin 16 → EReal => Finset.fold max ⊥ f Finset.univ)
    (funext fun a => congrArg v (lift_chan _ r q a))

/-! ## The second loop's body read at a pixel -/

/-- A slice along the columns read at (a, r, q): the operand `e` columns further. -/
theorem sliceW_apply (e : ℕ) (he : e ≤ 8) (v : S16x48x328.Idx → EReal) (h : S16x48x328.Slices ![0, 0, e] S16x48x320)
    (a : Fin 16) (r : Fin 48) (q : Fin 320) :
    extractStridedSlice S16x48x320 ![0, 0, e] v h (ix3 a r q) = v (ix3 a r ⟨q.val + e, by omega⟩) :=
  extractStridedSlice_apply _ v h _ _ fun b => match b with
    | ⟨0, _⟩ => (Nat.zero_add _).symm
    | ⟨1, _⟩ => (Nat.zero_add _).symm
    | ⟨2, _⟩ => Nat.add_comm _ _

/-- A slice along the rows read at (a, r, q): the operand `d` rows further. -/
theorem sliceH_apply (d : ℕ) (hd : d ≤ 8) (w : S16x48x320.Idx → EReal) (h : S16x48x320.Slices ![0, d, 0] S16x40x320)
    (a : Fin 16) (r : Fin 40) (q : Fin 320) :
    extractStridedSlice S16x40x320 ![0, d, 0] w h (ix3 a r q) = w (ix3 a ⟨r.val + d, by omega⟩ q) :=
  extractStridedSlice_apply _ w h _ _ fun b => match b with
    | ⟨0, _⟩ => (Nat.zero_add _).symm
    | ⟨1, _⟩ => Nat.add_comm _ _
    | ⟨2, _⟩ => (Nat.zero_add _).symm

/-- The interior slice read at (a, r, q): the operand four rows and four columns further. -/
theorem sliceC_apply (v : S16x48x328.Idx → EReal) (h : S16x48x328.Slices ![0, 4, 4] S16x40x320)
    (a : Fin 16) (r : Fin 40) (q : Fin 320) :
    extractStridedSlice S16x40x320 ![0, 4, 4] v h (ix3 a r q) = v (ix3 a ⟨r.val + 4, by omega⟩ ⟨q.val + 4, by omega⟩) :=
  extractStridedSlice_apply _ v h _ _ fun b => match b with
    | ⟨0, _⟩ => (Nat.zero_add _).symm
    | ⟨1, _⟩ => Nat.add_comm _ _
    | ⟨2, _⟩ => Nat.add_comm _ _

/-- The channel maximum broadcast over the sixteen channels reads, at (a, r, q), its value at the pixel. -/
theorem bcast_apply (dm : S1x40x320.Idx → EReal) (h : S1x40x320.Broadcasts S16x40x320)
    (a : Fin 16) (r : Fin 40) (q : Fin 320) :
    broadcastTo S16x40x320 dm h (ix3 a r q) = dm (ix3 0 r q) :=
  broadcastTo_apply dm h _ _ fun b => match b with
    | ⟨0, _⟩ => rfl
    | ⟨1, _⟩ => rfl
    | ⟨2, _⟩ => rfl

/-- The body's nine column shifts and their running maximum. -/
def hmax9 (v109 : FVec Ideal S16x48x328 .f32) : FVec Ideal S16x48x320 .f32 :=
  have v110 : FVec Ideal S16x48x320 .f32 := extractStridedSlice S16x48x320 ![0, 0, 0] v109 slices_S16x48x328_o0_0_0_S16x48x320
  have v111 : FVec Ideal S16x48x320 .f32 := extractStridedSlice S16x48x320 ![0, 0, 1] v109 slices_S16x48x328_o0_0_1_S16x48x320
  have v112 : FVec Ideal S16x48x320 .f32 := maximumf v110 v111
  have v113 : FVec Ideal S16x48x320 .f32 := extractStridedSlice S16x48x320 ![0, 0, 2] v109 slices_S16x48x328_o0_0_2_S16x48x320
  have v114 : FVec Ideal S16x48x320 .f32 := maximumf v112 v113
  have v115 : FVec Ideal S16x48x320 .f32 := extractStridedSlice S16x48x320 ![0, 0, 3] v109 slices_S16x48x328_o0_0_3_S16x48x320
  have v116 : FVec Ideal S16x48x320 .f32 := maximumf v114 v115
  have v117 : FVec Ideal S16x48x320 .f32 := extractStridedSlice S16x48x320 ![0, 0, 4] v109 slices_S16x48x328_o0_0_4_S16x48x320
  have v118 : FVec Ideal S16x48x320 .f32 := maximumf v116 v117
  have v119 : FVec Ideal S16x48x320 .f32 := extractStridedSlice S16x48x320 ![0, 0, 5] v109 slices_S16x48x328_o0_0_5_S16x48x320
  have v120 : FVec Ideal S16x48x320 .f32 := maximumf v118 v119
  have v121 : FVec Ideal S16x48x320 .f32 := extractStridedSlice S16x48x320 ![0, 0, 6] v109 slices_S16x48x328_o0_0_6_S16x48x320
  have v122 : FVec Ideal S16x48x320 .f32 := maximumf v120 v121
  have v123 : FVec Ideal S16x48x320 .f32 := extractStridedSlice S16x48x320 ![0, 0, 7] v109 slices_S16x48x328_o0_0_7_S16x48x320
  have v124 : FVec Ideal S16x48x320 .f32 := maximumf v122 v123
  have v125 : FVec Ideal S16x48x320 .f32 := extractStridedSlice S16x48x320 ![0, 0, 8] v109 slices_S16x48x328_o0_0_8_S16x48x320
  have v126 : FVec Ideal S16x48x320 .f32 := maximumf v124 v125
  v126

/-- The body's nine row shifts and their running maximum. -/
def vmax9 (v126 : FVec Ideal S16x48x320 .f32) : FVec Ideal S16x40x320 .f32 :=
  have v127 : FVec Ideal S16x40x320 .f32 := extractStridedSlice S16x40x320 ![0, 0, 0] v126 slices_S16x48x320_o0_0_0_S16x40x320
  have v128 : FVec Ideal S16x40x320 .f32 := extractStridedSlice S16x40x320 ![0, 1, 0] v126 slices_S16x48x320_o0_1_0_S16x40x320
  have v129 : FVec Ideal S16x40x320 .f32 := maximumf v127 v128
  have v130 : FVec Ideal S16x40x320 .f32 := extractStridedSlice S16x40x320 ![0, 2, 0] v126 slices_S16x48x320_o0_2_0_S16x40x320
  have v131 : FVec Ideal S16x40x320 .f32 := maximumf v129 v130
  have v132 : FVec Ideal S16x40x320 .f32 := extractStridedSlice S16x40x320 ![0, 3, 0] v126 slices_S16x48x320_o0_3_0_S16x40x320
  have v133 : FVec Ideal S16x40x320 .f32 := maximumf v131 v132
  have v134 : FVec Ideal S16x40x320 .f32 := extractStridedSlice S16x40x320 ![0, 4, 0] v126 slices_S16x48x320_o0_4_0_S16x40x320
  have v135 : FVec Ideal S16x40x320 .f32 := maximumf v133 v134
  have v136 : FVec Ideal S16x40x320 .f32 := extractStridedSlice S16x40x320 ![0, 5, 0] v126 slices_S16x48x320_o0_5_0_S16x40x320
  have v137 : FVec Ideal S16x40x320 .f32 := maximumf v135 v136
  have v138 : FVec Ideal S16x40x320 .f32 := extractStridedSlice S16x40x320 ![0, 6, 0] v126 slices_S16x48x320_o0_6_0_S16x40x320
  have v139 : FVec Ideal S16x40x320 .f32 := maximumf v137 v138
  have v140 : FVec Ideal S16x40x320 .f32 := extractStridedSlice S16x40x320 ![0, 7, 0] v126 slices_S16x48x320_o0_7_0_S16x40x320
  have v141 : FVec Ideal S16x40x320 .f32 := maximumf v139 v140
  have v142 : FVec Ideal S16x40x320 .f32 := extractStridedSlice S16x40x320 ![0, 8, 0] v126 slices_S16x48x320_o0_8_0_S16x40x320
  have v143 : FVec Ideal S16x40x320 .f32 := maximumf v141 v142
  v143

/-- The body's mask, selection and sum over the sixteen channels, given the window maximum `v143`. -/
def keepSum (v98 : FVec Ideal S1x40x320 .f32) (v109 : FVec Ideal S16x48x328 .f32) (v143 : FVec Ideal S16x40x320 .f32) :
    FVec Ideal S40x320 .f32 :=
  have v144 : FVec Ideal S16x40x320 .f32 := extractStridedSlice S16x40x320 ![0, 4, 4] v109 slices_S16x48x328_o0_4_4_S16x40x320
  have v145 : FVec Ideal S16x40x320 .f32 := broadcastTo S16x40x320 v98 broadcasts_S1x40x320_S16x40x320
  have v146 : IVec S16x40x320 1 := cmpf .oeq v144 v145
  have v147 : IVec S16x40x320 1 := cmpf .oeq v144 v143
  have v148 : IVec S16x40x320 1 := andi v146 v147
  have cst_148 : Ideal .f32 := Scalar.ofBits .f32 0x00000000#32
  have v149 : FVec Ideal S16x40x320 .f32 := broadcast S16x40x320 cst_148
  have v150 : FVec Ideal S16x40x320 .f32 := select v148 v144 v149
  have cst_149 : FVec Ideal S40x320 .f32 := constant S40x320 .f32 0x00000000#32
  have v151 : FVec Ideal S40x320 .f32 := multiReduction .add [0] S40x320 v150 0x00000000#32 reduces_S16x40x320_S40x320 (.inl rfl) rfl
  v151

/-- The second loop's body is the carried sum plus the sum of the kept values against the window maximum. -/
theorem probPay_eq (dm : S1x40x320.Idx → EReal) (acc : S40x320.Idx → EReal) (v : S16x48x328.Idx → EReal) :
    probPay dm acc v = addf (F := Ideal) (φ := .f32) acc (keepSum dm v (vmax9 (hmax9 v))) := rfl

/-- The column maximum at (a, r, q): the largest of the nine values from column q to column q + 8. -/
theorem hmax9_apply (v : S16x48x328.Idx → EReal) (a : Fin 16) (r : Fin 48) (q : Fin 320) :
    hmax9 v (ix3 a r q) = Finset.univ.sup fun e : Fin 9 => v (ix3 a r ⟨q.val + e.val, by omega⟩) := by
  refine Eq.trans ?_ (Lib.max9_eq_sup fun e : Fin 9 => v (ix3 a r ⟨q.val + e.val, by omega⟩))
  unfold hmax9
  simp only [maximumf_apply, sliceW_apply 0 (by omega), sliceW_apply 1 (by omega), sliceW_apply 2 (by omega), sliceW_apply 3 (by omega), sliceW_apply 4 (by omega), sliceW_apply 5 (by omega), sliceW_apply 6 (by omega), sliceW_apply 7 (by omega), sliceW_apply 8 (by omega)]
  rfl

/-- The row maximum at (a, r, q): the largest of the nine values from row r to row r + 8. -/
theorem vmax9_apply (w : S16x48x320.Idx → EReal) (a : Fin 16) (r : Fin 40) (q : Fin 320) :
    vmax9 w (ix3 a r q) = Finset.univ.sup fun d : Fin 9 => w (ix3 a ⟨r.val + d.val, by omega⟩ q) := by
  refine Eq.trans ?_ (Lib.max9_eq_sup fun d : Fin 9 => w (ix3 a ⟨r.val + d.val, by omega⟩ q))
  unfold vmax9
  simp only [maximumf_apply, sliceH_apply 0 (by omega), sliceH_apply 1 (by omega), sliceH_apply 2 (by omega), sliceH_apply 3 (by omega), sliceH_apply 4 (by omega), sliceH_apply 5 (by omega), sliceH_apply 6 (by omega), sliceH_apply 7 (by omega), sliceH_apply 8 (by omega)]
  rfl

/-- A value selected where it equals both `y` and `z`, zero elsewhere. -/
theorem select_and_oeq (x y z : EReal) :
    Scalar.select (IntOp.andi (Ideal.cmp .oeq x y) (Ideal.cmp .oeq x z)) x (0 : EReal)
      = if x = y ∧ x = z then x else 0 := by
  have hb : ∀ p q : Bool, (BitVec.ofBool p &&& BitVec.ofBool q = 1#1) ↔ (p = true ∧ q = true) := by decide
  show (if BitVec.ofBool (decide (x = y)) &&& BitVec.ofBool (decide (x = z)) = 1#1 then x else 0) = _
  by_cases h : x = y ∧ x = z
  · rw [if_pos h, if_pos]
    exact (hb _ _).2 ⟨decide_eq_true h.1, decide_eq_true h.2⟩
  · rw [if_neg h, if_neg]
    intro hc
    exact h ⟨of_decide_eq_true ((hb _ _).1 hc).1, of_decide_eq_true ((hb _ _).1 hc).2⟩

/-- The kept values' sum at pixel (r, q): over the sixteen channels, the interior value where it equals both the
    channel maximum and the window maximum, zero elsewhere. -/
theorem keepSum_apply (dm : S1x40x320.Idx → EReal) (v : S16x48x328.Idx → EReal) (lmax : S16x40x320.Idx → EReal)
    (r : Fin 40) (q : Fin 320) :
    keepSum dm v lmax (ix2 r q) = ∑ a : Fin 16,
      (if v (ix3 a ⟨r.val + 4, by omega⟩ ⟨q.val + 4, by omega⟩) = dm (ix3 0 r q) ∧
          v (ix3 a ⟨r.val + 4, by omega⟩ ⟨q.val + 4, by omega⟩) = lmax (ix3 a r q)
        then v (ix3 a ⟨r.val + 4, by omega⟩ ⟨q.val + 4, by omega⟩) else 0) := by
  unfold keepSum
  refine (Ideal.multiReduction_add_single (φ := .f32) _ 0x00000000#32 reduces_S16x40x320_S40x320 (.inl rfl) rfl
    (ix2 r q)).trans ?_
  refine Finset.sum_congr rfl fun (a : Fin 16) _ => ?_
  rw [lift_chan _ r q a]
  show Scalar.select (IntOp.andi
      (Ideal.cmp .oeq (extractStridedSlice S16x40x320 ![0, 4, 4] v slices_S16x48x328_o0_4_4_S16x40x320 (ix3 a r q))
        (broadcastTo S16x40x320 dm broadcasts_S1x40x320_S16x40x320 (ix3 a r q)))
      (Ideal.cmp .oeq (extractStridedSlice S16x40x320 ![0, 4, 4] v slices_S16x48x328_o0_4_4_S16x40x320 (ix3 a r q))
        (lmax (ix3 a r q))))
      (extractStridedSlice S16x40x320 ![0, 4, 4] v slices_S16x48x328_o0_4_4_S16x40x320 (ix3 a r q))
      (Ideal.ofBits .f32 0x00000000#32) = _
  rw [sliceC_apply, bcast_apply, Ideal.ofBits_zero_f32]
  exact select_and_oeq _ _ _

/-- The second loop's body at pixel (r, q): the carried sum plus, over the chunk's sixteen channels, the interior
    value where it equals both the channel maximum at the pixel and its own channel's 9 × 9 window maximum. -/
theorem probPay_apply (dm : S1x40x320.Idx → EReal) (acc : S40x320.Idx → EReal) (v : S16x48x328.Idx → EReal)
    (r : Fin 40) (q : Fin 320) :
    probPay dm acc v (ix2 r q) = acc (ix2 r q) + ∑ a : Fin 16,
      (if v (ix3 a ⟨r.val + 4, by omega⟩ ⟨q.val + 4, by omega⟩) = dm (ix3 0 r q) ∧
          v (ix3 a ⟨r.val + 4, by omega⟩ ⟨q.val + 4, by omega⟩)
            = (Finset.univ.sup fun d : Fin 9 × Fin 9 =>
                v (ix3 a ⟨r.val + d.1.val, by omega⟩ ⟨q.val + d.2.val, by omega⟩))
        then v (ix3 a ⟨r.val + 4, by omega⟩ ⟨q.val + 4, by omega⟩) else 0) := by
  rw [probPay_eq]
  show acc (ix2 r q) + keepSum dm v (vmax9 (hmax9 v)) (ix2 r q) = _
  rw [keepSum_apply]
  refine congrArg (acc (ix2 r q) + ·) (Finset.sum_congr rfl fun (a : Fin 16) _ => ?_)
  have hw : vmax9 (hmax9 v) (ix3 a r q) = Finset.univ.sup fun d : Fin 9 × Fin 9 =>
      v (ix3 a ⟨r.val + d.1.val, by omega⟩ ⟨q.val + d.2.val, by omega⟩) := by
    rw [vmax9_apply]
    simp only [hmax9_apply]
    have h := Finset.sup_product_left (Finset.univ : Finset (Fin 9)) (Finset.univ : Finset (Fin 9))
      (fun d : Fin 9 × Fin 9 => v (ix3 a ⟨r.val + d.1.val, by omega⟩ ⟨q.val + d.2.val, by omega⟩))
    rw [Finset.univ_product_univ] at h
    exact h.symm
  rw [hw]

/-! ## The two iterations over the sixteen chunks -/

/-- The first loop's chunk at (a, r, q). -/
theorem chunkA_apply (X : S256x48x328.Idx → EReal) (k : Fin 16) (a : Fin 16) (r : Fin 40) (q : Fin 320) :
    chunkA X k (ix3 a r q)
      = X (ix3 ⟨16 * k.val + a.val, by omega⟩ ⟨r.val + 4, by omega⟩ ⟨q.val + 4, by omega⟩) := rfl

/-- The second loop's chunk at (a, r, q). -/
theorem chunkB_apply (X : S256x48x328.Idx → EReal) (k : Fin 16) (a : Fin 16) (r : Fin 48) (q : Fin 328) :
    chunkB X k (ix3 a r q) = X (ix3 ⟨16 * k.val + a.val, by omega⟩ r q) := rfl

/-- One trip of the first loop. -/
theorem dmIter_succ (X : S256x48x328.Idx → EReal) (k : ℕ) (h : k < 16) :
    dmIter X (k + 1) = dmPay (dmIter X k) (chunkA X ⟨k, h⟩) := by
  show (if h : k < 16 then dmPay (dmIter X k) (chunkA X ⟨k, h⟩) else dmIter X k) = _
  rw [dif_pos h]

/-- One trip of the second loop. -/
theorem probIter_succ (X : S256x48x328.Idx → EReal) (dm : S1x40x320.Idx → EReal) (k : ℕ) (h : k < 16) :
    probIter X dm (k + 1) = probPay dm (probIter X dm k) (chunkB X ⟨k, h⟩) := by
  show (if h : k < 16 then probPay dm (probIter X dm k) (chunkB X ⟨k, h⟩) else probIter X dm k) = _
  rw [dif_pos h]

/-- After `k` trips the first loop holds, at pixel (r, q), the maximum over the first `k` chunks' channels. -/
theorem dmIter_partial (X : S256x48x328.Idx → EReal) (r : Fin 40) (q : Fin 320) (k : ℕ) (hk : k ≤ 16) :
    dmIter X k (ix3 0 r q) = (Finset.univ.filter fun i : Fin 16 => i.val < k).sup fun i =>
      Finset.univ.sup fun a : Fin 16 =>
        X (ix3 ⟨16 * i.val + a.val, by omega⟩ ⟨r.val + 4, by omega⟩ ⟨q.val + 4, by omega⟩) := by
  induction k with
  | zero => rw [Lib.filter_lt_zero, Finset.sup_empty]; rfl
  | succ k ih =>
    have h : k < 16 := by omega
    rw [dmIter_succ X k h, dmPay_apply, ih (by omega), Lib.filter_lt_succ 16 k h, Finset.sup_insert, max_comm]
    rfl

/-- After its sixteen trips the first loop holds, at pixel (r, q), the maximum over the 256 channels. -/
theorem dmIter_16 (X : S256x48x328.Idx → EReal) (r : Fin 40) (q : Fin 320) :
    dmIter X 16 (ix3 0 r q)
      = Finset.univ.sup fun c : Fin 256 => X (ix3 c ⟨r.val + 4, by omega⟩ ⟨q.val + 4, by omega⟩) := by
  rw [dmIter_partial X r q 16 le_rfl, Lib.filter_lt_all]
  exact (Lib.sup_fin_tile' 16 16 fun c : Fin 256 => X (ix3 c ⟨r.val + 4, by omega⟩ ⟨q.val + 4, by omega⟩)).symm

/-- A channel's kept value at pixel (r, q) of the block: its interior value where that equals both `m` and the
    channel's own 9 × 9 window maximum, zero elsewhere. -/
def keptAt (X : S256x48x328.Idx → EReal) (m : EReal) (r : Fin 40) (q : Fin 320) (c : Fin 256) : EReal :=
  if X (ix3 c ⟨r.val + 4, by omega⟩ ⟨q.val + 4, by omega⟩) = m ∧
      X (ix3 c ⟨r.val + 4, by omega⟩ ⟨q.val + 4, by omega⟩)
        = (Finset.univ.sup fun d : Fin 9 × Fin 9 =>
            X (ix3 c ⟨r.val + d.1.val, by omega⟩ ⟨q.val + d.2.val, by omega⟩))
  then X (ix3 c ⟨r.val + 4, by omega⟩ ⟨q.val + 4, by omega⟩) else 0

/-- After `k` trips the second loop holds, at pixel (r, q), the kept values' sum over the first `k` chunks' channels. -/
theorem probIter_partial (X : S256x48x328.Idx → EReal) (dm : S1x40x320.Idx → EReal) (r : Fin 40) (q : Fin 320)
    (k : ℕ) (hk : k ≤ 16) :
    probIter X dm k (ix2 r q) = ∑ i ∈ Finset.univ.filter fun i : Fin 16 => i.val < k,
      ∑ a : Fin 16, keptAt X (dm (ix3 0 r q)) r q ⟨16 * i.val + a.val, by omega⟩ := by
  induction k with
  | zero => rw [Lib.filter_lt_zero, Finset.sum_empty]; rfl
  | succ k ih =>
    have h : k < 16 := by omega
    rw [probIter_succ X dm k h, probPay_apply, ih (by omega), Lib.filter_lt_succ 16 k h,
      Finset.sum_insert (Lib.not_mem_filter_lt 16 k h), add_comm]
    rfl

/-- After its sixteen trips the second loop holds, at pixel (r, q), the kept values' sum over the 256 channels. -/
theorem probIter_16 (X : S256x48x328.Idx → EReal) (dm : S1x40x320.Idx → EReal) (r : Fin 40) (q : Fin 320) :
    probIter X dm 16 (ix2 r q) = ∑ c : Fin 256,
      (if X (ix3 c ⟨r.val + 4, by omega⟩ ⟨q.val + 4, by omega⟩) = dm (ix3 0 r q) ∧
          X (ix3 c ⟨r.val + 4, by omega⟩ ⟨q.val + 4, by omega⟩)
            = (Finset.univ.sup fun d : Fin 9 × Fin 9 =>
                X (ix3 c ⟨r.val + d.1.val, by omega⟩ ⟨q.val + d.2.val, by omega⟩))
        then X (ix3 c ⟨r.val + 4, by omega⟩ ⟨q.val + 4, by omega⟩) else 0) := by
  rw [probIter_partial X dm r q 16 le_rfl, Lib.filter_lt_all]
  exact (Lib.sum_fin_tile' 16 16 fun c : Fin 256 => keptAt X (dm (ix3 0 r q)) r q c).symm

/-! ## The tile against the specification -/

/-- The continued image four rows and four columns inside is the image. -/
theorem padded_interior (x : SX.Idx → EReal) (b : Fin 4) (c : Fin 256) (h : Fin 200) (w : Fin 320) :
    padded x b c (h.val + 4) (w.val + 4) = x (ix4 b c h w) := by
  unfold padded
  rw [dif_pos ⟨⟨by omega, by omega⟩, ⟨by omega, by omega⟩⟩]
  refine congrArg x (funext fun e => ?_)
  match e with
  | ⟨0, _⟩ => rfl
  | ⟨1, _⟩ => rfl
  | ⟨2, _⟩ => exact Fin.ext (Nat.add_sub_cancel h.val 4)
  | ⟨3, _⟩ => exact Fin.ext (Nat.add_sub_cancel w.val 4)

/-- THE TILE: when the block holds rows 40t … 40t + 47 of batch b's continued image, the second loop's result against
    the first loop's result is the specification's function on rows 40t … 40t + 39 of batch b. -/
theorem tile_eq_G (x : SX.Idx → EReal) (b : Fin 4) (t : Fin 5) (X : S256x48x328.Idx → EReal)
    (hX : ∀ (c : Fin 256) (r' : Fin 48) (q' : Fin 328),
      X (ix3 c r' q') = padded x b c (40 * t.val + r'.val) q'.val)
    (r : Fin 40) (q : Fin 320) :
    probIter X (dmIter X 16) 16 (ix2 r q) = G x (ix3 b ⟨40 * t.val + r.val, by omega⟩ q) := by
  have hcore : ∀ c : Fin 256, X (ix3 c ⟨r.val + 4, by omega⟩ ⟨q.val + 4, by omega⟩)
      = x (ix4 b c ⟨40 * t.val + r.val, by omega⟩ q) := fun c => by
    rw [hX]
    show padded x b c (40 * t.val + (r.val + 4)) (q.val + 4) = _
    rw [← Nat.add_assoc]
    exact padded_interior x b c ⟨40 * t.val + r.val, by omega⟩ q
  have hdm : dmIter X 16 (ix3 0 r q) = chanMax x b ⟨40 * t.val + r.val, by omega⟩ q := by
    rw [dmIter_16]
    exact congrArg _ (funext hcore)
  have hwin : ∀ c : Fin 256, (Finset.univ.sup fun d : Fin 9 × Fin 9 =>
      X (ix3 c ⟨r.val + d.1.val, by omega⟩ ⟨q.val + d.2.val, by omega⟩))
        = windowMax x b c ⟨40 * t.val + r.val, by omega⟩ q := fun c => by
    refine congrArg _ (funext fun d => ?_)
    rw [hX]
    show padded x b c (40 * t.val + (r.val + d.1.val)) (q.val + d.2.val)
      = padded x b c (40 * t.val + r.val + d.1.val) (q.val + d.2.val)
    rw [Nat.add_assoc]
  rw [probIter_16]
  show _ = ∑ c : Fin 256, kept x b c ⟨40 * t.val + r.val, by omega⟩ q
  refine Finset.sum_congr rfl fun c _ => ?_
  rw [hcore c, hdm, hwin c]
  rfl

end Cert.Nms.Tile

end
-- ==== Proof.KernelIdealTile.lean ====
/-
  A tile's two loops against the specification.

  The kernel's first two pairs of loops read the two slots of the scratch buffer. A slot held at contents X, read
  through its view, is a block of 256 channels × 48 rows × 328 columns; the chunks the trips load are that block's
  chunks, the carried vectors are the iterates of the two loop bodies over them, and when the block holds rows
  40T … 40T + 47 of a batch's continued image the second loop's result against the first loop's result is the
  specification's function on rows 40T … 40T + 39 of that batch.
-/
import proofs.«177967_j11708080849517_2_alg».proof.Proof.KernelIdealLoops
import proofs.«177967_j11708080849517_2_alg».proof.Proof.KernelIdealReads
import proofs.«177967_j11708080849517_2_alg».proof.Proof.TileMath

set_option maxRecDepth 16384

noncomputable section

namespace Cert.KernelIdeal.Tile

open Cert.KernelIdeal Cert.KernelIdeal.Gen Cert.KernelIdeal.Hand Cert.Nms Cert.Nms.Tile
open Idealize.ShloMosaic Idealize.ShloMosaic.TcCoe Idealize.SL.Sem Idealize.ShloMosaic.ValueIdx

/-- At the extended reals the first loop's body is the tile arithmetic's. -/
theorem dmPay_eq (acc : S1x40x320.Idx → EReal) (v : S16x40x320.Idx → EReal) :
    Cert.KernelIdeal.Hand.dmPay (F := Ideal) acc v = Cert.Nms.Tile.dmPay acc v := rfl

/-- At the extended reals the second loop's body is the tile arithmetic's. -/
theorem probPay_eq (dm : S1x40x320.Idx → EReal) (acc : S40x320.Idx → EReal) (v : S16x48x328.Idx → EReal) :
    Cert.KernelIdeal.Hand.probPay (F := Ideal) dm acc v = Cert.Nms.Tile.probPay dm acc v := rfl

/-- The first loop starts from -∞ everywhere. -/
theorem dmInit_eq : (broadcast S1x40x320 (FloatOps.ofBits (F := Ideal) .f32 0xFF800000#32) : S1x40x320.Idx → EReal)
    = fun _ => ⊥ := funext fun _ => ofBits_negInf

/-- The second loop starts from zero everywhere. -/
theorem probInit_eq : (broadcast S40x320 (FloatOps.ofBits (F := Ideal) .f32 0x00000000#32) : S40x320.Idx → EReal)
    = fun _ => 0 := funext fun _ => Ideal.ofBits_zero_f32

variable (c : Dev nD)

/-! ## Slot 0: loops 1 and 2 -/

/-- Loop 1 makes sixteen trips. -/
theorem trips1 : Scf.trips k0_t1_loop.lb k0_t1_loop.ub k0_t1_loop.st = 16 := by decide
/-- Loop 2 makes sixteen trips. -/
theorem trips2 : Scf.trips k0_t2_loop.lb k0_t2_loop.ub k0_t2_loop.st = 16 := by decide

/-- Loop 1: the chunk trip `k` loads is chunk `k` of the slot's interior pixels. -/
theorem ld_t1_eq (X : HbBuf (F := Ideal) c slot0M) (k : ℕ) (h : k < k0_t1_loop.trips) (h' : k < 16) :
    ld_t1 c X ⟨k, h⟩ = chunkA (slot0M.view.read (Elt Ideal) X) ⟨k, h'⟩ := by
  funext j
  obtain ⟨a, r, q, rfl⟩ : ∃ a r q, j = ix3 a r q := ⟨j 0, j 1, j 2, eq_ix3 j⟩
  exact (ld_t1_apply c X ⟨k, h⟩ a r q).trans (chunkA_apply (slot0M.view.read (Elt Ideal) X) ⟨k, h'⟩ a r q).symm

/-- Loop 2: the chunk trip `k` loads is chunk `k` of the whole slot. -/
theorem ld_t2_eq (X : HbBuf (F := Ideal) c slot0M) (k : ℕ) (h : k < k0_t2_loop.trips) (h' : k < 16) :
    ld_t2 c X ⟨k, h⟩ = chunkB (slot0M.view.read (Elt Ideal) X) ⟨k, h'⟩ := by
  funext j
  obtain ⟨a, r, q, rfl⟩ : ∃ a r q, j = ix3 a r q := ⟨j 0, j 1, j 2, eq_ix3 j⟩
  exact (ld_t2_apply c X ⟨k, h⟩ a r q).trans (chunkB_apply (slot0M.view.read (Elt Ideal) X) ⟨k, h'⟩ a r q).symm

/-- Loop 1: the carried vector before trip `n`, from -∞, is the first iteration's over the slot read as a block. -/
theorem st_t1_eq (X : HbBuf (F := Ideal) c slot0M) (n : ℕ) (hn : n ≤ 16) :
    st_t1 (F := Ideal) c X (fun _ => (⊥ : EReal)) n = dmIter (slot0M.view.read (Elt Ideal) X) n := by
  induction n with
  | zero => rfl
  | succ k ih =>
    have h : k < 16 := by omega
    have h' : k < k0_t1_loop.trips := by rw [show k0_t1_loop.trips = 16 from trips1]; exact h
    refine (st_t1_succ c X _ ⟨k, h'⟩).trans ?_
    rw [dmIter_succ _ k h, ← ih (by omega), ← ld_t1_eq c X k h' h]
    rfl

/-- Loop 2: the carried vector before trip `n`, from zero, is the second iteration's over the slot read as a block. -/
theorem st_t2_eq (X : HbBuf (F := Ideal) c slot0M) (dm : S1x40x320.Idx → EReal) (n : ℕ) (hn : n ≤ 16) :
    st_t2 (F := Ideal) c X dm (fun _ => (0 : EReal)) n = probIter (slot0M.view.read (Elt Ideal) X) dm n := by
  induction n with
  | zero => rfl
  | succ k ih =>
    have h : k < 16 := by omega
    have h' : k < k0_t2_loop.trips := by rw [show k0_t2_loop.trips = 16 from trips2]; exact h
    refine (st_t2_succ c X dm _ ⟨k, h'⟩).trans ?_
    rw [probIter_succ _ dm k h, ← ih (by omega), ← ld_t2_eq c X k h' h]
    rfl

/-- SLOT 0'S TILE: when the slot holds rows 40T … 40T + 47 of batch b's continued image, loop 2's result against
    loop 1's result is the specification's function on rows 40T … 40T + 39 of batch b. -/
theorem tile0_apply (X : HbBuf (F := Ideal) c slot0M) (x : Cert.Nms.SX.Idx → EReal) (b : Fin 4) (T : Fin 5)
    (hX : ∀ (ch : Fin 256) (r' : Fin 48) (q' : Fin 328),
      slot0M.view.read (Elt Ideal) X (ix3 ch r' q') = Cert.Nms.padded x b ch (40 * T.val + r'.val) q'.val)
    (r : Fin 40) (q : Fin 320) :
    st_t2 c X (st_t1 c X (broadcast S1x40x320 (FloatOps.ofBits .f32 0xFF800000#32))
        (Scf.trips k0_t1_loop.lb k0_t1_loop.ub k0_t1_loop.st))
      (broadcast S40x320 (FloatOps.ofBits .f32 0x00000000#32))
      (Scf.trips k0_t2_loop.lb k0_t2_loop.ub k0_t2_loop.st) (ix2 r q)
      = Cert.Nms.G x (ix3 b ⟨40 * T.val + r.val, by omega⟩ q) := by
  rw [trips1, dmInit_eq, probInit_eq, st_t1_eq c X 16 le_rfl, st_t2_eq c X _ 16 le_rfl]
  exact tile_eq_G x b T _ hX r q

/-! ## Slot 1: loops 3 and 4 -/

/-- Loop 3 makes sixteen trips. -/
theorem trips3 : Scf.trips k0_t3_loop.lb k0_t3_loop.ub k0_t3_loop.st = 16 := by decide
/-- Loop 4 makes sixteen trips. -/
theorem trips4 : Scf.trips k0_t4_loop.lb k0_t4_loop.ub k0_t4_loop.st = 16 := by decide

/-- Loop 3: the chunk trip `k` loads is chunk `k` of the slot's interior pixels. -/
theorem ld_t3_eq (X : HbBuf (F := Ideal) c slot1M) (k : ℕ) (h : k < k0_t3_loop.trips) (h' : k < 16) :
    ld_t3 c X ⟨k, h⟩ = chunkA (slot1M.view.read (Elt Ideal) X) ⟨k, h'⟩ := by
  funext j
  obtain ⟨a, r, q, rfl⟩ : ∃ a r q, j = ix3 a r q := ⟨j 0, j 1, j 2, eq_ix3 j⟩
  exact (ld_t3_apply c X ⟨k, h⟩ a r q).trans (chunkA_apply (slot1M.view.read (Elt Ideal) X) ⟨k, h'⟩ a r q).symm

/-- Loop 4: the chunk trip `k` loads is chunk `k` of the whole slot. -/
theorem ld_t4_eq (X : HbBuf (F := Ideal) c slot1M) (k : ℕ) (h : k < k0_t4_loop.trips) (h' : k < 16) :
    ld_t4 c X ⟨k, h⟩ = chunkB (slot1M.view.read (Elt Ideal) X) ⟨k, h'⟩ := by
  funext j
  obtain ⟨a, r, q, rfl⟩ : ∃ a r q, j = ix3 a r q := ⟨j 0, j 1, j 2, eq_ix3 j⟩
  exact (ld_t4_apply c X ⟨k, h⟩ a r q).trans (chunkB_apply (slot1M.view.read (Elt Ideal) X) ⟨k, h'⟩ a r q).symm

/-- Loop 3: the carried vector before trip `n`, from -∞, is the first iteration's over the slot read as a block. -/
theorem st_t3_eq (X : HbBuf (F := Ideal) c slot1M) (n : ℕ) (hn : n ≤ 16) :
    st_t3 (F := Ideal) c X (fun _ => (⊥ : EReal)) n = dmIter (slot1M.view.read (Elt Ideal) X) n := by
  induction n with
  | zero => rfl
  | succ k ih =>
    have h : k < 16 := by omega
    have h' : k < k0_t3_loop.trips := by rw [show k0_t3_loop.trips = 16 from trips3]; exact h
    refine (st_t3_succ c X _ ⟨k, h'⟩).trans ?_
    rw [dmIter_succ _ k h, ← ih (by omega), ← ld_t3_eq c X k h' h]
    rfl

/-- Loop 4: the carried vector before trip `n`, from zero, is the second iteration's over the slot read as a block. -/
theorem st_t4_eq (X : HbBuf (F := Ideal) c slot1M) (dm : S1x40x320.Idx → EReal) (n : ℕ) (hn : n ≤ 16) :
    st_t4 (F := Ideal) c X dm (fun _ => (0 : EReal)) n = probIter (slot1M.view.read (Elt Ideal) X) dm n := by
  induction n with
  | zero => rfl
  | succ k ih =>
    have h : k < 16 := by omega
    have h' : k < k0_t4_loop.trips := by rw [show k0_t4_loop.trips = 16 from trips4]; exact h
    refine (st_t4_succ c X dm _ ⟨k, h'⟩).trans ?_
    rw [probIter_succ _ dm k h, ← ih (by omega), ← ld_t4_eq c X k h' h]
    rfl

/-- SLOT 1'S TILE: when the slot holds rows 40T … 40T + 47 of batch b's continued image, loop 4's result against
    loop 3's result is the specification's function on rows 40T … 40T + 39 of batch b. -/
theorem tile1_apply (X : HbBuf (F := Ideal) c slot1M) (x : Cert.Nms.SX.Idx → EReal) (b : Fin 4) (T : Fin 5)
    (hX : ∀ (ch : Fin 256) (r' : Fin 48) (q' : Fin 328),
      slot1M.view.read (Elt Ideal) X (ix3 ch r' q') = Cert.Nms.padded x b ch (40 * T.val + r'.val) q'.val)
    (r : Fin 40) (q : Fin 320) :
    st_t4 c X (st_t3 c X (broadcast S1x40x320 (FloatOps.ofBits .f32 0xFF800000#32))
        (Scf.trips k0_t3_loop.lb k0_t3_loop.ub k0_t3_loop.st))
      (broadcast S40x320 (FloatOps.ofBits .f32 0x00000000#32))
      (Scf.trips k0_t4_loop.lb k0_t4_loop.ub k0_t4_loop.st) (ix2 r q)
      = Cert.Nms.G x (ix3 b ⟨40 * T.val + r.val, by omega⟩ q) := by
  rw [trips3, dmInit_eq, probInit_eq, st_t3_eq c X 16 le_rfl, st_t4_eq c X _ 16 le_rfl]
  exact tile_eq_G x b T _ hX r q

end Cert.KernelIdeal.Tile

end
-- ==== Proof.KernelIdealValue.lean ====
import proofs.«177967_j11708080849517_2_alg».proof.Proof.KernelIdealFrame
import proofs.«177967_j11708080849517_2_alg».proof.Proof.Spec
import Idealize.ShloMosaic.Lib.Pipeline.Value
import Idealize.ShloMosaic.Lib.ValueIdx
import Idealize.ShloMosaic.Lib.ValueLayout
import proofs.«177967_j11708080849517_2_alg».proof.Proof.KernelIdealPad
import proofs.«177967_j11708080849517_2_alg».proof.Proof.KernelIdealReads
import proofs.«177967_j11708080849517_2_alg».proof.Proof.KernelIdealTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The idealized kernel's result array is the specification of the argument image

Point `t` of the grid is batch `t`. Its five stores into the output block are the five row tiles; tile `T` is computed
from the slot holding rows `40 T … 40 T + 47` of the padded image of that batch, and the padded image is the argument
image continued by -∞: so each store holds the specification on its 40 rows, the five together the batch's block, and
the four blocks the result array. -/

/-- The argument image on core `c`, and the array the result buffer ends at: the specification of that image. -/
abbrev xarg (m : (ℓ : Loc nD τ sig) → Buf (Elt Ideal) ℓ) (c : Dev nD) : Cert.Nms.SX.Idx → EReal := m ((c : Thread nD τ).loc main_arg0)
def result (m : (ℓ : Loc nD τ sig) → Buf (Elt Ideal) ℓ) (c : Dev nD) : Buf (Elt Ideal) ((c : Thread nD τ).loc main_v1) := Cert.Nms.G (xarg m c)

/-- The grid's one coordinate is the point's number: the batch. -/
theorem coords_facts : ∀ t : Fin cfg0.N, ((grid0.coords t) 0).val = t.val := (by decide +kernel : ∀ t : Fin grid0.N, _)

/-- The block of the padded image a copy moves, row tile `T` of batch `b`, is the padded argument image's rows
    `40 T … 40 T + 47` of that batch. -/
theorem slotRows (m : (ℓ : Loc nD τ sig) → Buf (Elt Ideal) ℓ) (c : Dev nD) (t : Fin cfg0.N) (T : Fin 5) (P : S256x48x328.Idx → EReal)
    (hP : ∀ (ch : Fin 256) (r : Fin 48) (q : Fin 328), P (ix3 ch r q) = (Gen.V (F := Ideal) m c main_v0 : S4x256x208x328.Idx → EReal) (ix4 ((grid0.coords t) 0) ch ⟨40 * T.val + r.val, by omega⟩ q))
    (ch : Fin 256) (r : Fin 48) (q : Fin 328) :
    P (ix3 ch r q) = Cert.Nms.padded (xarg m c) (⟨t.val, by have := t.isLt; have h : cfg0.N = 4 := N_0; omega⟩ : Fin 4) ch (40 * T.val + r.val) q.val := by
  have hb : @Eq (Fin 4) ((grid0.coords t) 0) (⟨t.val, by have := t.isLt; have h : cfg0.N = 4 := N_0; omega⟩ : Fin 4) := Fin.ext (coords_facts t)
  rw [hP]
  refine (V_pad_apply m c ((grid0.coords t) 0) ch ⟨40 * T.val + r.val, by omega⟩ q).trans ?_
  exact congrArg (fun b => Cert.Nms.padded (xarg m c) b ch (40 * T.val + r.val) q.val) hb

set_option maxHeartbeats 4000000 in
theorem outsAt_eq (m : (ℓ : Loc nD τ sig) → Buf (Elt Ideal) ℓ) (c : Dev nD) (t : Fin cfg0.N) (y : S1x200x320.Idx) :
    outsAt m c t y = Cert.Nms.G (xarg m c) (ix3 (⟨t.val, by have := t.isLt; have h : cfg0.N = 4 := N_0; omega⟩ : Fin 4) (y 1) (y 2)) := by
  unfold outsAt out_run
  refine View.read_writes_apply_of_pieces (v := VO) (f := VO.junk)
    (fun y => Cert.Nms.G (xarg m c) (ix3 (⟨t.val, by have := t.isLt; have h : cfg0.N = 4 := N_0; omega⟩ : Fin 4) (y 1) (y 2)))
    (kernelRun c (grid0.coords t) (ms0_0 t) (hs0_0 t) (Gen.V m c main_v0)).1 ?_ y (cover_run c _ _ _ _ y)
  unfold kernelRun
  dsimp only
  sl_unfold_run_names
  intro p hp x
  simp only [List.mem_cons, List.not_mem_nil, or_false] at hp
  rcases hp with rfl | rfl | rfl | rfl | rfl
  · obtain ⟨z, r, q, rfl⟩ : ∃ (z : Fin 1) (r : Fin 40) (q : Fin 320), x = ix3 z r q := ⟨x 0, x 1, x 2, eq_ix3 x⟩
    dsimp only
    rw [shapeCast_ab_1ab_apply]
    rw [Cert.KernelIdeal.Tile.tile0_apply c _ (xarg m c) (⟨t.val, by have := t.isLt; have h : cfg0.N = 4 := N_0; omega⟩ : Fin 4) (4 : Fin 5)
      (fun ch r' q' => by rw [slot0_read_writes (c := c)]; exact slotRows m c t 4 _ (fun ch r q => blk4_apply c (grid0.coords t) (Gen.V m c main_v0) ch r q) ch r' q') r q]
    refine congrArg (Cert.Nms.G (xarg m c)) (funext fun a => Fin.ext ?_)
    match a with
    | ⟨0, _⟩ => rfl
    | ⟨1, _⟩ => show 40 * 4 + r.val = 160 + 1 * r.val; omega
    | ⟨2, _⟩ => show q.val = 0 + 1 * q.val; omega
  · obtain ⟨z, r, q, rfl⟩ : ∃ (z : Fin 1) (r : Fin 40) (q : Fin 320), x = ix3 z r q := ⟨x 0, x 1, x 2, eq_ix3 x⟩
    dsimp only
    rw [shapeCast_ab_1ab_apply]
    rw [Cert.KernelIdeal.Tile.tile1_apply c _ (xarg m c) (⟨t.val, by have := t.isLt; have h : cfg0.N = 4 := N_0; omega⟩ : Fin 4) (3 : Fin 5)
      (fun ch r' q' => by rw [slot1_read_writes (c := c)]; exact slotRows m c t 3 _ (fun ch r q => blk3_apply c (grid0.coords t) (Gen.V m c main_v0) ch r q) ch r' q') r q]
    refine congrArg (Cert.Nms.G (xarg m c)) (funext fun a => Fin.ext ?_)
    match a with
    | ⟨0, _⟩ => rfl
    | ⟨1, _⟩ => show 40 * 3 + r.val = 120 + 1 * r.val; omega
    | ⟨2, _⟩ => show q.val = 0 + 1 * q.val; omega
  · obtain ⟨z, r, q, rfl⟩ : ∃ (z : Fin 1) (r : Fin 40) (q : Fin 320), x = ix3 z r q := ⟨x 0, x 1, x 2, eq_ix3 x⟩
    dsimp only
    rw [shapeCast_ab_1ab_apply]
    rw [Cert.KernelIdeal.Tile.tile0_apply c _ (xarg m c) (⟨t.val, by have := t.isLt; have h : cfg0.N = 4 := N_0; omega⟩ : Fin 4) (2 : Fin 5)
      (fun ch r' q' => by rw [slot0_read_writes (c := c)]; exact slotRows m c t 2 _ (fun ch r q => blk2_apply c (grid0.coords t) (Gen.V m c main_v0) ch r q) ch r' q') r q]
    refine congrArg (Cert.Nms.G (xarg m c)) (funext fun a => Fin.ext ?_)
    match a with
    | ⟨0, _⟩ => rfl
    | ⟨1, _⟩ => show 40 * 2 + r.val = 80 + 1 * r.val; omega
    | ⟨2, _⟩ => show q.val = 0 + 1 * q.val; omega
  · obtain ⟨z, r, q, rfl⟩ : ∃ (z : Fin 1) (r : Fin 40) (q : Fin 320), x = ix3 z r q := ⟨x 0, x 1, x 2, eq_ix3 x⟩
    dsimp only
    rw [shapeCast_ab_1ab_apply]
    rw [Cert.KernelIdeal.Tile.tile1_apply c _ (xarg m c) (⟨t.val, by have := t.isLt; have h : cfg0.N = 4 := N_0; omega⟩ : Fin 4) (1 : Fin 5)
      (fun ch r' q' => by rw [slot1_read_writes (c := c)]; exact slotRows m c t 1 _ (fun ch r q => blk1_apply c (grid0.coords t) (Gen.V m c main_v0) ch r q) ch r' q') r q]
    refine congrArg (Cert.Nms.G (xarg m c)) (funext fun a => Fin.ext ?_)
    match a with
    | ⟨0, _⟩ => rfl
    | ⟨1, _⟩ => show 40 * 1 + r.val = 40 + 1 * r.val; omega
    | ⟨2, _⟩ => show q.val = 0 + 1 * q.val; omega
  · obtain ⟨z, r, q, rfl⟩ : ∃ (z : Fin 1) (r : Fin 40) (q : Fin 320), x = ix3 z r q := ⟨x 0, x 1, x 2, eq_ix3 x⟩
    dsimp only
    rw [shapeCast_ab_1ab_apply]
    rw [Cert.KernelIdeal.Tile.tile0_apply c _ (xarg m c) (⟨t.val, by have := t.isLt; have h : cfg0.N = 4 := N_0; omega⟩ : Fin 4) (0 : Fin 5)
      (fun ch r' q' => by rw [slot0_read_writes (c := c)]; exact slotRows m c t 0 _ (fun ch r q => blk0_apply c (grid0.coords t) (Gen.V m c main_v0) ch r q) ch r' q') r q]
    refine congrArg (Cert.Nms.G (xarg m c)) (funext fun a => Fin.ext ?_)
    match a with
    | ⟨0, _⟩ => rfl
    | ⟨1, _⟩ => show 40 * 0 + r.val = 0 + 1 * r.val; omega
    | ⟨2, _⟩ => show q.val = 0 + 1 * q.val; omega

variable (m : (ℓ : Loc nD τ sig) → Buf (Elt Ideal) ℓ) (ρ : Dev nD → PrngReg)

/-! ## From the blocks to the array, and the run read -/

/-- The index map of the output window over the grid: point `t` writes block `(t, 0, 0)`. -/
theorem idx_facts : ∀ t : Fin cfg0.N, win0_0.index t (0 : Fin 3) = t.val ∧ win0_0.index t (1 : Fin 3) = 0 ∧ win0_0.index t (2 : Fin 3) = 0 :=
  (by decide +kernel : ∀ t : Fin grid0.N, _)

/-- What point `t` writes back is block `t` of the result array. -/
theorem flushed_eq (c : Dev nD) (t : Fin cfg0.N) :
    (dats m 0 c).flushed 0 t = ((cfg0.win 0).blk t).view.read (Elt Ideal) (result m c) := by
  show (cfg0.win 0).cut (grid0.coords t) ((dats m 0 c).after 0 t) = _
  rw [after0_0]
  obtain ⟨e0, e1, e2⟩ := idx_facts t
  funext j
  show outsAt m c t j = result m c (((cfg0.win 0).blk t).view.emb j)
  rw [outsAt_eq]
  unfold result
  refine congrArg (Cert.Nms.G (xarg m c)) (funext fun a => Fin.ext ?_)
  match a with
  | ⟨0, _⟩ => show t.val = win0_0.index t (0 : Fin 3) * 1 + 1 * (j 0).val; have hj : (j 0).val < 1 := (j 0).isLt; omega
  | ⟨1, _⟩ => show (j 1).val = win0_0.index t (1 : Fin 3) * 200 + 1 * (j 1).val; omega
  | ⟨2, _⟩ => show (j 2).val = win0_0.index t (2 : Fin 3) * 320 + 1 * (j 2).val; omega

/-- An index of the array is in point `t`'s block iff each coordinate is in the block's range on its axis. -/
theorem mem_blk (t : Fin cfg0.N) (i : S4x200x320.Idx) :
    i ∈ ((cfg0.win 0).blk t).view.set ↔ ∀ a : Fin 3, win0_0.index t a * S1x200x320.size a ≤ (i a).val ∧ (i a).val < win0_0.index t a * S1x200x320.size a + S1x200x320.size a := by
  show i ∈ ((View.whole main_v1).slice (win0_0.rect t)).set ↔ _
  rw [View.set_slice_whole, Rect.mem_set_unit]
  exact Iff.rfl

/-- Every index of the result array is in the block of the point its batch coordinate names. -/
theorem cover (i : S4x200x320.Idx) : ∃ t : Fin cfg0.N, (cfg0.win 0).flush t = true ∧ i ∈ ((cfg0.win 0).blk t).view.set := by
  have hN : cfg0.N = 4 := N_0
  have hi0 : (i 0).val < 4 := (i 0).isLt
  have hi1 : (i 1).val < 200 := (i 1).isLt
  have hi2 : (i 2).val < 320 := (i 2).isLt
  refine ⟨⟨(i 0).val, by omega⟩, flush0_0 _, ?_⟩
  rw [mem_blk]
  obtain ⟨e0, e1, e2⟩ := idx_facts ⟨(i 0).val, by omega⟩
  intro a
  match a with
  | ⟨0, _⟩ => show win0_0.index _ (0 : Fin 3) * 1 ≤ (i 0).val ∧ (i 0).val < win0_0.index _ (0 : Fin 3) * 1 + 1; rw [e0]; dsimp only; omega
  | ⟨1, _⟩ => show win0_0.index _ (1 : Fin 3) * 200 ≤ (i 1).val ∧ (i 1).val < win0_0.index _ (1 : Fin 3) * 200 + 200; rw [e1]; omega
  | ⟨2, _⟩ => show win0_0.index _ (2 : Fin 3) * 320 ≤ (i 2).val ∧ (i 2).val < win0_0.index _ (2 : Fin 3) * 320 + 320; rw [e2]; omega

/-- The result array after the run. -/
theorem final (c : Dev nD) : (dats m 0 c).arrAt 0 cfg0.N = result m c :=
  (dats m 0 c).arrAt_eq_of_cover 0 (result m c) (fun t _ => flushed_eq m c t) (cover)

/-- The run, read: the result array ends at the specification of the argument image, the argument unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0) :=
  (θ_run defs _ _).mono (fun r h c => ⟨((h c).1 0).trans (final m c),
      ((h c).2 main_arg0 (Pipeline.mem_restRefs_of main_arg0 (by decide) (by decide))).trans (V_main_arg0 m c)⟩)
    (run_main m ρ)

end Cert.KernelIdeal.Hand

end
-- ==== Proof.LibWindowMax.lean ====
/-
  Folds of `max` read as suprema.

  A left fold of `max` over a list is the maximum of its starting value and the supremum of the values at the
  list's members; over the list of every element of `Fin n`, from ⊥, it is the supremum over `Fin n`. A supremum over a
  finite type is unchanged by re-indexing along a bijection. With these the host's reduce-window whose body is `max`
  and whose initial value is ⊥ is, at each result index, the supremum over the window's positions of the operand
  continued by ⊥ outside its extent. Also: two dependent conditionals with a common default value agree when their
  conditions are equivalent and their values agree under the conditions.
-/
import Idealize.ShloMosaic.PureOps.Contract
import Mathlib.Data.Fintype.Basic
import Mathlib.Data.Finset.Lattice.Fold

namespace Cert.Nms.Lib

open Idealize.ShloMosaic

/-- Two dependent conditionals with the same value off their conditions agree when the conditions are equivalent and
    the values under them agree. -/
theorem dite_bot_congr {α : Type} {p q : Prop} {dp : Decidable p} {dq : Decidable q} (hpq : p ↔ q) {f : p → α} {g : q → α}
    {e : α} (hfg : ∀ (hp : p) (hq : q), f hp = g hq) : @dite α p dp f (fun _ => e) = @dite α q dq g (fun _ => e) := by
  by_cases hp : p
  · rw [dif_pos hp, dif_pos (hpq.1 hp)]; exact hfg _ _
  · rw [dif_neg hp, dif_neg (mt hpq.2 hp)]

variable {α : Type} [LinearOrder α] [OrderBot α]

/-- A left fold of `max` over a list `l`, from `a`, is the maximum of `a` and the supremum of `g` over the members
    of `l`. -/
theorem foldl_max_eq_sup {ι : Type} [DecidableEq ι] (g : ι → α) (l : List ι) (a : α) :
    l.foldl (fun r k => max r (g k)) a = max a (l.toFinset.sup g) := by
  induction l generalizing a with
  | nil => simp
  | cons k l ih => rw [List.foldl_cons, ih, List.toFinset_cons, Finset.sup_insert, max_assoc]

/-- The left fold of `max` from ⊥ over the list of every element of `Fin n` is the supremum over `Fin n`. -/
theorem foldl_max_finRange (n : Nat) (g : Fin n → α) :
    (List.finRange n).foldl (fun r k => max r (g k)) ⊥ = Finset.univ.sup g := by
  rw [foldl_max_eq_sup, List.toFinset_finRange, bot_sup_eq]

/-- A supremum over a finite type is unchanged by re-indexing along a bijection. -/
theorem sup_univ_comp_equiv {ι κ : Type} [Fintype ι] [Fintype κ] (e : ι ≃ κ) (g : κ → α) :
    (Finset.univ.sup fun i => g (e i)) = Finset.univ.sup g :=
  calc (Finset.univ.sup fun i => g (e i)) = (Finset.univ.map e.toEmbedding).sup g := (Finset.sup_map Finset.univ e.toEmbedding g).symm
    _ = Finset.univ.sup g := by rw [Finset.map_univ_equiv]

/-- The host's reduce-window with body `max` from the initial value ⊥: at the result index `j` it is the supremum, over
    the positions `d` of the window, of the operand at `j · stride + d - lo` where that lies inside the operand and of
    ⊥ where it lies in the padding. -/
theorem reduceWindow_max_eq_sup {s t u : Shape} (window strides lo hi : Fin s.rank → Nat) (x : s.Idx → α)
    (init : u.Idx → α) (h : s.ReduceWindows window strides lo hi t) (hu : 0 < u.numel)
    (hinit : init (Shape.Idx.first hu) = ⊥) (j : t.Idx) :
    Host.reduceWindow max window strides lo hi x init h hu j
      = Finset.univ.sup fun d : (⟨s.rank, window⟩ : Shape).Idx =>
          if hin : ∀ a, lo a ≤ (j (a.cast h.1.symm)).val * strides a + (d a).val
              ∧ (j (a.cast h.1.symm)).val * strides a + (d a).val - lo a < s.size a
          then x (fun a => ⟨(j (a.cast h.1.symm)).val * strides a + (d a).val - lo a, (hin a).2⟩) else ⊥ := by
  unfold Host.reduceWindow
  simp only [hinit]
  rw [foldl_max_finRange]
  exact sup_univ_comp_equiv (Shape.rowMajor (⟨s.rank, window⟩ : Shape)).symm
    (fun d : (⟨s.rank, window⟩ : Shape).Idx =>
      if hin : ∀ a, lo a ≤ (j (a.cast h.1.symm)).val * strides a + (d a).val
          ∧ (j (a.cast h.1.symm)).val * strides a + (d a).val - lo a < s.size a
      then x (fun a => ⟨(j (a.cast h.1.symm)).val * strides a + (d a).val - lo a, (hin a).2⟩) else ⊥)

end Cert.Nms.Lib
-- ==== Proof.RefSpec.lean ====
/-
  The reference program computes the specification: read index by index over the extended reals, the last stage of the
  reference is the function `Cert.Nms.G` of its argument.

  The stages: the maximum over the channels is the supremum `chanMax`; the 9 × 9 window maximum with -∞ padding is the
  supremum `windowMax` of the continued image; the two equality tests, their conjunction and the selection give `kept`;
  the sum over the channels from zero gives `G`.
-/
import proofs.«177967_j11708080849517_2_alg».proof.Proof.Spec
import proofs.«177967_j11708080849517_2_alg».proof.Proof.LibWindowMax
import proofs.«177967_j11708080849517_2_alg».proof.Proof.Gen.ReferenceIdeal.Read

noncomputable section

namespace Cert.Nms.Ref

open Idealize.ShloMosaic Idealize.ShloMosaic.ValueIdx Cert.ReferenceIdeal Cert.ReferenceIdeal.Gen Cert.ReferenceIdeal.Read

/-- The f32 word with sign bit set, exponent all ones and zero significand denotes -∞. -/
theorem ofBits_neg_inf_f32 : Ideal.ofBits .f32 0xFF800000#32 = ⊥ := by
  simp [Ideal.ofBits, Ideal.ieee]

/-- The channel maximum: the first stage, at pixel (b, h, w), is the supremum of the argument over the channels. -/
theorem v0_apply (x0 : SX.Idx → EReal) (b : Fin 4) (h : Fin 200) (w : Fin 320) :
    val_main_v0 (F := Ideal) x0 (ix3 b h w) = chanMax x0 b h w := by
  unfold val_main_v0
  rw [Host.reduce_eq_fold_single (FloatOps.maximumf (F := Ideal) (φ := .f32)) x0 _
    reducesTo_S4x256x200x320_S4x200x320_d1 (by decide) h_S_]
  show Finset.univ.fold max (Ideal.ofBits .f32 0xFF800000#32) _ = _
  rw [ofBits_neg_inf_f32]
  unfold chanMax Finset.sup
  refine congrArg ((Finset.univ : Finset (Fin 256)).fold max ⊥) (funext fun c => congrArg x0 (funext fun a => Fin.ext ?_))
  match a with | ⟨0, _⟩ => rfl | ⟨1, _⟩ => rfl | ⟨2, _⟩ => rfl | ⟨3, _⟩ => rfl

/-- The window's positions: a position of the 1 × 1 × 9 × 9 window is its two spatial coordinates. -/
def winEquiv : Fin 9 × Fin 9 ≃ (⟨4, ![1, 1, 9, 9]⟩ : Shape).Idx where
  toFun p := ix4 (0 : Fin 1) (0 : Fin 1) p.1 p.2
  invFun d := (d 2, d 3)
  left_inv _ := rfl
  right_inv d := by
    funext a
    match a with
    | ⟨0, _⟩ => exact @Subsingleton.elim (Fin 1) inferInstance _ _
    | ⟨1, _⟩ => exact @Subsingleton.elim (Fin 1) inferInstance _ _
    | ⟨2, _⟩ => rfl
    | ⟨3, _⟩ => rfl

/-- The initial value of the window reduction is -∞. -/
theorem v4_first : val_main_v4 (F := Ideal) (Shape.Idx.first h_S_) = ⊥ := by
  rw [val_main_v4_apply, val_main_cst_0_apply]
  exact ofBits_neg_inf_f32

/-- The window maximum: the window stage, at (b, c, h, w), is the supremum over the 9 × 9 window of the continued image. -/
theorem v5_apply (x0 : SX.Idx → EReal) (b : Fin 4) (c : Fin 256) (h : Fin 200) (w : Fin 320) :
    val_main_v5 (F := Ideal) x0 (ix4 b c h w) = windowMax x0 b c h w := by
  unfold val_main_v5
  refine (Lib.reduceWindow_max_eq_sup (α := EReal) ![1, 1, 9, 9] ![1, 1, 1, 1] ![0, 0, 4, 4] ![0, 0, 4, 4] x0
    (val_main_v4 (F := Ideal)) reduceWindows_S4x256x200x320_S4x256x200x320_w1s1p0_0_w1s1p0_0_w9s1p4_4_w9s1p4_4 h_S_
    v4_first (ix4 b c h w)).trans ?_
  unfold windowMax
  refine (Lib.sup_univ_comp_equiv winEquiv _).symm.trans ?_
  refine Finset.sup_congr rfl fun p _ => ?_
  unfold padded
  refine Lib.dite_bot_congr ?_ ?_
  · constructor
    · intro H
      have h2 := H ⟨2, by decide⟩
      have h3 := H ⟨3, by decide⟩
      change (4 : ℕ) ≤ h.val * 1 + p.1.val ∧ h.val * 1 + p.1.val - 4 < 200 at h2
      change (4 : ℕ) ≤ w.val * 1 + p.2.val ∧ w.val * 1 + p.2.val - 4 < 320 at h3
      omega
    · intro hh a
      match a with
      | ⟨0, _⟩ => show (0 : ℕ) ≤ b.val * 1 + 0 ∧ b.val * 1 + 0 - 0 < 4; omega
      | ⟨1, _⟩ => show (0 : ℕ) ≤ c.val * 1 + 0 ∧ c.val * 1 + 0 - 0 < 256; omega
      | ⟨2, _⟩ => show (4 : ℕ) ≤ h.val * 1 + p.1.val ∧ h.val * 1 + p.1.val - 4 < 200; omega
      | ⟨3, _⟩ => show (4 : ℕ) ≤ w.val * 1 + p.2.val ∧ w.val * 1 + p.2.val - 4 < 320; omega
  · intro hp hq
    refine congrArg x0 (funext fun a => Fin.ext ?_)
    match a with
    | ⟨0, _⟩ => show b.val * 1 + 0 - 0 = b.val; omega
    | ⟨1, _⟩ => show c.val * 1 + 0 - 0 = c.val; omega
    | ⟨2, _⟩ => show h.val * 1 + p.1.val - 4 = h.val + p.1.val - 4; omega
    | ⟨3, _⟩ => show w.val * 1 + p.2.val - 4 = w.val + p.2.val - 4; omega

/-- The conjunction of two decided bits is the bit 1 exactly when both hold. -/
theorem andi_ofBool_eq_one (p q : Bool) :
    IntOp.andi (BitVec.ofBool p) (BitVec.ofBool q) = 1#1 ↔ p = true ∧ q = true := by
  cases p <;> cases q <;> decide

/-- Selecting `x` on the conjunction of its equality tests against `m` and `l`. -/
theorem select_andi_oeq (x m l z : EReal) :
    Scalar.select (IntOp.andi (FloatOps.cmpf (F := Ideal) (φ := .f32) .oeq x m)
      (FloatOps.cmpf (F := Ideal) (φ := .f32) .oeq x l)) x z = if x = m ∧ x = l then x else z := by
  show (if IntOp.andi (BitVec.ofBool (decide (x = m))) (BitVec.ofBool (decide (x = l))) = 1#1 then x else z) = _
  refine if_congr ?_ rfl rfl
  rw [andi_ofBool_eq_one, decide_eq_true_eq, decide_eq_true_eq]

/-- The channel maximum broadcast back over the channels. -/
theorem v2_apply (x0 : SX.Idx → EReal) (b : Fin 4) (c : Fin 256) (h : Fin 200) (w : Fin 320) :
    val_main_v2 (F := Ideal) x0 (ix4 b c h w) = chanMax x0 b h w := by
  rw [val_main_v2_apply, val_main_v1_apply]
  have hi : idx_main_v1 (idx_main_v2 (ix4 b c h w)) = ix3 b h w := funext fun a => by
    match a with | ⟨0, _⟩ => rfl | ⟨1, _⟩ => rfl | ⟨2, _⟩ => rfl
  rw [hi]
  exact v0_apply x0 b h w

/-- The selected value: the pixel's value where it equals both maxima, zero elsewhere. -/
theorem v8_apply (x0 : SX.Idx → EReal) (b : Fin 4) (c : Fin 256) (h : Fin 200) (w : Fin 320) :
    val_main_v8 (F := Ideal) x0 (ix4 b c h w) = kept x0 b c h w := by
  rw [val_main_v8_apply, val_main_v7_apply, val_main_v3_apply, val_main_v6_apply, v2_apply, v5_apply,
    val_main_call0_v0_apply, val_main_cst_1_apply]
  show Scalar.select _ _ (Ideal.ofBits .f32 0x00000000#32) = _
  rw [Ideal.ofBits_zero_f32]
  exact select_andi_oeq _ _ _ _

/-- The reference's result is the specification function of its argument. -/
theorem ref_eq (x0 : (⟨S4x256x200x320, .f32⟩ : BufTy).Contents (Elt Ideal)) :
    val_main_v9 (F := Ideal) x0 = G x0 := by
  funext j
  obtain ⟨b, h, w, rfl⟩ : ∃ b h w, j = ix3 b h w := ⟨j 0, j 1, j 2, eq_ix3 j⟩
  rw [val_main_v9_apply, val_main_cst_2_apply]
  show Ideal.ofBits .f32 0x00000000#32 + _ = _
  rw [Ideal.ofBits_zero_f32, zero_add]
  unfold G
  refine Finset.sum_congr rfl fun k _ => ?_
  have hk : idx_main_v9 (ix3 b h w) k = ix4 b k h w := funext fun a => by
    match a with | ⟨0, _⟩ => rfl | ⟨1, _⟩ => rfl | ⟨2, _⟩ => rfl | ⟨3, _⟩ => rfl
  rw [hk]
  exact v8_apply x0 b k h w

end Cert.Nms.Ref

end
-- ==== Proof.lean ====
/-
  A non-maximum-suppression kernel against its reference, over the extended reals.

  For an image x[b, c, h, w] (4 batches, 256 channels, 200 × 320 pixels) both programs compute, at (b, h, w), the sum
  over the channels of the pixel's value where it is at once the largest over the channels at the pixel and the
  largest in its 9 × 9 window within its channel (the image continued by -∞), and of zero elsewhere.

  The reference takes the channel maximum, the window maximum (a windowed reduction with -∞ padding), compares, selects
  and sums over the channels. The kernel pads the image by four pixels of -∞ on the host; per batch it copies five
  overlapping row tiles (48 padded rows each) into two alternating slots of a scratch buffer, the next tile's copy in
  flight while the current tile is read; per tile a first loop over 16 chunks of 16 channels takes the channel maximum,
  a second loop takes per chunk the window maximum as nine column shifts then nine row shifts, keeps the pixels equal
  to both maxima, sums the chunk's channels and accumulates. At the extended reals a maximum taken in chunks, a window
  maximum taken axis by axis and a sum taken in chunks are the maximum, the window maximum and the sum; the padded
  image read at a window's positions is the continued image. So the two results are one function of the image.

  The three programs terminate without a fault and leave the argument unchanged: each kernel's body is run once at
  symbolic operands (every copy it starts it waits for within the grid point; the two slots are disjoint and cover the
  scratch buffer; each loop by an invariant), and the reference is host operations only.
-/
import proofs.«177967_j11708080849517_2_alg».proof.Defs
import proofs.«177967_j11708080849517_2_alg».proof.Proof.Gen.Kernel
import proofs.«177967_j11708080849517_2_alg».proof.Proof.Gen.KernelIdeal
import proofs.«177967_j11708080849517_2_alg».proof.Proof.Gen.ReferenceIdeal
import proofs.«177967_j11708080849517_2_alg».proof.Proof.Gen.Pre_finite_inputs
import proofs.«177967_j11708080849517_2_alg».proof.Proof.Gen.ReferenceIdeal.Run
import proofs.«177967_j11708080849517_2_alg».proof.Proof.Gen.ReferenceIdeal.Read
import proofs.«177967_j11708080849517_2_alg».proof.Proof.KernelFrame
import proofs.«177967_j11708080849517_2_alg».proof.Proof.KernelIdealFrame
import proofs.«177967_j11708080849517_2_alg».proof.Proof.KernelIdealValue
import proofs.«177967_j11708080849517_2_alg».proof.Proof.RefSpec
import Idealize.ShloMosaic.Adequacy
import Idealize.ShloMosaic.Init

noncomputable section

namespace Cert.Proof

open Idealize.ShloMosaic Idealize.SL.Sem

/-- The word-level kernel's frame and the idealized kernel's: the hand-run body under the library's launch theorem. -/
theorem frame_k : Cert.frame_Kernel := fun m ρ _ => Cert.Kernel.Hand.frame m ρ
theorem frame_ki : Cert.frame_KernelIdeal := fun m ρ _ => Cert.KernelIdeal.Hand.frame m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification of the argument image in their result arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Nms.Ref.ref_eq, hagree c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
